-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S10x128 : Shape := ⟨2, ![10, 128]⟩
abbrev S10 : Shape := ⟨1, ![10]⟩
abbrev S2x640000 : Shape := ⟨2, ![2, 640000]⟩
abbrev S40000 : Shape := ⟨1, ![40000]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S10x128 : S_.BroadcastsInDim S10x128 (![] : Fin 0 → Fin S10x128.rank)
  reducesTo_S10x128_S_d0_1 : S10x128.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg7 : FVec F S10 .f32) (main_v33 : IVec S_ 1) : IVec S_ 1 :=
  let main_v34 : FVec F S10 .f32 := Host.absf main_arg7
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S10x128 .f32) (main_arg7 : FVec F S10 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S10x128 .f32 := Host.absf main_arg6
  let main_cst_10 : FVec F S_ .f32 := constant S_ .f32 0x7F800000#32
  let main_v30 : FVec F S10x128 .f32 := broadcastInDim S10x128 ![] bcast_S_S10x128 main_cst_10
  let main_v31 : IVec S10x128 1 := cmpf .olt main_v29 main_v30
  let main_c_11 : IVec S_ 1 := constantI S_ 1 1#1
  let main_v32 : IVec S_ 1 := (fun x v => Host.reduce IntOp.andi x v reducesTo_S10x128_S_d0_1 h_S_) main_v31 main_c_11
  let main_v33 : IVec S_ 1 := andi main_v28 main_v32
  fn_part2 (F := F) main_arg7 main_v33

def fn {F : FTy → Type} [FloatOps F] (main_arg0 : FVec F S40000x128 .f32) (main_arg1 : FVec F S3x128x128 .f32) (main_arg2 : FVec F S3x128 .f32) (main_arg3 : FVec F S3x128x128 .f32) (main_arg4 : FVec F S128x128 .f32) (main_arg5 : FVec F S128 .f32) (main_arg6 : FVec F S10x128 .f32) (main_arg7 : FVec F S10 .f32) (main_arg8 : IVec S2x640000 32) (main_arg9 : IVec S40000 32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S3x128x128 .f32 := Host.absf main_arg1
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg2
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg3
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg4 main_arg5 main_arg6 main_arg7 main_v13 main_v16
-- ==== Kernel.lean ====
abbrev S40000x128 : Shape := ⟨2, ![40000, 128]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S10x128 : Shape := ⟨2, ![10, 128]⟩
abbrev S10 : Shape := ⟨1, ![10]⟩
abbrev S2x640000 : Shape := ⟨2, ![2, 640000]⟩
abbrev S40000 : Shape := ⟨1, ![40000]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S40000x1 : Shape := ⟨2, ![40000, 1]⟩
abbrev S1x128x128 : Shape := ⟨3, ![1, 128, 128]⟩
abbrev S1x128 : Shape := ⟨2, ![1, 128]⟩
abbrev S4000x128 : Shape := ⟨2, ![4000, 128]⟩
abbrev S64 : Shape := ⟨1, ![64]⟩
abbrev S64x128 : Shape := ⟨2, ![64, 128]⟩
abbrev S64x1 : Shape := ⟨2, ![64, 1]⟩
abbrev S128x10 : Shape := ⟨2, ![128, 10]⟩
abbrev S1x10 : Shape := ⟨2, ![1, 10]⟩
abbrev S64x10 : Shape := ⟨2, ![64, 10]⟩

abbrev nBuf : Space → Nat
  | .hbm => 122
  | .vmem => 33
  | .smem => 0
  | _ => 0

abbrev bufTy : (tb : Table) → Fin (tcTables nBuf tb) → BufTy
  | .hbm, ⟨0, _⟩ => ⟨S40000x128, .f32⟩
  | .hbm, ⟨1, _⟩ => ⟨S3x128x128, .f32⟩
  | .hbm, ⟨2, _⟩ => ⟨S3x128, .f32⟩
  | .hbm, ⟨3, _⟩ => ⟨S3x128x128, .f32⟩
  | .hbm, ⟨4, _⟩ => ⟨S128x128, .f32⟩
  | .hbm, ⟨5, _⟩ => ⟨S128, .f32⟩
  | .hbm, ⟨6, _⟩ => ⟨S10x128, .f32⟩
  | .hbm, ⟨7, _⟩ => ⟨S10, .f32⟩
  | .hbm, ⟨8, _⟩ => ⟨S2x640000, .i32⟩
  | .hbm, ⟨9, _⟩ => ⟨S40000, .i32⟩
  | .hbm, ⟨10, _⟩ => ⟨S1x640000, .i32⟩
  | .hbm, ⟨11, _⟩ => ⟨S640000, .i32⟩
  | .hbm, ⟨12, _⟩ => ⟨S1x640000, .i32⟩
  | .hbm, ⟨13, _⟩ => ⟨S640000, .i32⟩
  | .hbm, ⟨14, _⟩ => ⟨S_, .f32⟩
  | .hbm, ⟨15, _⟩ => ⟨S640000, .f32⟩
  | .hbm, ⟨16, _⟩ => ⟨S_, .f32⟩
  | .hbm, ⟨17, _⟩ => ⟨S40000, .f32⟩
  | .hbm, ⟨18, _⟩ => ⟨S640000x1, .i32⟩
  | .hbm, ⟨19, _⟩ => ⟨S40000, .f32⟩
  | .hbm, ⟨20, _⟩ => ⟨S_, .f32⟩
  | .hbm, ⟨21, _⟩ => ⟨S40000, .f32⟩
  | .hbm, ⟨22, _⟩ => ⟨S40000, .f32⟩
  | .hbm, ⟨23, _⟩ => ⟨S_, .i32⟩
  | .hbm, ⟨24, _⟩ => ⟨S640000, .i32⟩
  | .hbm, ⟨25, _⟩ => ⟨S640000, .i1⟩
  | .hbm, ⟨26, _⟩ => ⟨S_, .i32⟩
  | .hbm, ⟨27, _⟩ => ⟨S640000, .i32⟩
  | .hbm, ⟨28, _⟩ => ⟨S640000, .i32⟩
  | .hbm, ⟨29, _⟩ => ⟨S640000, .i32⟩
  | .hbm, ⟨30, _⟩ => ⟨S640000x1, .i32⟩
  | .hbm, ⟨31, _⟩ => ⟨S640000x128, .f32⟩
  | .hbm, ⟨32, _⟩ => ⟨S_, .f32⟩
  | .hbm, ⟨33, _⟩ => ⟨S40000x128, .f32⟩
  | .hbm, ⟨34, _⟩ => ⟨S640000x1, .i32⟩
  | .hbm, ⟨35, _⟩ => ⟨S40000x128, .f32⟩
  | .hbm, ⟨36, _⟩ => ⟨S40000x1, .f32⟩
  | .hbm, ⟨37, _⟩ => ⟨S40000x128, .f32⟩
  | .hbm, ⟨38, _⟩ => ⟨S40000x128, .f32⟩
  | .hbm, ⟨39, _⟩ => ⟨S1x128x128, .f32⟩
  | .hbm, ⟨40, _⟩ => ⟨S128x128, .f32⟩
  | .hbm, ⟨41, _⟩ => ⟨S128x128, .f32⟩
  | .hbm, ⟨42, _⟩ => ⟨S1x128x128, .f32⟩
  | .hbm, ⟨43, _⟩ => ⟨S128x128, .f32⟩
  | .hbm, ⟨44, _⟩ => ⟨S128x128, .f32⟩
  | .hbm, ⟨45, _⟩ => ⟨S1x128, .f32⟩
  | .hbm, ⟨46, _⟩ => ⟨S128, .f32⟩
  | .hbm, ⟨47, _⟩ => ⟨S1x128, .f32⟩
  | .hbm, ⟨48, _⟩ => ⟨S40000x128, .f32⟩
  | .hbm, ⟨49, _⟩ => ⟨S_, .i32⟩
  | .hbm, ⟨50, _⟩ => ⟨S640000, .i32⟩
  | .hbm, ⟨51, _⟩ => ⟨S640000, .i1⟩
  | .hbm, ⟨52, _⟩ => ⟨S_, .i32⟩
  | .hbm, ⟨53, _⟩ => ⟨S640000, .i32⟩
  | .hbm, ⟨54, _⟩ => ⟨S640000, .i32⟩
  | .hbm, ⟨55, _⟩ => ⟨S640000, .i32⟩
  | .hbm, ⟨56, _⟩ => ⟨S640000x1, .i32⟩
  | .hbm, ⟨57, _⟩ => ⟨S640000x128, .f32⟩
  | .hbm, ⟨58, _⟩ => ⟨S_, .f32⟩
  | .hbm, ⟨59, _⟩ => ⟨S40000x128, .f32⟩
  | .hbm, ⟨60, _⟩ => ⟨S640000x1, .i32⟩
  | .hbm, ⟨61, _⟩ => ⟨S40000x128, .f32⟩
  | .hbm, ⟨62, _⟩ => ⟨S40000x1, .f32⟩
  | .hbm, ⟨63, _⟩ => ⟨S40000x128, .f32⟩
  | .hbm, ⟨64, _⟩ => ⟨S40000x128, .f32⟩
  | .hbm, ⟨65, _⟩ => ⟨S1x128x128, .f32⟩
  | .hbm, ⟨66, _⟩ => ⟨S128x128, .f32⟩
  | .hbm, ⟨67, _⟩ => ⟨S128x128, .f32⟩
  | .hbm, ⟨68, _⟩ => ⟨S1x128x128, .f32⟩
  | .hbm, ⟨69, _⟩ => ⟨S128x128, .f32⟩
  | .hbm, ⟨70, _⟩ => ⟨S128x128, .f32⟩
  | .hbm, ⟨71, _⟩ => ⟨S1x128, .f32⟩
  | .hbm, ⟨72, _⟩ => ⟨S128, .f32⟩
  | .hbm, ⟨73, _⟩ => ⟨S1x128, .f32⟩
  | .hbm, ⟨74, _⟩ => ⟨S40000x128, .f32⟩
  | .hbm, ⟨75, _⟩ => ⟨S_, .i32⟩
  | .hbm, ⟨76, _⟩ => ⟨S640000, .i32⟩
  | .hbm, ⟨77, _⟩ => ⟨S640000, .i1⟩
  | .hbm, ⟨78, _⟩ => ⟨S_, .i32⟩
  | .hbm, ⟨79, _⟩ => ⟨S640000, .i32⟩
  | .hbm, ⟨80, _⟩ => ⟨S640000, .i32⟩
  | .hbm, ⟨81, _⟩ => ⟨S640000, .i32⟩
  | .hbm, ⟨82, _⟩ => ⟨S640000x1, .i32⟩
  | .hbm, ⟨83, _⟩ => ⟨S640000x128, .f32⟩
  | .hbm, ⟨84, _⟩ => ⟨S_, .f32⟩
  | .hbm, ⟨85, _⟩ => ⟨S40000x128, .f32⟩
  | .hbm, ⟨86, _⟩ => ⟨S640000x1, .i32⟩
  | .hbm, ⟨87, _⟩ => ⟨S40000x128, .f32⟩
  | .hbm, ⟨88, _⟩ => ⟨S40000x1, .f32⟩
  | .hbm, ⟨89, _⟩ => ⟨S40000x128, .f32⟩
  | .hbm, ⟨90, _⟩ => ⟨S40000x128, .f32⟩
  | .hbm, ⟨91, _⟩ => ⟨S1x128x128, .f32⟩
  | .hbm, ⟨92, _⟩ => ⟨S128x128, .f32⟩
  | .hbm, ⟨93, _⟩ => ⟨S128x128, .f32⟩
  | .hbm, ⟨94, _⟩ => ⟨S1x128x128, .f32⟩
  | .hbm, ⟨95, _⟩ => ⟨S128x128, .f32⟩
  | .hbm, ⟨96, _⟩ => ⟨S128x128, .f32⟩
  | .hbm, ⟨97, _⟩ => ⟨S1x128, .f32⟩
  | .hbm, ⟨98, _⟩ => ⟨S128, .f32⟩
  | .hbm, ⟨99, _⟩ => ⟨S1x128, .f32⟩
  | .hbm, ⟨100, _⟩ => ⟨S40000x128, .f32⟩
  | .hbm, ⟨101, _⟩ => ⟨S_, .f32⟩
  | .hbm, ⟨102, _⟩ => ⟨S40000, .f32⟩
  | .hbm, ⟨103, _⟩ => ⟨S_, .f32⟩
  | .hbm, ⟨104, _⟩ => ⟨S64, .f32⟩
  | .hbm, ⟨105, _⟩ => ⟨S40000x1, .i32⟩
  | .hbm, ⟨106, _⟩ => ⟨S64, .f32⟩
  | .hbm, ⟨107, _⟩ => ⟨S_, .f32⟩
  | .hbm, ⟨108, _⟩ => ⟨S64, .f32⟩
  | .hbm, ⟨109, _⟩ => ⟨S64, .f32⟩
  | .hbm, ⟨110, _⟩ => ⟨S_, .f32⟩
  | .hbm, ⟨111, _⟩ => ⟨S64x128, .f32⟩
  | .hbm, ⟨112, _⟩ => ⟨S40000x1, .i32⟩
  | .hbm, ⟨113, _⟩ => ⟨S64x128, .f32⟩
  | .hbm, ⟨114, _⟩ => ⟨S64x1, .f32⟩
  | .hbm, ⟨115, _⟩ => ⟨S64x128, .f32⟩
  | .hbm, ⟨116, _⟩ => ⟨S64x128, .f32⟩
  | .hbm, ⟨117, _⟩ => ⟨S128x128, .f32⟩
  | .hbm, ⟨118, _⟩ => ⟨S128x10, .f32⟩
  | .hbm, ⟨119, _⟩ => ⟨S1x128, .f32⟩
  | .hbm, ⟨120, _⟩ => ⟨S1x10, .f32⟩
  | .hbm, ⟨121, _⟩ => ⟨S64x10, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S4000x128, .f32⟩
  | .local _ .vmem, ⟨26, _⟩ => ⟨S4000x128, .f32⟩
  | .local _ .vmem, ⟨27, _⟩ => ⟨S64x128, .f32⟩
  | .local _ .vmem, ⟨28, _⟩ => ⟨S128x128, .f32⟩
  | .local _ .vmem, ⟨29, _⟩ => ⟨S1x128, .f32⟩
  | .local _ .vmem, ⟨30, _⟩ => ⟨S128x10, .f32⟩
  | .local _ .vmem, ⟨31, _⟩ => ⟨S1x10, .f32⟩
  | .local _ .vmem, ⟨32, _⟩ => ⟨S64x10, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_4 : Ref sig .tc := ⟨.hbm, 49, rfl⟩
abbrev main_v33 : Ref sig .tc := ⟨.hbm, 50, rfl⟩
abbrev main_v34 : Ref sig .tc := ⟨.hbm, 51, rfl⟩
abbrev main_c_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_7 : Ref sig .tc := ⟨.hbm, 75, rfl⟩
abbrev main_v56 : Ref sig .tc := ⟨.hbm, 76, rfl⟩
abbrev main_v57 : Ref sig .tc := ⟨.hbm, 77, rfl⟩
abbrev main_c_8 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_9 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_10 : Ref sig .tc := ⟨.hbm, 101, rfl⟩
abbrev main_v79 : Ref sig .tc := ⟨.hbm, 102, rfl⟩
abbrev main_cst_11 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_12 : Ref sig .tc := ⟨.hbm, 107, rfl⟩
abbrev main_v83 : Ref sig .tc := ⟨.hbm, 108, rfl⟩
abbrev main_v84 : Ref sig .tc := ⟨.hbm, 109, rfl⟩
abbrev main_cst_13 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S64x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x10 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x10 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  slices_S3x128_S1x128_0_0 : S3x128.Slices ![0, 0] S1x128
  shapeCasts_S1x128_S128 : S1x128.ShapeCasts S128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S64 : S_.BroadcastsInDim S64 (![] : Fin 0 → Fin S64.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  transposes_S10x128_S128x10_1_0 : S10x128.Transposes [1, 0] S128x10
  shapeCasts_S10_S1x10 : S10.ShapeCasts S1x10
  inb_S64x128_S64x128_0_0 : ∀ a, (![0, 0] : Fin 2 → Nat) a + S64x128.size a ≤ S64x128.size a
  h_S64x128 : 0 < S64x128.numel
  shapeCasts_S64x128_S64x128 : S64x128.ShapeCasts S64x128
  broadcasts_S1x128_S64x128 : S1x128.Broadcasts S64x128
  inb_S128x10_S128x10_0_0 : ∀ a, (![0, 0] : Fin 2 → Nat) a + S128x10.size a ≤ S128x10.size a
  h_S128x10 : 0 < S128x10.numel
  shapeCasts_S128x10_S128x10 : S128x10.ShapeCasts S128x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  reduces_S64x10_S64 : S64x10.Reduces [1] S64
  shapeCasts_S64_S64x1 : S64.ShapeCasts S64x1
  broadcasts_S64x1_S64x10 : S64x1.Broadcasts S64x10
  inb_S64x10_S64x10_0_0 : ∀ a, (![0, 0] : Fin 2 → Nat) a + S64x10.size a ≤ S64x10.size a
  h_S64x10 : 0 < S64x10.numel
  scatter_S40000_S640000x1_S640000_n_0_0_1_wf : ScatterDims.WF S40000 S640000x1 S640000 [] [0] [0] 1
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S4000x128_S128x128_S4000x128_1_0_0_1_n_n_wf : DotDims.WF S4000x128 S128x128 S4000x128 [1] [0] [0] [1] [] []
  scatter_S64_S40000x1_S40000_n_0_0_1_wf : ScatterDims.WF S64 S40000x1 S40000 [] [0] [0] 1
  scatter_S64x128_S40000x1_S40000x128_1_0_0_1_wf : ScatterDims.WF S64x128 S40000x1 S40000x128 [1] [0] [0] 1
  dot_S64x128_S128x128_S64x128_1_0_0_1_n_n_wf : DotDims.WF S64x128 S128x128 S64x128 [1] [0] [0] [1] [] []
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S40000x128.size a
  hwx0_0 : ∀ i : grid0.Coords, EltTy.bits .f32 = 32 ∨ (Rect.block (s := S40000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S40000x128.size a
  hwx0_1 : ∀ i : grid0.Coords, EltTy.bits .f32 = 32 ∨ (Rect.block (s := S40000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S40000x128.size a
  hwx0_5 : ∀ i : grid0.Coords, EltTy.bits .f32 = 32 ∨ (Rect.block (s := S40000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S40000x128.size a
  hwx1_0 : ∀ i : grid1.Coords, EltTy.bits .f32 = 32 ∨ (Rect.block (s := S40000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S40000x128.size a
  hwx1_1 : ∀ i : grid1.Coords, EltTy.bits .f32 = 32 ∨ (Rect.block (s := S40000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S40000x128.size a
  hwx1_5 : ∀ i : grid1.Coords, EltTy.bits .f32 = 32 ∨ (Rect.block (s := S40000x128) S4000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S40000x128.size a
  hwx2_0 : ∀ i : grid2.Coords, EltTy.bits .f32 = 32 ∨ (Rect.block (s := S40000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S40000x128.size a
  hwx2_1 : ∀ i : grid2.Coords, EltTy.bits .f32 = 32 ∨ (Rect.block (s := S40000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S40000x128.size a
  hwx2_5 : ∀ i : grid2.Coords, EltTy.bits .f32 = 32 ∨ (Rect.block (s := S40000x128) S4000x128.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S64x128.size a ≤ S64x128.size a
  hwx3_0 : ∀ i : grid3.Coords, EltTy.bits .f32 = 32 ∨ (Rect.block (s := S64x128) S64x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x10.size a ≤ S128x10.size a
  hwx3_3 : ∀ i : grid3.Coords, EltTy.bits .f32 = 32 ∨ (Rect.block (s := S128x10) S128x10.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x10.size a ≤ S1x10.size a
  hwx3_4 : ∀ i : grid3.Coords, EltTy.bits .f32 = 32 ∨ (Rect.block (s := S1x10) S1x10.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x10.size a ≤ S64x10.size a
  hwx3_5 : ∀ i : grid3.Coords, EltTy.bits .f32 = 32 ∨ (Rect.block (s := S64x10) S64x10.size (cc3_transform_5 i) (hinb3_5 i)).WholeWords (EltTy.packing .f32)

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S64_S40000x1_S40000_n_0_0_1 : ScatterDims S64 S40000x1 S40000 where
  updateWindowDims := []
  insertedWindowDims := [0]
  scatterDimsToOperandDims := [0]
  indexVectorDim := 1
  wf := scatter_S64_S40000x1_S40000_n_0_0_1_wf
def scatter_S64x128_S40000x1_S40000x128_1_0_0_1 : ScatterDims S64x128 S40000x1 S40000x128 where
  updateWindowDims := [1]
  insertedWindowDims := [0]
  scatterDimsToOperandDims := [0]
  indexVectorDim := 1
  wf := scatter_S64x128_S40000x1_S40000x128_1_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_v22) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v54) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v55) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v68) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v71) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v77) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v74) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v78) S4000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v90) S64x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v91) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v93) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v92) S128x10.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v94) S1x10.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v95) S64x10.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S40000x128 : Shape := ⟨2, ![40000, 128]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S10x128 : Shape := ⟨2, ![10, 128]⟩
abbrev S10 : Shape := ⟨1, ![10]⟩
abbrev S2x640000 : Shape := ⟨2, ![2, 640000]⟩
abbrev S40000 : Shape := ⟨1, ![40000]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S40000x1 : Shape := ⟨2, ![40000, 1]⟩
abbrev S1x128x128 : Shape := ⟨3, ![1, 128, 128]⟩
abbrev S1x128 : Shape := ⟨2, ![1, 128]⟩
abbrev S64 : Shape := ⟨1, ![64]⟩
abbrev S64x128 : Shape := ⟨2, ![64, 128]⟩
abbrev S64x1 : Shape := ⟨2, ![64, 1]⟩
abbrev S128x10 : Shape := ⟨2, ![128, 10]⟩
abbrev S64x10 : Shape := ⟨2, ![64, 10]⟩
abbrev S1x10 : Shape := ⟨2, ![1, 10]⟩

abbrev nBuf : Space → Nat
  | .hbm => 166
  | .vmem => 0
  | .smem => 0
  | _ => 0

abbrev hbmTy0_0 (i : Nat) : BufTy := match i % 128 with
  | 0 => ⟨S40000x128, .f32⟩
  | 1 => ⟨S3x128x128, .f32⟩
  | 2 => ⟨S3x128, .f32⟩
  | 3 => ⟨S3x128x128, .f32⟩
  | 4 => ⟨S128x128, .f32⟩
  | 5 => ⟨S128, .f32⟩
  | 6 => ⟨S10x128, .f32⟩
  | 7 => ⟨S10, .f32⟩
  | 8 => ⟨S2x640000, .i32⟩
  | 9 => ⟨S40000, .i32⟩
  | 10 => ⟨S1x640000, .i32⟩
  | 11 => ⟨S640000, .i32⟩
  | 12 => ⟨S1x640000, .i32⟩
  | 13 => ⟨S640000, .i32⟩
  | 14 => ⟨S_, .f32⟩
  | 15 => ⟨S640000, .f32⟩
  | 16 => ⟨S_, .f32⟩
  | 17 => ⟨S40000, .f32⟩
  | 18 => ⟨S640000x1, .i32⟩
  | 19 => ⟨S40000, .f32⟩
  | 20 => ⟨S_, .f32⟩
  | 21 => ⟨S40000, .f32⟩
  | 22 => ⟨S40000, .f32⟩
  | 23 => ⟨S_, .i32⟩
  | 24 => ⟨S640000, .i32⟩
  | 25 => ⟨S640000, .i1⟩
  | 26 => ⟨S_, .i32⟩
  | 27 => ⟨S640000, .i32⟩
  | 28 => ⟨S640000, .i32⟩
  | 29 => ⟨S640000, .i32⟩
  | 30 => ⟨S640000x1, .i32⟩
  | 31 => ⟨S640000x128, .f32⟩
  | 32 => ⟨S_, .f32⟩
  | 33 => ⟨S40000x128, .f32⟩
  | 34 => ⟨S640000x1, .i32⟩
  | 35 => ⟨S40000x128, .f32⟩
  | 36 => ⟨S40000x1, .f32⟩
  | 37 => ⟨S40000x128, .f32⟩
  | 38 => ⟨S40000x128, .f32⟩
  | 39 => ⟨S1x128x128, .f32⟩
  | 40 => ⟨S128x128, .f32⟩
  | 41 => ⟨S128x128, .f32⟩
  | 42 => ⟨S40000x128, .f32⟩
  | 43 => ⟨S1x128, .f32⟩
  | 44 => ⟨S128, .f32⟩
  | 45 => ⟨S1x128, .f32⟩
  | 46 => ⟨S40000x128, .f32⟩
  | 47 => ⟨S40000x128, .f32⟩
  | 48 => ⟨S1x128x128, .f32⟩
  | 49 => ⟨S128x128, .f32⟩
  | 50 => ⟨S128x128, .f32⟩
  | 51 => ⟨S40000x128, .f32⟩
  | 52 => ⟨S40000x128, .f32⟩
  | 53 => ⟨S_, .f32⟩
  | 54 => ⟨S40000x128, .f32⟩
  | 55 => ⟨S40000x128, .f32⟩
  | 56 => ⟨S_, .i32⟩
  | 57 => ⟨S640000, .i32⟩
  | 58 => ⟨S640000, .i1⟩
  | 59 => ⟨S_, .i32⟩
  | 60 => ⟨S640000, .i32⟩
  | 61 => ⟨S640000, .i32⟩
  | 62 => ⟨S640000, .i32⟩
  | 63 => ⟨S640000x1, .i32⟩
  | 64 => ⟨S640000x128, .f32⟩
  | 65 => ⟨S_, .f32⟩
  | 66 => ⟨S40000x128, .f32⟩
  | 67 => ⟨S640000x1, .i32⟩
  | 68 => ⟨S40000x128, .f32⟩
  | 69 => ⟨S40000x1, .f32⟩
  | 70 => ⟨S40000x128, .f32⟩
  | 71 => ⟨S40000x128, .f32⟩
  | 72 => ⟨S1x128x128, .f32⟩
  | 73 => ⟨S128x128, .f32⟩
  | 74 => ⟨S128x128, .f32⟩
  | 75 => ⟨S40000x128, .f32⟩
  | 76 => ⟨S1x128, .f32⟩
  | 77 => ⟨S128, .f32⟩
  | 78 => ⟨S1x128, .f32⟩
  | 79 => ⟨S40000x128, .f32⟩
  | 80 => ⟨S40000x128, .f32⟩
  | 81 => ⟨S1x128x128, .f32⟩
  | 82 => ⟨S128x128, .f32⟩
  | 83 => ⟨S128x128, .f32⟩
  | 84 => ⟨S40000x128, .f32⟩
  | 85 => ⟨S40000x128, .f32⟩
  | 86 => ⟨S_, .f32⟩
  | 87 => ⟨S40000x128, .f32⟩
  | 88 => ⟨S40000x128, .f32⟩
  | 89 => ⟨S_, .i32⟩
  | 90 => ⟨S640000, .i32⟩
  | 91 => ⟨S640000, .i1⟩
  | 92 => ⟨S_, .i32⟩
  | 93 => ⟨S640000, .i32⟩
  | 94 => ⟨S640000, .i32⟩
  | 95 => ⟨S640000, .i32⟩
  | 96 => ⟨S640000x1, .i32⟩
  | 97 => ⟨S640000x128, .f32⟩
  | 98 => ⟨S_, .f32⟩
  | 99 => ⟨S40000x128, .f32⟩
  | 100 => ⟨S640000x1, .i32⟩
  | 101 => ⟨S40000x128, .f32⟩
  | 102 => ⟨S40000x1, .f32⟩
  | 103 => ⟨S40000x128, .f32⟩
  | 104 => ⟨S40000x128, .f32⟩
  | 105 => ⟨S1x128x128, .f32⟩
  | 106 => ⟨S128x128, .f32⟩
  | 107 => ⟨S128x128, .f32⟩
  | 108 => ⟨S40000x128, .f32⟩
  | 109 => ⟨S1x128, .f32⟩
  | 110 => ⟨S128, .f32⟩
  | 111 => ⟨S1x128, .f32⟩
  | 112 => ⟨S40000x128, .f32⟩
  | 113 => ⟨S40000x128, .f32⟩
  | 114 => ⟨S1x128x128, .f32⟩
  | 115 => ⟨S128x128, .f32⟩
  | 116 => ⟨S128x128, .f32⟩
  | 117 => ⟨S40000x128, .f32⟩
  | 118 => ⟨S40000x128, .f32⟩
  | 119 => ⟨S_, .f32⟩
  | 120 => ⟨S40000x128, .f32⟩
  | 121 => ⟨S40000x128, .f32⟩
  | 122 => ⟨S_, .f32⟩
  | 123 => ⟨S40000, .f32⟩
  | 124 => ⟨S_, .f32⟩
  | 125 => ⟨S64, .f32⟩
  | 126 => ⟨S40000x1, .i32⟩
  | 127 => ⟨S64, .f32⟩
  | _ => ⟨S40000x128, .f32⟩

abbrev hbmTy0_1 (i : Nat) : BufTy := match i % 128 with
  | 0 => ⟨S_, .f32⟩
  | 1 => ⟨S64, .f32⟩
  | 2 => ⟨S64, .f32⟩
  | 3 => ⟨S_, .f32⟩
  | 4 => ⟨S64x128, .f32⟩
  | 5 => ⟨S40000x1, .i32⟩
  | 6 => ⟨S64x128, .f32⟩
  | 7 => ⟨S64x1, .f32⟩
  | 8 => ⟨S64x128, .f32⟩
  | 9 => ⟨S64x128, .f32⟩
  | 10 => ⟨S128x128, .f32⟩
  | 11 => ⟨S64x128, .f32⟩
  | 12 => ⟨S1x128, .f32⟩
  | 13 => ⟨S64x128, .f32⟩
  | 14 => ⟨S64x128, .f32⟩
  | 15 => ⟨S_, .f32⟩
  | 16 => ⟨S64x128, .f32⟩
  | 17 => ⟨S64x128, .f32⟩
  | 18 => ⟨S128x10, .f32⟩
  | 19 => ⟨S64x10, .f32⟩
  | 20 => ⟨S1x10, .f32⟩
  | 21 => ⟨S64x10, .f32⟩
  | 22 => ⟨S64x10, .f32⟩
  | 23 => ⟨S_, .f32⟩
  | 24 => ⟨S64, .f32⟩
  | 25 => ⟨S_, .f32⟩
  | 26 => ⟨S64, .f32⟩
  | 27 => ⟨S64, .f32⟩
  | 28 => ⟨S64x1, .f32⟩
  | 29 => ⟨S64x10, .f32⟩
  | 30 => ⟨S64x10, .f32⟩
  | 31 => ⟨S64x10, .f32⟩
  | 32 => ⟨S_, .f32⟩
  | 33 => ⟨S64, .f32⟩
  | 34 => ⟨S64x1, .f32⟩
  | 35 => ⟨S64x1, .f32⟩
  | 36 => ⟨S64x10, .f32⟩
  | 37 => ⟨S64x10, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_call0_cst : Ref sig .tc := ⟨.hbm, 53, rfl⟩
abbrev main_call0_v0 : Ref sig .tc := ⟨.hbm, 54, rfl⟩
abbrev main_v37 : Ref sig .tc := ⟨.hbm, 55, rfl⟩
abbrev main_c_4 : Ref sig .tc := ⟨.hbm, 56, rfl⟩
abbrev main_v38 : Ref sig .tc := ⟨.hbm, 57, rfl⟩
abbrev main_v39 : Ref sig .tc := ⟨.hbm, 58, rfl⟩
abbrev main_c_5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_6 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_call1_cst : Ref sig .tc := ⟨.hbm, 86, rfl⟩
abbrev main_call1_v0 : Ref sig .tc := ⟨.hbm, 87, rfl⟩
abbrev main_v65 : Ref sig .tc := ⟨.hbm, 88, rfl⟩
abbrev main_c_7 : Ref sig .tc := ⟨.hbm, 89, rfl⟩
abbrev main_v66 : Ref sig .tc := ⟨.hbm, 90, rfl⟩
abbrev main_v67 : Ref sig .tc := ⟨.hbm, 91, rfl⟩
abbrev main_c_8 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_9 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_call2_cst : Ref sig .tc := ⟨.hbm, 119, rfl⟩
abbrev main_call2_v0 : Ref sig .tc := ⟨.hbm, 120, rfl⟩
abbrev main_v93 : Ref sig .tc := ⟨.hbm, 121, rfl⟩
abbrev main_cst_10 : Ref sig .tc := ⟨.hbm, 122, rfl⟩
abbrev main_v94 : Ref sig .tc := ⟨.hbm, 123, rfl⟩
abbrev main_cst_11 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_cst_12 : Ref sig .tc := ⟨.hbm, 128, rfl⟩
abbrev main_v98 : Ref sig .tc := ⟨.hbm, 129, rfl⟩
abbrev main_v99 : Ref sig .tc := ⟨.hbm, 130, rfl⟩
abbrev main_cst_13 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_call3_cst : Ref sig .tc := ⟨.hbm, 143, rfl⟩
abbrev main_call3_v0 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_call4_cst : Ref sig .tc := ⟨.hbm, 151, rfl⟩
abbrev main_call4_v0 : Ref sig .tc := ⟨.hbm, 152, rfl⟩
abbrev main_call4_cst_0 : Ref sig .tc := ⟨.hbm, 153, rfl⟩
abbrev main_call4_v1 : Ref sig .tc := ⟨.hbm, 154, rfl⟩
abbrev main_call4_v2 : Ref sig .tc := ⟨.hbm, 155, rfl⟩
abbrev main_call4_v3 : Ref sig .tc := ⟨.hbm, 156, rfl⟩
abbrev main_call4_v4 : Ref sig .tc := ⟨.hbm, 157, rfl⟩
abbrev main_call4_v5 : Ref sig .tc := ⟨.hbm, 158, rfl⟩
abbrev main_call4_v6 : Ref sig .tc := ⟨.hbm, 159, rfl⟩
abbrev main_call4_cst_1 : Ref sig .tc := ⟨.hbm, 160, rfl⟩
abbrev main_call4_v7 : Ref sig .tc := ⟨.hbm, 161, rfl⟩
abbrev main_call4_v8 : Ref sig .tc := ⟨.hbm, 162, rfl⟩
abbrev main_call4_v9 : Ref sig .tc := ⟨.hbm, 163, rfl⟩
abbrev main_call4_v10 : Ref sig .tc := ⟨.hbm, 164, rfl⟩
abbrev main_v117 : Ref sig .tc := ⟨.hbm, 165, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S64 : S_.BroadcastsInDim S64 (![] : Fin 0 → Fin S64.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1x128_S64x128_0_1 : S1x128.BroadcastsInDim S64x128 (![0, 1] : Fin 2 → Fin S64x128.rank)
  transposes_S10x128_S128x10_1_0 : S10x128.Transposes [1, 0] S128x10
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  reducesTo_S64x10_S64_d1 : S64x10.ReducesTo [1] S64
  h_S_ : 0 < S_.numel
  bcast_S64x1_S64x10_0_1 : S64x1.BroadcastsInDim S64x10 (![0, 1] : Fin 2 → Fin S64x10.rank)
  scatter_S40000_S640000x1_S640000_n_0_0_1_wf : ScatterDims.WF S40000 S640000x1 S640000 [] [0] [0] 1
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S40000x128_S128x128_S40000x128_1_0_0_1_n_n_wf : DotDims.WF S40000x128 S128x128 S40000x128 [1] [0] [0] [1] [] []
  scatter_S64_S40000x1_S40000_n_0_0_1_wf : ScatterDims.WF S64 S40000x1 S40000 [] [0] [0] 1
  scatter_S64x128_S40000x1_S40000x128_1_0_0_1_wf : ScatterDims.WF S64x128 S40000x1 S40000x128 [1] [0] [0] 1
  dot_S64x128_S128x128_S64x128_1_0_0_1_n_n_wf : DotDims.WF S64x128 S128x128 S64x128 [1] [0] [0] [1] [] []
  dot_S64x128_S128x10_S64x10_1_0_0_1_n_n_wf : DotDims.WF S64x128 S128x10 S64x10 [1] [0] [0] [1] [] []

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def scatter_S64_S40000x1_S40000_n_0_0_1 : ScatterDims S64 S40000x1 S40000 where
  updateWindowDims := []
  insertedWindowDims := [0]
  scatterDimsToOperandDims := [0]
  indexVectorDim := 1
  wf := scatter_S64_S40000x1_S40000_n_0_0_1_wf
def scatter_S64x128_S40000x1_S40000x128_1_0_0_1 : ScatterDims S64x128 S40000x1 S40000x128 where
  updateWindowDims := [1]
  insertedWindowDims := [0]
  scatterDimsToOperandDims := [0]
  indexVectorDim := 1
  wf := scatter_S64x128_S40000x1_S40000x128_1_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.KernelRun.lean ====
/-
  The idealized kernel program's run with its result NAMED: every weakly fair execution of @main terminates without a
  fault, the result buffer holds what the last boundary's contents (`Gen.W8`: the fold of the host stretches and the
  four regions' write-backs from the launch memory) hold at it, and the argument arrays are as launched.
-/
import proofs.«162324_j37752762532360_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the eight segments of @main, its last thread state read at the result buffer as well as at the
    arguments. -/
theorem run : θ_run defs (onTc (τ := τ) (main (F := F))) ⟨m, fun _ => 0, ρ⟩ (fun r => ∀ c : Dev nD,
      r.2.mem ((c.tc : Thread nD τ).loc main_v95) = W8 m ρ c (Proc.devRef .tc main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v95 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.KernelIdeal.RunValue

end
-- ==== Proof.Spec.lean ====
/-
  The mathematics of the two kernels of this graph network, entry by entry, over the extended reals.

  A SAGE layer maps node features to `relu (agg · Wl + h · Wr + b)`: entry `(r, c)` is the maximum with zero of
  the two contractions over the 128 input features plus the bias of column `c` (`layerAt`).

  The head maps the 64 pooled rows to class scores: a hidden layer `relu (g · W1 + b1)` (`hiddenAt`), the ten
  logits `hidden · W2 + b2` (`logitAt`), and the row's log-softmax taken with the row maximum subtracted first
  (`logSoftmaxAt`): `(z c − m) − log (∑ k, exp (z k − m))` with `m` the maximum of the row started from `⊥`.
-/
import Idealize.ShloMosaic.PureOps.Ideal
import Idealize.ShloMosaic.Lib.ValueIdx

noncomputable section

namespace Cert.Sage

open Idealize.ShloMosaic

/-- Entry `(r, c)` of one SAGE layer: `max (∑ k, a r k · wl k c + ∑ k, h r k · wr k c + b c) 0`. -/
def layerAt {n : ℕ} (a h : Fin n → Fin 128 → EReal) (wl wr : Fin 128 → Fin 128 → EReal) (b : Fin 128 → EReal)
    (r : Fin n) (c : Fin 128) : EReal :=
  max (((∑ k : Fin 128, a r k * wl k c) + (∑ k : Fin 128, h r k * wr k c)) + b c) 0

/-- Entry `(r, k)` of the head's hidden layer: `max (∑ j, g r j · w1 j k + b1 k) 0`. -/
def hiddenAt (g : Fin 64 → Fin 128 → EReal) (w1 : Fin 128 → Fin 128 → EReal) (b1 : Fin 128 → EReal)
    (r : Fin 64) (k : Fin 128) : EReal :=
  max ((∑ j : Fin 128, g r j * w1 j k) + b1 k) 0

/-- Logit `(r, c)`: `∑ k, hidden r k · w2 k c + b2 c`. -/
def logitAt (g : Fin 64 → Fin 128 → EReal) (w1 : Fin 128 → Fin 128 → EReal) (b1 : Fin 128 → EReal)
    (w2 : Fin 128 → Fin 10 → EReal) (b2 : Fin 10 → EReal) (r : Fin 64) (c : Fin 10) : EReal :=
  (∑ k : Fin 128, hiddenAt g w1 b1 r k * w2 k c) + b2 c

/-- The log-softmax of a row of ten scores, the row's maximum (folded from `⊥`) subtracted first. -/
def logSoftmaxAt (z : Fin 10 → EReal) (c : Fin 10) : EReal :=
  (z c - (Finset.univ : Finset (Fin 10)).fold max (⊥ : EReal) z)
    - Ideal.log (∑ k : Fin 10, Ideal.exp (z k - (Finset.univ : Finset (Fin 10)).fold max (⊥ : EReal) z))

/-- Entry `(r, c)` of the head: the log-softmax of row `r`'s logits at class `c`. -/
def headAt (g : Fin 64 → Fin 128 → EReal) (w1 : Fin 128 → Fin 128 → EReal) (b1 : Fin 128 → EReal)
    (w2 : Fin 128 → Fin 10 → EReal) (b2 : Fin 10 → EReal) (r : Fin 64) (c : Fin 10) : EReal :=
  logSoftmaxAt (logitAt g w1 b1 w2 b2 r) c

end Cert.Sage

end
-- ==== Proof.SpecArr.lean ====
/-
  The two kernels' results as whole arrays: `layerArr` is the array whose entry `(r, c)` is `layerAt … r c` of the
  operand arrays' entries, `headArr` the array whose entry `(r, c)` is `headAt … r c`.
-/
import proofs.«162324_j37752762532360_1_alg».proof.Proof.Spec

noncomputable section

namespace Cert.Sage

open Idealize.ShloMosaic Idealize.ShloMosaic.ValueIdx

/-- Matrices and vectors of extended reals over literal extents. -/
abbrev A2 (n k : ℕ) := (⟨2, ![n, k]⟩ : Shape).Idx → EReal
abbrev A1 (n : ℕ) := (⟨1, ![n]⟩ : Shape).Idx → EReal

/-- A SAGE layer of whole arrays: entry `i` is `layerAt` of the operands' entries at row `i 0`, column `i 1`. -/
def layerArr {n : ℕ} (a h : A2 n 128) (wl wr : A2 128 128) (b : A1 128) : A2 n 128 :=
  fun i => layerAt (fun r k => a (ix2 r k)) (fun r k => h (ix2 r k)) (fun k c => wl (ix2 k c))
    (fun k c => wr (ix2 k c)) (fun c => b (ix1 c)) (i 0) (i 1)

theorem layerArr_ix2 {n : ℕ} (a h : A2 n 128) (wl wr : A2 128 128) (b : A1 128) (r : Fin n) (c : Fin 128) :
    layerArr a h wl wr b (ix2 r c)
      = layerAt (fun r k => a (ix2 r k)) (fun r k => h (ix2 r k)) (fun k c => wl (ix2 k c))
          (fun k c => wr (ix2 k c)) (fun c => b (ix1 c)) r c := rfl

/-- The head of whole arrays: entry `i` is `headAt` of the operands' entries at row `i 0`, class `i 1`. -/
def headArr (g : A2 64 128) (w1 : A2 128 128) (b1 : A1 128) (w2 : A2 128 10) (b2 : A1 10) : A2 64 10 :=
  fun i => headAt (fun r j => g (ix2 r j)) (fun j k => w1 (ix2 j k)) (fun k => b1 (ix1 k))
    (fun k c => w2 (ix2 k c)) (fun c => b2 (ix1 c)) (i 0) (i 1)

theorem headArr_ix2 (g : A2 64 128) (w1 : A2 128 128) (b1 : A1 128) (w2 : A2 128 10) (b2 : A1 10)
    (r : Fin 64) (c : Fin 10) :
    headArr g w1 b1 w2 b2 (ix2 r c)
      = headAt (fun r j => g (ix2 r j)) (fun j k => w1 (ix2 j k)) (fun k => b1 (ix1 k))
          (fun k c => w2 (ix2 k c)) (fun c => b2 (ix1 c)) r c := rfl

end Cert.Sage

end
-- ==== Proof.LayerPay.lean ====
/-
  The SAGE layer kernel's stored value, entry by entry.

  Each of the three layer kernels computes, on a block of 4000 rows, `max ((agg · Wl + h · Wr) + bias) 0`: two matrix
  products over the 128 input features into a zero accumulator, their sum, the `[1, 128]` bias row broadcast down the
  rows, and the maximum with a broadcast zero. Over the extended reals the change of float format before the products is
  the identity and a cast to the same shape changes nothing, so entry `(r, c)` is the specification's `layerAt` of the
  block's rows.
-/
import proofs.«162324_j37752762532360_1_alg».proof.Proof.Gen.KernelIdeal.Skeleton
import proofs.«162324_j37752762532360_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Sage.LayerPay

open Idealize.ShloMosaic Idealize.ShloMosaic.ValueIdx Cert.KernelIdeal Cert.KernelIdeal.Gen

/-- The contraction's left operand index at output index `i` and contraction position `q`: row `i 0`, column `q`. -/
theorem kDot_lhs0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch from List.not_mem_nil),
    dif_pos (show (0 : Fin S4000x128.rank) ∈ dot_S4000x128_S128x128_S4000x128_1_0_0_1_n_n.lhsNonContracting from List.mem_singleton.mpr rfl)]
  rfl
theorem kDot_lhs1 (i : S4000x128.Idx) (q : dot_S4000x128_S128x128_S4000x128_1_0_0_1_n_n.contr.Idx) :
    (dot_S4000x128_S128x128_S4000x128_1_0_0_1_n_n.lhsIdx i q 1).val = (q ⟨0, Nat.one_pos⟩).val :=
  dot_S4000x128_S128x128_S4000x128_1_0_0_1_n_n.lhsIdx_val_of_single rfl i q
/-- The right operand index: row `q`, column `i 1`. -/
theorem kDot_rhs0 (i : S4000x128.Idx) (q : dot_S4000x128_S128x128_S4000x128_1_0_0_1_n_n.contr.Idx) :
    (dot_S4000x128_S128x128_S4000x128_1_0_0_1_n_n.rhsIdx i q 0).val = (q ⟨0, Nat.one_pos⟩).val :=
  dot_S4000x128_S128x128_S4000x128_1_0_0_1_n_n.rhsIdx_val_of_single rfl i q
theorem kDot_rhs1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch from List.not_mem_nil),
    dif_pos (show (1 : Fin S128x128.rank) ∈ dot_S4000x128_S128x128_S4000x128_1_0_0_1_n_n.rhsNonContracting from List.mem_singleton.mpr rfl)]
  rfl

/-- The matrix product `x · w` of a `[4000, 128]` block with a `[128, 128]` array into a zero accumulator, at entry
    `(r, c)`: the sum over `k` of `x r k · w k c`. -/
theorem kDot_at (x : FVec Ideal S4000x128 .bf16) (w : FVec Ideal S128x128 .bf16) (r : Fin 4000) (c : Fin 128) :
    matmul dot_S4000x128_S128x128_S4000x128_1_0_0_1_n_n none x w (constant (F := Ideal) S4000x128 .f32 0x00000000#32) (ix2 r c)
      = ∑ k : Fin 128, x (ix2 r k) * w (ix2 k c) := by
  refine (Ideal.matmul_constant_zero_apply dot_S4000x128_S128x128_S4000x128_1_0_0_1_n_n none x w (ix2 r c)).trans ?_
  rw [← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 r c)
      ((contrEquiv1 dot_S4000x128_S128x128_S4000x128_1_0_0_1_n_n 128 rfl rfl).symm k) = ix2 r k :=
    funext fun ax => Fin.ext (by
      match ax with
      | ⟨0, _⟩ => exact kDot_lhs0 _ _
      | ⟨1, _⟩ => exact (kDot_lhs1 _ _).trans hk)
  have er : dot_S4000x128_S128x128_S4000x128_1_0_0_1_n_n.rhsIdx (ix2 r c)
      ((contrEquiv1 dot_S4000x128_S128x128_S4000x128_1_0_0_1_n_n 128 rfl rfl).symm k) = ix2 k c :=
    funext fun ax => Fin.ext (by
      match ax with
      | ⟨0, _⟩ => exact (kDot_rhs0 _ _).trans hk
      | ⟨1, _⟩ => exact kDot_rhs1 _ _)
  rw [el, er]

/-- The payload of the layer kernel at entry `(r, c)` of the block is the specification's `layerAt` of the block's rows. -/
theorem k0_pay1_at (v0 v3 : Vec Ideal S4000x128 .f32) (v5 v8 : Vec Ideal S128x128 .f32) (v14 : Vec Ideal S1x128 .f32)
    (r : Fin 4000) (c : Fin 128) :
    k0_pay1 (F := Ideal) v0 v3 v5 v8 v14 (ix2 r c)
      = Cert.Sage.layerAt (fun r k => v0 (ix2 r k)) (fun r k => v3 (ix2 r k)) (fun k c => v5 (ix2 k c))
          (fun k c => v8 (ix2 k c)) (fun c => v14 (ix2 0 c)) r c := by
  unfold k0_pay1 Cert.Sage.layerAt
  simp only [shapeCast_self]
  rw [maximumf_apply, addf_apply, addf_apply, kDot_at, kDot_at, broadcastTo_1b_ab_apply, broadcast_apply]
  simp only [truncf_apply]
  exact congrArg (max _) Ideal.ofBits_zero_f32

/-- The payload of the layer kernel at entry `(r, c)` of the block is the specification's `layerAt` of the block's rows. -/
theorem k1_pay1_at (v0 v3 : Vec Ideal S4000x128 .f32) (v6 v9 : Vec Ideal S128x128 .f32) (v15 : Vec Ideal S1x128 .f32)
    (r : Fin 4000) (c : Fin 128) :
    k1_pay1 (F := Ideal) v0 v3 v6 v9 v15 (ix2 r c)
      = Cert.Sage.layerAt (fun r k => v0 (ix2 r k)) (fun r k => v3 (ix2 r k)) (fun k c => v6 (ix2 k c))
          (fun k c => v9 (ix2 k c)) (fun c => v15 (ix2 0 c)) r c := by
  unfold k1_pay1 Cert.Sage.layerAt
  simp only [shapeCast_self]
  rw [maximumf_apply, addf_apply, addf_apply, kDot_at, kDot_at, broadcastTo_1b_ab_apply, broadcast_apply]
  simp only [truncf_apply]
  exact congrArg (max _) Ideal.ofBits_zero_f32

/-- The payload of the layer kernel at entry `(r, c)` of the block is the specification's `layerAt` of the block's rows. -/
theorem k2_pay1_at (v0 v3 : Vec Ideal S4000x128 .f32) (v6 v9 : Vec Ideal S128x128 .f32) (v15 : Vec Ideal S1x128 .f32)
    (r : Fin 4000) (c : Fin 128) :
    k2_pay1 (F := Ideal) v0 v3 v6 v9 v15 (ix2 r c)
      = Cert.Sage.layerAt (fun r k => v0 (ix2 r k)) (fun r k => v3 (ix2 r k)) (fun k c => v6 (ix2 k c))
          (fun k c => v9 (ix2 k c)) (fun c => v15 (ix2 0 c)) r c := by
  unfold k2_pay1 Cert.Sage.layerAt
  simp only [shapeCast_self]
  rw [maximumf_apply, addf_apply, addf_apply, kDot_at, kDot_at, broadcastTo_1b_ab_apply, broadcast_apply]
  simp only [truncf_apply]
  exact congrArg (max _) Ideal.ofBits_zero_f32

end Cert.Sage.LayerPay

end
-- ==== Proof.Blocks0.lean ====
/-
  The first SAGE layer's region, from blocks to the whole array.

  The region runs over ten grid points; point `t` stages rows `4000 t … 4000 t + 3999` of the aggregate and of the
  node features, the whole weight matrices and the bias row, and writes back rows `4000 t … 4000 t + 3999` of the
  result. Each written block is the block of ONE function of the arrays the region was entered with — the layer
  `layerArr`, entry by entry `max (agg · Wl + h · Wr + b) 0` — and the ten blocks cover the result, so the result
  array ends holding that function.
-/
import proofs.«162324_j37752762532360_1_alg».proof.Proof.Gen.KernelIdeal.Frame
import proofs.«162324_j37752762532360_1_alg».proof.Proof.SpecArr
import Idealize.ShloMosaic.Lib.Pipeline.Value
import Idealize.ShloMosaic.Lib.ValueIdx
import proofs.«162324_j37752762532360_1_alg».proof.Proof.LayerPay
set_option maxRecDepth 16384

noncomputable section

namespace Cert.KernelIdeal.Blocks0

open Cert.KernelIdeal Cert.KernelIdeal.Gen Idealize.ShloMosaic Idealize.ShloMosaic.TcCoe Idealize.SL.Sem
open Idealize.ShloMosaic.ValueIdx Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: the two row-blocked operands and the result sit at block row `t`,
    the weights and the bias row at block zero. -/
theorem idx_facts : ∀ t : Fin cfg0.N,
    win0_0.index t (0 : Fin 2) = t.val ∧ win0_0.index t (1 : Fin 2) = 0
  ∧ win0_1.index t (0 : Fin 2) = t.val ∧ win0_1.index t (1 : Fin 2) = 0
  ∧ win0_2.index t (0 : Fin 2) = 0 ∧ win0_2.index t (1 : Fin 2) = 0
  ∧ win0_3.index t (0 : Fin 2) = 0 ∧ win0_3.index t (1 : Fin 2) = 0
  ∧ win0_4.index t (0 : Fin 2) = 0 ∧ win0_4.index t (1 : Fin 2) = 0
  ∧ win0_5.index t (0 : Fin 2) = t.val ∧ win0_5.index t (1 : Fin 2) = 0 :=
  (by decide +kernel : ∀ t : Fin grid0.N, _)

/-- Row `r` of the aggregate's block at point `t` is row `4000 t + r` of the array. -/
theorem rd0 (c : Dev nD) (t : Fin cfg0.N) (agg : A2 40000 128) (h0 : V c main_v22 = agg) (r : Fin 4000) (k : Fin 128)
    (R : Fin 40000) (hR : R.val = t.val * 4000 + r.val) :
    iblk0 V c 0 t (ix2 r k) = agg (ix2 R k) := by
  subst h0
  show V c main_v22 (((cfg0.win 0).blk t).view.emb (ix2 r k)) = V c main_v22 (ix2 R k)
  refine congrArg _ (funext fun a => Fin.ext ?_)
  obtain ⟨e0, e1, -⟩ := idx_facts t
  match a with
  | ⟨0, _⟩ => show win0_0.index t (0 : Fin 2) * 4000 + 1 * r.val = R.val; omega
  | ⟨1, _⟩ => show win0_0.index t (1 : Fin 2) * 128 + 1 * k.val = k.val; omega

/-- Row `r` of the features' block at point `t` is row `4000 t + r` of the array. -/
theorem rd1 (c : Dev nD) (t : Fin cfg0.N) (h : A2 40000 128) (h1 : V c main_arg0 = h) (r : Fin 4000) (k : Fin 128)
    (R : Fin 40000) (hR : R.val = t.val * 4000 + r.val) :
    iblk0 V c 1 t (ix2 r k) = h (ix2 R k) := by
  subst h1
  show V c main_arg0 (((cfg0.win 1).blk t).view.emb (ix2 r k)) = V c main_arg0 (ix2 R k)
  refine congrArg _ (funext fun a => Fin.ext ?_)
  obtain ⟨-, -, e0, e1, -⟩ := idx_facts t
  match a with
  | ⟨0, _⟩ => show win0_1.index t (0 : Fin 2) * 4000 + 1 * r.val = R.val; omega
  | ⟨1, _⟩ => show win0_1.index t (1 : Fin 2) * 128 + 1 * k.val = k.val; omega

/-- The neighbour weights' block is the whole matrix at every point. -/
theorem rd2 (c : Dev nD) (t : Fin cfg0.N) (wl : A2 128 128) (h2 : V c main_v25 = wl) (k q : Fin 128) :
    iblk0 V c 2 t (ix2 k q) = wl (ix2 k q) := by
  subst h2
  show V c main_v25 (((cfg0.win 2).blk t).view.emb (ix2 k q)) = V c main_v25 (ix2 k q)
  refine congrArg _ (funext fun a => Fin.ext ?_)
  obtain ⟨-, -, -, -, e0, e1, -⟩ := idx_facts t
  match a with
  | ⟨0, _⟩ => show win0_2.index t (0 : Fin 2) * 128 + 1 * k.val = k.val; omega
  | ⟨1, _⟩ => show win0_2.index t (1 : Fin 2) * 128 + 1 * q.val = q.val; omega

/-- The bias row's block is the whole row at every point. -/
theorem rd3 (c : Dev nD) (t : Fin cfg0.N) (b1 : A2 1 128) (h3 : V c main_v31 = b1) (q : Fin 128) :
    iblk0 V c 3 t (ix2 0 q) = b1 (ix2 0 q) := by
  subst h3
  show V c main_v31 (((cfg0.win 3).blk t).view.emb (ix2 0 q)) = V c main_v31 (ix2 0 q)
  refine congrArg _ (funext fun a => Fin.ext ?_)
  obtain ⟨-, -, -, -, -, -, e0, e1, -⟩ := idx_facts t
  match a with
  | ⟨0, _⟩ => show win0_3.index t (0 : Fin 2) * 1 + 1 * (0 : Fin 1).val = (0 : Fin 1).val; omega
  | ⟨1, _⟩ => show win0_3.index t (1 : Fin 2) * 128 + 1 * q.val = q.val; omega

/-- The root weights' block is the whole matrix at every point. -/
theorem rd4 (c : Dev nD) (t : Fin cfg0.N) (wr : A2 128 128) (h4 : V c main_v28 = wr) (k q : Fin 128) :
    iblk0 V c 4 t (ix2 k q) = wr (ix2 k q) := by
  subst h4
  show V c main_v28 (((cfg0.win 4).blk t).view.emb (ix2 k q)) = V c main_v28 (ix2 k q)
  refine congrArg _ (funext fun a => Fin.ext ?_)
  obtain ⟨-, -, -, -, -, -, -, -, e0, e1, -⟩ := idx_facts t
  match a with
  | ⟨0, _⟩ => show win0_4.index t (0 : Fin 2) * 128 + 1 * k.val = k.val; omega
  | ⟨1, _⟩ => show win0_4.index t (1 : Fin 2) * 128 + 1 * q.val = q.val; omega

/-- One entry of the body's result over blocks whose rows are rows `4000 T + ·` of the arrays is that entry of the
    layer of the whole arrays. -/
theorem point_eq (x0 x1 : Vec Ideal S4000x128 .f32) (x2 x4 : Vec Ideal S128x128 .f32) (x3 : Vec Ideal S1x128 .f32)
    (agg h : A2 40000 128) (wl wr : A2 128 128) (b1 : A2 1 128) (b : A1 128) (T : ℕ)
    (e0 : ∀ (r : Fin 4000) (k : Fin 128) (R : Fin 40000), R.val = T * 4000 + r.val → x0 (ix2 r k) = agg (ix2 R k))
    (e1 : ∀ (r : Fin 4000) (k : Fin 128) (R : Fin 40000), R.val = T * 4000 + r.val → x1 (ix2 r k) = h (ix2 R k))
    (e2 : ∀ k q : Fin 128, x2 (ix2 k q) = wl (ix2 k q))
    (e3 : ∀ q : Fin 128, x3 (ix2 0 q) = b1 (ix2 0 q))
    (e4 : ∀ k q : Fin 128, x4 (ix2 k q) = wr (ix2 k q))
    (hb : ∀ q : Fin 128, b1 (ix2 0 q) = b (ix1 q))
    (p : Fin 4000) (q : Fin 128) (R : Fin 40000) (hR : R.val = T * 4000 + p.val) :
    k0_pay1 (F := Ideal) x0 x1 x2 x4 x3 (ix2 p q) = layerArr agg h wl wr b (ix2 R q) := by
  rw [Cert.Sage.LayerPay.k0_pay1_at, layerArr_ix2]
  unfold layerAt
  simp only [e0 p _ R hR, e1 p _ R hR, e2, e3, e4, hb]

/-- What point `t` writes back is block `t` of the layer of the whole arrays as the region finds them. -/
theorem flushed_eq (c : Dev nD) (agg h : A2 40000 128) (wl wr : A2 128 128) (b1 : A2 1 128) (b : A1 128)
    (h0 : V c main_v22 = agg) (h1 : V c main_arg0 = h) (h2 : V c main_v25 = wl) (h3 : V c main_v31 = b1)
    (h4 : V c main_v28 = wr) (hb : ∀ q : Fin 128, b1 (ix2 0 q) = b (ix1 q)) (t : Fin cfg0.N) :
    (dat0 V c).flushed 5 t = ((cfg0.win 5).blk t).view.read (Elt Ideal) (layerArr agg h wl wr b) := by
  show (cfg0.win 5).cut (grid0.coords t) ((dat0 V c).after 5 t) = _
  rw [after0_5]
  unfold out0_5
  rw [View.canon_unit_zero hz]
  simp only [View.ld_unit_zero (S := S4000x128) hz, View.ld_unit_zero (S := S128x128) hz, View.ld_unit_zero (S := S1x128) hz]
  funext j
  show k0_pay1 (F := Ideal) (iblk0 V c 0 t) (iblk0 V c 1 t) (iblk0 V c 2 t) (iblk0 V c 4 t) (iblk0 V c 3 t) j
    = layerArr agg h wl wr b (((cfg0.win 5).blk t).view.emb j)
  have ht : t.val < 10 := lt_of_lt_of_eq t.isLt N_0
  obtain ⟨-, -, -, -, -, -, -, -, -, -, e0, e1⟩ := idx_facts t
  have hj : j = ix2 (j 0) (j 1) := eq_ix2 j
  have hp : (j 0).val < 4000 := (j 0).isLt
  have hq : (j 1).val < 128 := (j 1).isLt
  have hemb : ((cfg0.win 5).blk t).view.emb j = ix2 (⟨t.val * 4000 + (j 0).val, by omega⟩ : Fin 40000) (⟨(j 1).val, hq⟩ : Fin 128) := by
    funext a; apply Fin.ext
    match a with
    | ⟨0, _⟩ => show win0_5.index t (0 : Fin 2) * 4000 + 1 * (j 0).val = t.val * 4000 + (j 0).val; omega
    | ⟨1, _⟩ => show win0_5.index t (1 : Fin 2) * 128 + 1 * (j 1).val = (j 1).val; omega
  rw [hemb]
  have hj' : j = ix2 (⟨(j 0).val, hp⟩ : Fin 4000) (⟨(j 1).val, hq⟩ : Fin 128) := hj
  refine (congrArg (k0_pay1 (F := Ideal) (iblk0 V c 0 t) (iblk0 V c 1 t) (iblk0 V c 2 t) (iblk0 V c 4 t) (iblk0 V c 3 t)) hj').trans ?_
  exact point_eq _ _ _ _ _ agg h wl wr b1 b t.val
    (fun r k R hR => rd0 V c t agg h0 r k R hR) (fun r k R hR => rd1 V c t h h1 r k R hR)
    (fun k q => rd2 V c t wl h2 k q) (fun q => rd3 V c t b1 h3 q) (fun k q => rd4 V c t wr h4 k q) hb
    ⟨(j 0).val, hp⟩ ⟨(j 1).val, hq⟩ _ rfl

/-- An index of the result array is in point `t`'s block iff its row lies in rows `4000 t … 4000 t + 3999`. -/
theorem mem_blk (t : Fin cfg0.N) (i : S40000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v32).slice (win0_5.rect t)).set ↔ _
  rw [View.set_slice_whole, Rect.mem_set_unit]
  exact Iff.rfl

/-- Every index of the result array lies in the block of the point `row / 4000`. -/
theorem cover (i : S40000x128.Idx) :
    ∃ t : Fin cfg0.N, (cfg0.win 5).flush t = true ∧ i ∈ ((cfg0.win 5).blk t).view.set := by
  have hi0 : (i 0).val < 40000 := (i 0).isLt
  have hi1 : (i 1).val < 128 := (i 1).isLt
  let t : Fin cfg0.N := ⟨(i 0).val / 4000, by rw [show cfg0.N = 10 from N_0]; omega⟩
  refine ⟨t, flush0_5 t, ?_⟩
  rw [mem_blk]
  obtain ⟨-, -, -, -, -, -, -, -, -, -, e0, e1⟩ := idx_facts t
  have htv : t.val = (i 0).val / 4000 := rfl
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 128 ≤ (i 1).val ∧ (i 1).val < win0_5.index t (1 : Fin 2) * 128 + 128; omega

/-- The result array after the region: the layer of the arrays the region was entered with. -/
theorem final (c : Dev nD) (agg h : A2 40000 128) (wl wr : A2 128 128) (b1 : A2 1 128) (b : A1 128)
    (h0 : V c main_v22 = agg) (h1 : V c main_arg0 = h) (h2 : V c main_v25 = wl) (h3 : V c main_v31 = b1)
    (h4 : V c main_v28 = wr) (hb : ∀ q : Fin 128, b1 (ix2 0 q) = b (ix1 q)) :
    (dat0 V c).arrAt 5 cfg0.N = layerArr agg h wl wr b :=
  (dat0 V c).arrAt_eq_of_cover 5 (layerArr agg h wl wr b)
    (fun t _ => flushed_eq V c agg h wl wr b1 b h0 h1 h2 h3 h4 hb t) cover

end Cert.KernelIdeal.Blocks0

end
-- ==== Proof.LayerRef.lean ====
/-
  One SAGE layer of the reference, entry by entry.

  The reference computes `max ((agg · Wl + bias) + h · Wr) 0` with two contractions over the 128 input features, the bias
  row broadcast down the 40000 rows, and the zero scalar broadcast to the whole array. Read at entry `(r, c)` over the
  extended reals this is `layerAt`: each contraction is the sum over `k` of the products, and the bias moves past the
  second contraction by commutativity of addition.
-/
import proofs.«162324_j37752762532360_1_alg».proof.ReferenceIdeal
import proofs.«162324_j37752762532360_1_alg».proof.Proof.Spec
import Idealize.ShloMosaic.Lib.Pipeline.Value
import Idealize.ShloMosaic.Lib.ValueIdx
import Idealize.ShloMosaic.PureOps.Ideal.Laws

noncomputable section

namespace Cert.Sage

open Cert.ReferenceIdeal Idealize.ShloMosaic Idealize.ShloMosaic.ValueIdx

variable [Facts₀]
open Facts₀

/-- One layer of the reference on whole arrays: `max ((a · wl + b) + h · wr) 0`, the bias `b` of length 128 made a row
    and broadcast down the rows, the zero a broadcast scalar. -/
def layerRef (a h : FVec Ideal S40000x128 .f32) (wl wr : FVec Ideal S128x128 .f32) (b : FVec Ideal S128 .f32) :
    FVec Ideal S40000x128 .f32 :=
  maximumf (addf (addf (Host.dotGeneral (F := Ideal) dot_S40000x128_S128x128_S40000x128_1_0_0_1_n_n none a wl)
      (broadcastInDim S40000x128 ![0, 1] bcast_S1x128_S40000x128_0_1 (broadcastInDim S1x128 ![1] bcast_S128_S1x128_1 b)))
      (Host.dotGeneral (F := Ideal) dot_S40000x128_S128x128_S40000x128_1_0_0_1_n_n none h wr))
    (broadcastInDim S40000x128 ![] bcast_S_S40000x128 (constant (F := Ideal) S_ .f32 0x00000000#32))

/-- The contraction's left operand index at output index `i` and contraction position `q`: row `i 0`, column `q`. -/
theorem refDot_lhs0 (i : S40000x128.Idx) (q : dot_S40000x128_S128x128_S40000x128_1_0_0_1_n_n.contr.Idx) :
    (dot_S40000x128_S128x128_S40000x128_1_0_0_1_n_n.lhsIdx i q 0).val = (i 0).val := by
  unfold DotDims.lhsIdx
  rw [dif_neg (show ¬(0 : Fin S40000x128.rank) ∈ dot_S40000x128_S128x128_S40000x128_1_0_0_1_n_n.lhsBatch from List.not_mem_nil),
    dif_pos (show (0 : Fin S40000x128.rank) ∈ dot_S40000x128_S128x128_S40000x128_1_0_0_1_n_n.lhsNonContracting from List.mem_singleton.mpr rfl)]
  rfl
theorem refDot_lhs1 (i : S40000x128.Idx) (q : dot_S40000x128_S128x128_S40000x128_1_0_0_1_n_n.contr.Idx) :
    (dot_S40000x128_S128x128_S40000x128_1_0_0_1_n_n.lhsIdx i q 1).val = (q ⟨0, Nat.one_pos⟩).val :=
  dot_S40000x128_S128x128_S40000x128_1_0_0_1_n_n.lhsIdx_val_of_single rfl i q
/-- The right operand index: row `q`, column `i 1`. -/
theorem refDot_rhs0 (i : S40000x128.Idx) (q : dot_S40000x128_S128x128_S40000x128_1_0_0_1_n_n.contr.Idx) :
    (dot_S40000x128_S128x128_S40000x128_1_0_0_1_n_n.rhsIdx i q 0).val = (q ⟨0, Nat.one_pos⟩).val :=
  dot_S40000x128_S128x128_S40000x128_1_0_0_1_n_n.rhsIdx_val_of_single rfl i q
theorem refDot_rhs1 (i : S40000x128.Idx) (q : dot_S40000x128_S128x128_S40000x128_1_0_0_1_n_n.contr.Idx) :
    (dot_S40000x128_S128x128_S40000x128_1_0_0_1_n_n.rhsIdx i q 1).val = (i 1).val := by
  unfold DotDims.rhsIdx
  rw [dif_neg (show ¬(1 : Fin S128x128.rank) ∈ dot_S40000x128_S128x128_S40000x128_1_0_0_1_n_n.rhsBatch from List.not_mem_nil),
    dif_pos (show (1 : Fin S128x128.rank) ∈ dot_S40000x128_S128x128_S40000x128_1_0_0_1_n_n.rhsNonContracting from List.mem_singleton.mpr rfl)]
  rfl

/-- The contraction `x · w` of a `[40000, 128]` array with a `[128, 128]` array, at entry `(r, c)`: the sum over `k` of
    `x r k · w k c`. -/
theorem refDot_at (x : FVec Ideal S40000x128 .f32) (w : FVec Ideal S128x128 .f32) (r : Fin 40000) (c : Fin 128) :
    Host.dotGeneral (F := Ideal) dot_S40000x128_S128x128_S40000x128_1_0_0_1_n_n none x w (ix2 r c)
      = ∑ k : Fin 128, x (ix2 r k) * w (ix2 k c) := by
  simp only [Host.dotGeneral]
  rw [Ideal.dotGeneral_apply, ← Equiv.sum_comp (contrEquiv1 dot_S40000x128_S128x128_S40000x128_1_0_0_1_n_n 128 rfl rfl).symm]
  refine Finset.sum_congr rfl fun k _ => ?_
  have hk := contrEquiv1_symm_val dot_S40000x128_S128x128_S40000x128_1_0_0_1_n_n 128 rfl rfl k
  have el : dot_S40000x128_S128x128_S40000x128_1_0_0_1_n_n.lhsIdx (ix2 r c)
      ((contrEquiv1 dot_S40000x128_S128x128_S40000x128_1_0_0_1_n_n 128 rfl rfl).symm k) = ix2 r k :=
    funext fun ax => Fin.ext (by
      match ax with
      | ⟨0, _⟩ => exact refDot_lhs0 _ _
      | ⟨1, _⟩ => exact (refDot_lhs1 _ _).trans hk)
  have er : dot_S40000x128_S128x128_S40000x128_1_0_0_1_n_n.rhsIdx (ix2 r c)
      ((contrEquiv1 dot_S40000x128_S128x128_S40000x128_1_0_0_1_n_n 128 rfl rfl).symm k) = ix2 k c :=
    funext fun ax => Fin.ext (by
      match ax with
      | ⟨0, _⟩ => exact (refDot_rhs0 _ _).trans hk
      | ⟨1, _⟩ => exact refDot_rhs1 _ _)
  rw [el, er]

/-- The bias of length 128, made a `[1, 128]` row and broadcast to `[40000, 128]`, at entry `(r, c)`: `b c`. -/
theorem refBias_at (b : FVec Ideal S128 .f32) (r : Fin 40000) (c : Fin 128) :
    broadcastInDim S40000x128 ![0, 1] bcast_S1x128_S40000x128_0_1 (broadcastInDim S1x128 ![1] bcast_S128_S1x128_1 b) (ix2 r c)
      = b (ix1 c) := by
  refine (broadcastInDim_apply ![0, 1] bcast_S1x128_S40000x128_0_1 _ (ix2 r c) (ix2 (0 : Fin 1) c) fun ax => ?_).trans ?_
  · match ax with
    | ⟨0, _⟩ => rfl
    | ⟨1, _⟩ => rfl
  · refine broadcastInDim_apply ![1] bcast_S128_S1x128_1 b (ix2 (0 : Fin 1) c) (ix1 c) fun ax => ?_
    match ax with
    | ⟨0, _⟩ => rfl

/-- The zero scalar broadcast to `[40000, 128]`, at any entry: `0`. -/
theorem refZero_at (j : S40000x128.Idx) :
    broadcastInDim S40000x128 ![] bcast_S_S40000x128 (constant (F := Ideal) S_ .f32 0x00000000#32) j = 0 := by
  refine (broadcastInDim_apply ![] bcast_S_S40000x128 (constant (F := Ideal) S_ .f32 0x00000000#32) j ix0 fun ax => ax.elim0).trans ?_
  exact Ideal.ofBits_zero_f32

/-- The reference's layer at entry `(r, c)` is the specification's `layerAt`. -/
theorem layerRef_at (a h : FVec Ideal S40000x128 .f32) (wl wr : FVec Ideal S128x128 .f32) (b : FVec Ideal S128 .f32)
    (r : Fin 40000) (c : Fin 128) :
    layerRef a h wl wr b (ix2 r c)
      = layerAt (fun r k => a (ix2 r k)) (fun r k => h (ix2 r k)) (fun k c => wl (ix2 k c)) (fun k c => wr (ix2 k c))
          (fun c => b (ix1 c)) r c := by
  unfold layerRef layerAt
  rw [maximumf_apply, addf_apply, addf_apply, refDot_at, refDot_at, refBias_at, refZero_at]
  exact congrArg (max · 0) (add_right_comm _ _ _)

end Cert.Sage

end
-- ==== Proof.HeadRef.lean ====
/-
  The reference's head, read entry by entry over the extended reals.

  The reference computes, on the 64 pooled rows, a hidden layer (the maximum with zero of g · W1 plus the bias), the ten
  logits (hidden · W2 plus the bias), the row maximum of the logits folded from −∞ (and once more the maximum with −∞),
  the logits less that maximum, the row sum of their exponentials from zero, and the shifted logits less the logarithm
  of that sum. headRef is that composition of host operations; each step is read at an index, a contraction as a sum
  over the 128 contracted coordinates, a row reduction as a fold or a sum over the ten columns, a broadcast as the
  operand's entry on the axes it keeps. Entry (r, c) is therefore the log-softmax of row r's logits at class c (headAt).
-/
import proofs.«162324_j37752762532360_1_alg».proof.ReferenceIdeal
import proofs.«162324_j37752762532360_1_alg».proof.Proof.Gen.ReferenceIdeal
import proofs.«162324_j37752762532360_1_alg».proof.Proof.Spec
import Idealize.ShloMosaic.Lib.Pipeline.Value
import Idealize.ShloMosaic.Lib.ValueIdx
import Idealize.ShloMosaic.PureOps.Ideal.Laws

noncomputable section

namespace Cert.Sage

open Idealize.ShloMosaic Idealize.ShloMosaic.ValueIdx Cert.ReferenceIdeal Cert.ReferenceIdeal.Gen

/-! ## The reference's head as a composition of host operations -/

/-- The hidden layer: relu (g · W1 + b1), the bias broadcast over the rows. -/
def hidRef (g : FVec Ideal S64x128 .f32) (w1 : FVec Ideal S128x128 .f32) (b1 : FVec Ideal S128 .f32) : FVec Ideal S64x128 .f32 :=
  maximumf
    (addf (Host.dotGeneral dot_S64x128_S128x128_S64x128_1_0_0_1_n_n none g w1)
      (broadcastInDim S64x128 ![0, 1] bcast_S1x128_S64x128_0_1 (broadcastInDim S1x128 ![1] bcast_S128_S1x128_1 b1)))
    (broadcastInDim S64x128 ![] bcast_S_S64x128 (constant (F := Ideal) S_ .f32 0x00000000#32))

/-- The logits: hidden · W2 + b2, the bias broadcast over the rows. -/
def logitRef (g : FVec Ideal S64x128 .f32) (w1 : FVec Ideal S128x128 .f32) (b1 : FVec Ideal S128 .f32)
    (w2 : FVec Ideal S128x10 .f32) (b2 : FVec Ideal S10 .f32) : FVec Ideal S64x10 .f32 :=
  addf (Host.dotGeneral dot_S64x128_S128x10_S64x10_1_0_0_1_n_n none (hidRef g w1 b1) w2)
    (broadcastInDim S64x10 ![0, 1] bcast_S1x10_S64x10_0_1 (broadcastInDim S1x10 ![1] bcast_S10_S1x10_1 b2))

/-- The row maximum: the maximum of −∞ and the rows' maxima folded from −∞. -/
def rowMaxRef (z : FVec Ideal S64x10 .f32) : FVec Ideal S64 .f32 :=
  maximumf (broadcastInDim S64 ![] bcast_S_S64 (constant (F := Ideal) S_ .f32 0xFF800000#32))
    (Host.reduce FloatOps.maximumf z (constant (F := Ideal) S_ .f32 0xFF800000#32) reducesTo_S64x10_S64_d1 h_S_)

/-- The logits less their row maximum. -/
def shiftRef (z : FVec Ideal S64x10 .f32) : FVec Ideal S64x10 .f32 :=
  subf z (broadcastInDim S64x10 ![0, 1] bcast_S64x1_S64x10_0_1 (broadcastInDim S64x1 ![0] bcast_S64_S64x1_0 (rowMaxRef z)))

/-- The log-softmax of the logits, the row maximum subtracted first. -/
def lsmRef (z : FVec Ideal S64x10 .f32) : FVec Ideal S64x10 .f32 :=
  subf (shiftRef z)
    (broadcastInDim S64x10 ![0, 1] bcast_S64x1_S64x10_0_1
      (Host.log (broadcastInDim S64x1 ![0] bcast_S64_S64x1_0
        (Host.reduceAdd (Host.exp (shiftRef z)) (constant (F := Ideal) S_ .f32 0x00000000#32) reducesTo_S64x10_S64_d1 h_S_))))

/-- The reference's head. -/
def headRef (g : FVec Ideal S64x128 .f32) (w1 : FVec Ideal S128x128 .f32) (b1 : FVec Ideal S128 .f32)
    (w2 : FVec Ideal S128x10 .f32) (b2 : FVec Ideal S10 .f32) : FVec Ideal S64x10 .f32 :=
  lsmRef (logitRef g w1 b1 w2 b2)

namespace HeadRef

/-! ## Broadcasts read at an index -/

section Layout
variable {α : Type}

/-- A bias [b] laid as a row [1, b] and broadcast over a rows reads, at (p, c), the bias at c. -/
theorem bias_row_apply {a b : ℕ} (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![1, b]⟩ ![1] h1 x) (ix2 p c) = x (ix1 c) := by
  refine (broadcastInDim_apply _ h2 _ (ix2 p c) (ix2 (0 : Fin 1) c) fun ax => ?_).trans
    (broadcastInDim_apply _ h1 x (ix2 (0 : Fin 1) c) (ix1 c) fun ax => ?_)
  · match ax with
    | ⟨0, _⟩ => rfl
    | ⟨1, _⟩ =>
      show c.val = if b = 1 then 0 else c.val
      split
      · have := c.isLt; omega
      · rfl
  · match ax with
    | ⟨0, _⟩ =>
      show c.val = if b = 1 then 0 else c.val
      split
      · have := c.isLt; omega
      · rfl

/-- A column [a] kept as [a, 1] and broadcast over b columns reads, at (p, c), the column at p. -/
theorem keep_col_apply {a b : ℕ} (x : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![a, 1]⟩ ![0] h1 x) (ix2 p c) = x (ix1 p) := by
  refine (broadcastInDim_apply _ h2 _ (ix2 p c) (ix2 p (0 : Fin 1)) fun ax => ?_).trans
    (broadcastInDim_apply _ h1 x (ix2 p (0 : Fin 1)) (ix1 p) fun ax => ?_)
  · match ax with
    | ⟨0, _⟩ =>
      show p.val = if a = 1 then 0 else p.val
      split
      · have := p.isLt; omega
      · rfl
    | ⟨1, _⟩ => rfl
  · match ax with
    | ⟨0, _⟩ =>
      show p.val = if a = 1 then 0 else p.val
      split
      · have := p.isLt; omega
      · rfl

end Layout

/-! ## The two words -/

/-- The word 0xFF800000 is −∞. -/
theorem ofBits_negInf_f32 : Ideal.ofBits .f32 0xFF800000#32 = ⊥ := by simp [Ideal.ofBits, Ideal.ieee]

/-! ## The two contractions read as sums over the 128 contracted coordinates -/

section Dots

private theorem lhs1_0 (i : S64x128.Idx) (q : dot_S64x128_S128x128_S64x128_1_0_0_1_n_n.contr.Idx) :
    (dot_S64x128_S128x128_S64x128_1_0_0_1_n_n.lhsIdx i q 0).val = (i 0).val := by
  unfold DotDims.lhsIdx
  rw [dif_neg (show ¬(0 : Fin S64x128.rank) ∈ dot_S64x128_S128x128_S64x128_1_0_0_1_n_n.lhsBatch by decide), dif_pos (show (0 : Fin S64x128.rank) ∈ dot_S64x128_S128x128_S64x128_1_0_0_1_n_n.lhsNonContracting by decide)]
  rfl
private theorem lhs1_1 (i : S64x128.Idx) (q : dot_S64x128_S128x128_S64x128_1_0_0_1_n_n.contr.Idx) :
    (dot_S64x128_S128x128_S64x128_1_0_0_1_n_n.lhsIdx i q 1).val = (q ⟨0, by decide⟩).val :=
  dot_S64x128_S128x128_S64x128_1_0_0_1_n_n.lhsIdx_val_of_single rfl i q
private theorem rhs1_0 (i : S64x128.Idx) (q : dot_S64x128_S128x128_S64x128_1_0_0_1_n_n.contr.Idx) :
    (dot_S64x128_S128x128_S64x128_1_0_0_1_n_n.rhsIdx i q 0).val = (q ⟨0, by decide⟩).val :=
  dot_S64x128_S128x128_S64x128_1_0_0_1_n_n.rhsIdx_val_of_single rfl i q
private theorem rhs1_1 (i : S64x128.Idx) (q : dot_S64x128_S128x128_S64x128_1_0_0_1_n_n.contr.Idx) :
    (dot_S64x128_S128x128_S64x128_1_0_0_1_n_n.rhsIdx i q 1).val = (i 1).val := by
  unfold DotDims.rhsIdx
  rw [dif_neg (show ¬(1 : Fin S128x128.rank) ∈ dot_S64x128_S128x128_S64x128_1_0_0_1_n_n.rhsBatch by decide), dif_pos (show (1 : Fin S128x128.rank) ∈ dot_S64x128_S128x128_S64x128_1_0_0_1_n_n.rhsNonContracting by decide)]
  rfl

/-- The first dot_general: entry (r, k) is the sum over j of x (r, j) · y (j, k). -/
theorem dot1_apply (x : FVec Ideal S64x128 .f32) (y : FVec Ideal S128x128 .f32) (r : Fin 64) (k : Fin 128) :
    Host.dotGeneral dot_S64x128_S128x128_S64x128_1_0_0_1_n_n none x y (ix2 r k)
      = ∑ j : Fin 128, x (ix2 r j) * y (ix2 j k) := by
  simp only [Host.dotGeneral]
  rw [Ideal.dotGeneral_apply, ← Equiv.sum_comp (contrEquiv1 dot_S64x128_S128x128_S64x128_1_0_0_1_n_n 128 rfl rfl).symm]
  refine Finset.sum_congr rfl fun j _ => ?_
  have hk := contrEquiv1_symm_val dot_S64x128_S128x128_S64x128_1_0_0_1_n_n 128 rfl rfl j
  have el : dot_S64x128_S128x128_S64x128_1_0_0_1_n_n.lhsIdx (ix2 r k) ((contrEquiv1 dot_S64x128_S128x128_S64x128_1_0_0_1_n_n 128 rfl rfl).symm j) = ix2 r j := funext fun a => Fin.ext (by
    match a with
    | ⟨0, _⟩ => exact lhs1_0 _ _
    | ⟨1, _⟩ => exact (lhs1_1 _ _).trans hk)
  have er : dot_S64x128_S128x128_S64x128_1_0_0_1_n_n.rhsIdx (ix2 r k) ((contrEquiv1 dot_S64x128_S128x128_S64x128_1_0_0_1_n_n 128 rfl rfl).symm j) = ix2 j k := funext fun a => Fin.ext (by
    match a with
    | ⟨0, _⟩ => exact (rhs1_0 _ _).trans hk
    | ⟨1, _⟩ => exact rhs1_1 _ _)
  rw [el, er]

private theorem lhs2_0 (i : S64x10.Idx) (q : dot_S64x128_S128x10_S64x10_1_0_0_1_n_n.contr.Idx) :
    (dot_S64x128_S128x10_S64x10_1_0_0_1_n_n.lhsIdx i q 0).val = (i 0).val := by
  unfold DotDims.lhsIdx
  rw [dif_neg (show ¬(0 : Fin S64x128.rank) ∈ dot_S64x128_S128x10_S64x10_1_0_0_1_n_n.lhsBatch by decide), dif_pos (show (0 : Fin S64x128.rank) ∈ dot_S64x128_S128x10_S64x10_1_0_0_1_n_n.lhsNonContracting by decide)]
  rfl
private theorem lhs2_1 (i : S64x10.Idx) (q : dot_S64x128_S128x10_S64x10_1_0_0_1_n_n.contr.Idx) :
    (dot_S64x128_S128x10_S64x10_1_0_0_1_n_n.lhsIdx i q 1).val = (q ⟨0, by decide⟩).val :=
  dot_S64x128_S128x10_S64x10_1_0_0_1_n_n.lhsIdx_val_of_single rfl i q
private theorem rhs2_0 (i : S64x10.Idx) (q : dot_S64x128_S128x10_S64x10_1_0_0_1_n_n.contr.Idx) :
    (dot_S64x128_S128x10_S64x10_1_0_0_1_n_n.rhsIdx i q 0).val = (q ⟨0, by decide⟩).val :=
  dot_S64x128_S128x10_S64x10_1_0_0_1_n_n.rhsIdx_val_of_single rfl i q
private theorem rhs2_1 (i : S64x10.Idx) (q : dot_S64x128_S128x10_S64x10_1_0_0_1_n_n.contr.Idx) :
    (dot_S64x128_S128x10_S64x10_1_0_0_1_n_n.rhsIdx i q 1).val = (i 1).val := by
  unfold DotDims.rhsIdx
  rw [dif_neg (show ¬(1 : Fin S128x10.rank) ∈ dot_S64x128_S128x10_S64x10_1_0_0_1_n_n.rhsBatch by decide), dif_pos (show (1 : Fin S128x10.rank) ∈ dot_S64x128_S128x10_S64x10_1_0_0_1_n_n.rhsNonContracting by decide)]
  rfl

/-- The second dot_general: entry (r, c) is the sum over k of x (r, k) · y (k, c). -/
theorem dot2_apply (x : FVec Ideal S64x128 .f32) (y : FVec Ideal S128x10 .f32) (r : Fin 64) (c : Fin 10) :
    Host.dotGeneral dot_S64x128_S128x10_S64x10_1_0_0_1_n_n none x y (ix2 r c)
      = ∑ k : Fin 128, x (ix2 r k) * y (ix2 k c) := by
  simp only [Host.dotGeneral]
  rw [Ideal.dotGeneral_apply, ← Equiv.sum_comp (contrEquiv1 dot_S64x128_S128x10_S64x10_1_0_0_1_n_n 128 rfl rfl).symm]
  refine Finset.sum_congr rfl fun k _ => ?_
  have hk := contrEquiv1_symm_val dot_S64x128_S128x10_S64x10_1_0_0_1_n_n 128 rfl rfl k
  have el : dot_S64x128_S128x10_S64x10_1_0_0_1_n_n.lhsIdx (ix2 r c) ((contrEquiv1 dot_S64x128_S128x10_S64x10_1_0_0_1_n_n 128 rfl rfl).symm k) = ix2 r k := funext fun a => Fin.ext (by
    match a with
    | ⟨0, _⟩ => exact lhs2_0 _ _
    | ⟨1, _⟩ => exact (lhs2_1 _ _).trans hk)
  have er : dot_S64x128_S128x10_S64x10_1_0_0_1_n_n.rhsIdx (ix2 r c) ((contrEquiv1 dot_S64x128_S128x10_S64x10_1_0_0_1_n_n 128 rfl rfl).symm k) = ix2 k c := funext fun a => Fin.ext (by
    match a with
    | ⟨0, _⟩ => exact (rhs2_0 _ _).trans hk
    | ⟨1, _⟩ => exact rhs2_1 _ _)
  rw [el, er]

end Dots

/-! ## Each stage at an index -/

/-- The reference's hidden layer at (r, k). -/
theorem hidRef_at (g : FVec Ideal S64x128 .f32) (w1 : FVec Ideal S128x128 .f32) (b1 : FVec Ideal S128 .f32)
    (r : Fin 64) (k : Fin 128) :
    hidRef g w1 b1 (ix2 r k)
      = hiddenAt (fun r j => g (ix2 r j)) (fun j k => w1 (ix2 j k)) (fun k => b1 (ix1 k)) r k := by
  unfold hidRef hiddenAt
  rw [maximumf_apply, addf_apply, dot1_apply, bias_row_apply]
  show max ((∑ j : Fin 128, g (ix2 r j) * w1 (ix2 j k)) + b1 (ix1 k)) (Ideal.ofBits .f32 0x00000000#32) = _
  rw [Ideal.ofBits_zero_f32]

/-- The reference's logits at (r, c). -/
theorem logitRef_at (g : FVec Ideal S64x128 .f32) (w1 : FVec Ideal S128x128 .f32) (b1 : FVec Ideal S128 .f32)
    (w2 : FVec Ideal S128x10 .f32) (b2 : FVec Ideal S10 .f32) (r : Fin 64) (c : Fin 10) :
    logitRef g w1 b1 w2 b2 (ix2 r c)
      = logitAt (fun r j => g (ix2 r j)) (fun j k => w1 (ix2 j k)) (fun k => b1 (ix1 k)) (fun k c => w2 (ix2 k c))
          (fun c => b2 (ix1 c)) r c := by
  unfold logitRef logitAt
  rw [addf_apply, dot2_apply, bias_row_apply]
  refine congrArg (· + b2 (ix1 c)) (Finset.sum_congr rfl fun k _ => ?_)
  rw [hidRef_at]

/-- The [64, 10] array reduces along its columns to [64]. -/
theorem reduces_S64x10_S64 : S64x10.Reduces [1] S64 := by decide

/-- A row of the [64, 10] array with one column coordinate put back is that entry. -/
theorem lift_ix1 (r : Fin 64) (k : Fin 10) : reduces_S64x10_S64.lift (ix1 r) k = ix2 r k := by
  funext a
  match a with
  | ⟨0, _⟩ => exact Fin.ext rfl
  | ⟨1, _⟩ => exact Fin.ext rfl

/-- The reference's row maximum: the fold of max from −∞ over the row's ten entries. -/
theorem rowMaxRef_at (z : FVec Ideal S64x10 .f32) (r : Fin 64) :
    rowMaxRef z (ix1 r) = (Finset.univ : Finset (Fin 10)).fold max (⊥ : EReal) (fun k => z (ix2 r k)) := by
  unfold rowMaxRef
  rw [maximumf_apply, Host.reduce_eq_fold_single FloatOps.maximumf z _ reducesTo_S64x10_S64_d1 reduces_S64x10_S64 h_S_ (ix1 r)]
  show max (Ideal.ofBits .f32 0xFF800000#32)
      ((Finset.univ : Finset (Fin 10)).fold max (Ideal.ofBits .f32 0xFF800000#32) (z ∘ reduces_S64x10_S64.lift (ix1 r))) = _
  rw [ofBits_negInf_f32, max_eq_right bot_le]
  exact congrArg (fun f => (Finset.univ : Finset (Fin 10)).fold max (⊥ : EReal) f) (funext fun k => congrArg z (lift_ix1 r k))

/-- The reference's row sum from zero: the sum over the row's ten entries. -/
theorem rowSumRef_at (y : FVec Ideal S64x10 .f32) (r : Fin 64) :
    Host.reduceAdd y (constant (F := Ideal) S_ .f32 0x00000000#32) reducesTo_S64x10_S64_d1 h_S_ (ix1 r)
      = ∑ k : Fin 10, y (ix2 r k) := by
  simp only [Host.reduceAdd, Ideal.hostReduceAdd_def]
  rw [Ideal.hostReduceAdd_single reducesTo_S64x10_S64_d1 reduces_S64x10_S64]
  show Ideal.ofBits .f32 0x00000000#32 + ∑ k : Fin 10, y (reduces_S64x10_S64.lift (ix1 r) k) = _
  rw [Ideal.ofBits_zero_f32, zero_add]
  exact Finset.sum_congr rfl fun k _ => congrArg y (lift_ix1 r k)

/-- The shifted logits at (r, c): the logit less the row's maximum. -/
theorem shiftRef_at (z : FVec Ideal S64x10 .f32) (r : Fin 64) (c : Fin 10) :
    shiftRef z (ix2 r c) = z (ix2 r c) - (Finset.univ : Finset (Fin 10)).fold max (⊥ : EReal) (fun k => z (ix2 r k)) := by
  unfold shiftRef
  rw [subf_apply, keep_col_apply, rowMaxRef_at]

/-- The reference's log-softmax at (r, c). -/
theorem lsmRef_at (z : FVec Ideal S64x10 .f32) (r : Fin 64) (c : Fin 10) :
    lsmRef z (ix2 r c) = logSoftmaxAt (fun c => z (ix2 r c)) c := by
  unfold lsmRef logSoftmaxAt
  rw [subf_apply, shiftRef_at]
  refine congrArg (fun t : EReal => (z (ix2 r c) - (Finset.univ : Finset (Fin 10)).fold max (⊥ : EReal) (fun k => z (ix2 r k))) - t) ?_
  refine (broadcastInDim_apply _ bcast_S64x1_S64x10_0_1 _ (ix2 r c) (ix2 r (0 : Fin 1)) fun ax => ?_).trans ?_
  · match ax with
    | ⟨0, _⟩ => rfl
    | ⟨1, _⟩ => rfl
  show Ideal.log (broadcastInDim S64x1 ![0] bcast_S64_S64x1_0
      (Host.reduceAdd (Host.exp (shiftRef z)) (constant (F := Ideal) S_ .f32 0x00000000#32) reducesTo_S64x10_S64_d1 h_S_)
      (ix2 r (0 : Fin 1))) = _
  refine congrArg Ideal.log ?_
  refine (broadcastInDim_apply _ bcast_S64_S64x1_0 _ (ix2 r (0 : Fin 1)) (ix1 r) fun ax => ?_).trans ?_
  · match ax with
    | ⟨0, _⟩ => rfl
  rw [rowSumRef_at]
  refine Finset.sum_congr rfl fun k _ => ?_
  show Ideal.exp (shiftRef z (ix2 r k)) = _
  rw [shiftRef_at]

end HeadRef

/-! ## The head at an index -/

/-- Entry (r, c) of the reference's head is the log-softmax of row r's logits at class c. -/
theorem headRef_at (g : FVec Ideal S64x128 .f32) (w1 : FVec Ideal S128x128 .f32) (b1 : FVec Ideal S128 .f32)
    (w2 : FVec Ideal S128x10 .f32) (b2 : FVec Ideal S10 .f32) (r : Fin 64) (c : Fin 10) :
    headRef g w1 b1 w2 b2 (ix2 r c)
      = headAt (fun r j => g (ix2 r j)) (fun j k => w1 (ix2 j k)) (fun k => b1 (ix1 k)) (fun k c => w2 (ix2 k c))
          (fun c => b2 (ix1 c)) r c := by
  unfold headRef headAt
  rw [HeadRef.lsmRef_at]
  exact congrArg (fun f => logSoftmaxAt f c) (funext fun c' => HeadRef.logitRef_at g w1 b1 w2 b2 r c')

end Cert.Sage

end
-- ==== Proof.RefBridge.lean ====
/-
  The reference's layers and head as the specification's arrays.

  Each of the reference's three layers `max ((agg · Wl + b) + h · Wr) 0` is, entry by entry, the specification's layer
  of the same operands (the bias moved past the second contraction), and its head — hidden layer, logits, log-softmax
  with the row maximum subtracted — is the specification's head. So the reference's stages after each layer and after
  the head are `layerArr` / `headArr` of the stages before.
-/
import proofs.«162324_j37752762532360_1_alg».proof.Proof.Gen.ReferenceIdeal.Read
import proofs.«162324_j37752762532360_1_alg».proof.Proof.SpecArr
import proofs.«162324_j37752762532360_1_alg».proof.Proof.LayerRef
import proofs.«162324_j37752762532360_1_alg».proof.Proof.HeadRef

set_option maxRecDepth 16384

noncomputable section

namespace Cert.Sage.RefBridge

open Cert.ReferenceIdeal Cert.ReferenceIdeal.Gen Idealize.ShloMosaic Idealize.ShloMosaic.ValueIdx Cert.Sage

/-- The reference's layer on whole arrays is the specification's layer of the same arrays. -/
theorem layerRef_eq (a h : FVec Ideal S40000x128 .f32) (wl wr : FVec Ideal S128x128 .f32) (b : FVec Ideal S128 .f32) :
    layerRef a h wl wr b = layerArr a h wl wr b := by
  funext i
  rw [eq_ix2 i]
  exact layerRef_at a h wl wr b (i 0) (i 1)

/-- The reference's head on whole arrays is the specification's head of the same arrays. -/
theorem headRef_eq (g : FVec Ideal S64x128 .f32) (w1 : FVec Ideal S128x128 .f32) (b1 : FVec Ideal S128 .f32)
    (w2 : FVec Ideal S128x10 .f32) (b2 : FVec Ideal S10 .f32) :
    headRef g w1 b1 w2 b2 = headArr g w1 b1 w2 b2 := by
  funext i
  rw [eq_ix2 i]
  exact headRef_at g w1 b1 w2 b2 (i 0) (i 1)

variable (x0 : (⟨S40000x128, .f32⟩ : BufTy).Contents (Elt Ideal)) (x1 : (⟨S3x128x128, .f32⟩ : BufTy).Contents (Elt Ideal))
  (x2 : (⟨S3x128, .f32⟩ : BufTy).Contents (Elt Ideal)) (x3 : (⟨S3x128x128, .f32⟩ : BufTy).Contents (Elt Ideal))
  (x4 : (⟨S128x128, .f32⟩ : BufTy).Contents (Elt Ideal)) (x5 : (⟨S128, .f32⟩ : BufTy).Contents (Elt Ideal))
  (x6 : (⟨S10x128, .f32⟩ : BufTy).Contents (Elt Ideal)) (x7 : (⟨S10, .f32⟩ : BufTy).Contents (Elt Ideal))
  (x8 : (⟨S2x640000, .i32⟩ : BufTy).Contents (Elt Ideal)) (x9 : (⟨S40000, .i32⟩ : BufTy).Contents (Elt Ideal))

/-- The reference's features after the first layer. -/
theorem layer1 : Read.val_main_v37 (F := Ideal) x0 x1 x2 x3 x8
    = layerArr (Read.val_main_v22 (F := Ideal) x0 x8) x0 (Read.val_main_v25 (F := Ideal) x1) (Read.val_main_v34 (F := Ideal) x3) (Read.val_main_v28 (F := Ideal) x2) :=
  (show Read.val_main_v37 (F := Ideal) x0 x1 x2 x3 x8 = layerRef (Read.val_main_v22 (F := Ideal) x0 x8) x0 (Read.val_main_v25 (F := Ideal) x1) (Read.val_main_v34 (F := Ideal) x3) (Read.val_main_v28 (F := Ideal) x2) from rfl).trans (layerRef_eq _ _ _ _ _)

/-- The reference's features after the second layer. -/
theorem layer2 : Read.val_main_v65 (F := Ideal) x0 x1 x2 x3 x8
    = layerArr (Read.val_main_v50 (F := Ideal) x0 x1 x2 x3 x8) (Read.val_main_v37 (F := Ideal) x0 x1 x2 x3 x8) (Read.val_main_v53 (F := Ideal) x1) (Read.val_main_v62 (F := Ideal) x3) (Read.val_main_v56 (F := Ideal) x2) :=
  (show Read.val_main_v65 (F := Ideal) x0 x1 x2 x3 x8 = layerRef (Read.val_main_v50 (F := Ideal) x0 x1 x2 x3 x8) (Read.val_main_v37 (F := Ideal) x0 x1 x2 x3 x8) (Read.val_main_v53 (F := Ideal) x1) (Read.val_main_v62 (F := Ideal) x3) (Read.val_main_v56 (F := Ideal) x2) from rfl).trans (layerRef_eq _ _ _ _ _)

/-- The reference's features after the third layer. -/
theorem layer3 : Read.val_main_v93 (F := Ideal) x0 x1 x2 x3 x8
    = layerArr (Read.val_main_v78 (F := Ideal) x0 x1 x2 x3 x8) (Read.val_main_v65 (F := Ideal) x0 x1 x2 x3 x8) (Read.val_main_v81 (F := Ideal) x1) (Read.val_main_v90 (F := Ideal) x3) (Read.val_main_v84 (F := Ideal) x2) :=
  (show Read.val_main_v93 (F := Ideal) x0 x1 x2 x3 x8 = layerRef (Read.val_main_v78 (F := Ideal) x0 x1 x2 x3 x8) (Read.val_main_v65 (F := Ideal) x0 x1 x2 x3 x8) (Read.val_main_v81 (F := Ideal) x1) (Read.val_main_v90 (F := Ideal) x3) (Read.val_main_v84 (F := Ideal) x2) from rfl).trans (layerRef_eq _ _ _ _ _)

/-- The reference's result: the head of the pooled rows. -/
theorem head : Read.val_main_v117 (F := Ideal) x0 x1 x2 x3 x4 x5 x6 x7 x8 x9
    = headArr (Read.val_main_v105 (F := Ideal) x0 x1 x2 x3 x8 x9) (Read.val_main_v106 (F := Ideal) x4) x5 (Read.val_main_v112 (F := Ideal) x6) x7 :=
  (show Read.val_main_v117 (F := Ideal) x0 x1 x2 x3 x4 x5 x6 x7 x8 x9 = headRef (Read.val_main_v105 (F := Ideal) x0 x1 x2 x3 x8 x9) (Read.val_main_v106 (F := Ideal) x4) x5 (Read.val_main_v112 (F := Ideal) x6) x7 from rfl).trans (headRef_eq _ _ _ _ _)

end Cert.Sage.RefBridge

end
-- ==== Proof.HostA.lean ====
/-
  The kernel program's buffers up to the first layer's result, as the reference's stages.

  Before the first region the kernel program's host operations compute, from the launch arrays, the source and target
  node lists, the in-degrees, the first aggregate, the transposed weight slices and the bias slice — the same operations
  the reference applies — so each of those buffers holds the reference's stage of the same arguments. The first region
  then leaves the specification's layer of them in its result array, which is the reference's features after its first
  layer.
-/
import proofs.«162324_j37752762532360_1_alg».proof.Proof.Gen.KernelIdeal.Frame
import proofs.«162324_j37752762532360_1_alg».proof.Proof.Gen.ReferenceIdeal.Read
import proofs.«162324_j37752762532360_1_alg».proof.Proof.SpecArr
import Idealize.ShloMosaic.Lib.StableHlo.Run
import Idealize.ShloMosaic.Lib.Pipeline.Value
import Idealize.ShloMosaic.Lib.ValueIdx
import proofs.«162324_j37752762532360_1_alg».proof.Proof.Blocks0
import proofs.«162324_j37752762532360_1_alg».proof.Proof.RefBridge
set_option maxRecDepth 16384

noncomputable section

namespace Cert.KernelIdeal.HostValue

open Cert.KernelIdeal Cert.KernelIdeal.Gen Idealize.ShloMosaic Idealize.ShloMosaic.TcCoe Idealize.SL.Sem
open Idealize.ShloMosaic.StableHlo Idealize.ShloMosaic.ValueIdx Cert.Sage

variable (m : (ℓ : Loc nD τ sig) → Buf (Elt Ideal) ℓ) (ρ : Dev nD → PrngReg) (c : Dev nD)

/-- The argument arrays of device `c` at launch. -/
abbrev X0 := m ((c : Thread nD τ).loc main_arg0)
abbrev X1 := m ((c : Thread nD τ).loc main_arg1)
abbrev X2 := m ((c : Thread nD τ).loc main_arg2)
abbrev X3 := m ((c : Thread nD τ).loc main_arg3)
abbrev X4 := m ((c : Thread nD τ).loc main_arg4)
abbrev X5 := m ((c : Thread nD τ).loc main_arg5)
abbrev X6 := m ((c : Thread nD τ).loc main_arg6)
abbrev X7 := m ((c : Thread nD τ).loc main_arg7)
abbrev X8 := m ((c : Thread nD τ).loc main_arg8)
abbrev X9 := m ((c : Thread nD τ).loc main_arg9)

/-- A vector of length `n` re-laid as a `[1, n]` row holds entry `q` of the vector at `(0, q)`. -/
theorem row_of_vec {n : ℕ} (b : A1 n) (h : (⟨1, ![n]⟩ : Shape).ShapeCasts ⟨2, ![1, n]⟩) (q : Fin n) :
    shapeCast (⟨2, ![1, n]⟩ : Shape) b h (ix2 0 q) = b (ix1 q) :=
  shapeCast_apply b h (ix2 0 q) (ix1 q)
    (by rewrite [Shape.rowMajor_val_two, Shape.rowMajor_val_one]; show q.val = 0 * n + q.val; omega)

/-! ## The buffers when the first region is entered -/

set_option maxHeartbeats 4000000 in
theorem A_v1 : W1 m ρ c (Proc.devRef .tc main_v1) = Cert.ReferenceIdeal.Read.val_main_v1 (F := Ideal) (X8 m c) := by
  show StableHlo.after hostOps0 (W0 m ρ c) (Proc.devRef .tc main_v1) = _
  after_results_simp <;> rfl

set_option maxHeartbeats 4000000 in
theorem A_v3 : W1 m ρ c (Proc.devRef .tc main_v3) = Cert.ReferenceIdeal.Read.val_main_v3 (F := Ideal) (X8 m c) := by
  show StableHlo.after hostOps0 (W0 m ρ c) (Proc.devRef .tc main_v3) = _
  after_results_simp <;> rfl

set_option maxHeartbeats 4000000 in
theorem A_v9 : W1 m ρ c (Proc.devRef .tc main_v9) = Cert.ReferenceIdeal.Read.val_main_v9 (F := Ideal) (X8 m c) := by
  show StableHlo.after hostOps0 (W0 m ρ c) (Proc.devRef .tc main_v9) = _
  after_results_simp <;> rfl

set_option maxHeartbeats 4000000 in
theorem A_v22 : W1 m ρ c (Proc.devRef .tc main_v22) = Cert.ReferenceIdeal.Read.val_main_v22 (F := Ideal) (X0 m c) (X8 m c) := by
  show StableHlo.after hostOps0 (W0 m ρ c) (Proc.devRef .tc main_v22) = _
  after_results_simp <;> rfl

set_option maxHeartbeats 4000000 in
theorem A_v25 : W1 m ρ c (Proc.devRef .tc main_v25) = Cert.ReferenceIdeal.Read.val_main_v25 (F := Ideal) (X1 m c) := by
  show StableHlo.after hostOps0 (W0 m ρ c) (Proc.devRef .tc main_v25) = _
  after_results_simp <;> rfl

set_option maxHeartbeats 4000000 in
theorem A_v28 : W1 m ρ c (Proc.devRef .tc main_v28) = Cert.ReferenceIdeal.Read.val_main_v34 (F := Ideal) (X3 m c) := by
  show StableHlo.after hostOps0 (W0 m ρ c) (Proc.devRef .tc main_v28) = _
  after_results_simp <;> rfl

set_option maxHeartbeats 4000000 in
theorem A_v31 (hsc : S128.ShapeCasts S1x128) : W1 m ρ c (Proc.devRef .tc main_v31) = shapeCast S1x128 (Cert.ReferenceIdeal.Read.val_main_v28 (F := Ideal) (X2 m c)) hsc := by
  show StableHlo.after hostOps0 (W0 m ρ c) (Proc.devRef .tc main_v31) = _
  after_results_simp <;> rfl

set_option maxHeartbeats 4000000 in
theorem A_arg0 : W1 m ρ c (Proc.devRef .tc main_arg0) = X0 m c := by
  show StableHlo.after hostOps0 (W0 m ρ c) (Proc.devRef .tc main_arg0) = _
  after_results_simp <;> rfl

set_option maxHeartbeats 4000000 in
theorem A_arg1 : W1 m ρ c (Proc.devRef .tc main_arg1) = X1 m c := by
  show StableHlo.after hostOps0 (W0 m ρ c) (Proc.devRef .tc main_arg1) = _
  after_results_simp <;> rfl

set_option maxHeartbeats 4000000 in
theorem A_arg2 : W1 m ρ c (Proc.devRef .tc main_arg2) = X2 m c := by
  show StableHlo.after hostOps0 (W0 m ρ c) (Proc.devRef .tc main_arg2) = _
  after_results_simp <;> rfl

set_option maxHeartbeats 4000000 in
theorem A_arg3 : W1 m ρ c (Proc.devRef .tc main_arg3) = X3 m c := by
  show StableHlo.after hostOps0 (W0 m ρ c) (Proc.devRef .tc main_arg3) = _
  after_results_simp <;> rfl

set_option maxHeartbeats 4000000 in
theorem A_arg4 : W1 m ρ c (Proc.devRef .tc main_arg4) = X4 m c := by
  show StableHlo.after hostOps0 (W0 m ρ c) (Proc.devRef .tc main_arg4) = _
  after_results_simp <;> rfl

set_option maxHeartbeats 4000000 in
theorem A_arg5 : W1 m ρ c (Proc.devRef .tc main_arg5) = X5 m c := by
  show StableHlo.after hostOps0 (W0 m ρ c) (Proc.devRef .tc main_arg5) = _
  after_results_simp <;> rfl

set_option maxHeartbeats 4000000 in
theorem A_arg6 : W1 m ρ c (Proc.devRef .tc main_arg6) = X6 m c := by
  show StableHlo.after hostOps0 (W0 m ρ c) (Proc.devRef .tc main_arg6) = _
  after_results_simp <;> rfl

set_option maxHeartbeats 4000000 in
theorem A_arg7 : W1 m ρ c (Proc.devRef .tc main_arg7) = X7 m c := by
  show StableHlo.after hostOps0 (W0 m ρ c) (Proc.devRef .tc main_arg7) = _
  after_results_simp <;> rfl

set_option maxHeartbeats 4000000 in
theorem A_arg9 : W1 m ρ c (Proc.devRef .tc main_arg9) = X9 m c := by
  show StableHlo.after hostOps0 (W0 m ρ c) (Proc.devRef .tc main_arg9) = _
  after_results_simp <;> rfl

/-! ## The first region's result -/

/-- The first layer's result array is the reference's features after its first layer. -/
theorem B_v32 : W2 m ρ c (Proc.devRef .tc main_v32) = Cert.ReferenceIdeal.Read.val_main_v37 (F := Ideal) (X0 m c) (X1 m c) (X2 m c) (X3 m c) (X8 m c) := by
  have hsc : S128.ShapeCasts S1x128 := Cert.KernelIdeal.Facts₀.shapeCasts_S128_S1x128
  refine (W2_arr m ρ c 5).trans ?_
  refine (Blocks0.final (V1 m ρ) c (Cert.ReferenceIdeal.Read.val_main_v22 (F := Ideal) (X0 m c) (X8 m c)) (X0 m c) (Cert.ReferenceIdeal.Read.val_main_v25 (F := Ideal) (X1 m c)) (Cert.ReferenceIdeal.Read.val_main_v34 (F := Ideal) (X3 m c))
    (shapeCast S1x128 (Cert.ReferenceIdeal.Read.val_main_v28 (F := Ideal) (X2 m c)) hsc) (Cert.ReferenceIdeal.Read.val_main_v28 (F := Ideal) (X2 m c))
    (A_v22 m ρ c) (A_arg0 m ρ c) (A_v25 m ρ c) (A_v31 m ρ c hsc) (A_v28 m ρ c) (fun q => row_of_vec _ hsc q)).trans ?_
  exact (Cert.Sage.RefBridge.layer1 (X0 m c) (X1 m c) (X2 m c) (X3 m c) (X8 m c)).symm

end Cert.KernelIdeal.HostValue

end
-- ==== Proof.Blocks1.lean ====
/-
  The second SAGE layer's region, from blocks to the whole array.

  The region runs over ten grid points; point `t` stages rows `4000 t … 4000 t + 3999` of the aggregate and of the
  node features, the whole weight matrices and the bias row, and writes back rows `4000 t … 4000 t + 3999` of the
  result. Each written block is the block of ONE function of the arrays the region was entered with — the layer
  `layerArr`, entry by entry `max (agg · Wl + h · Wr + b) 0` — and the ten blocks cover the result, so the result
  array ends holding that function.
-/
import proofs.«162324_j37752762532360_1_alg».proof.Proof.Gen.KernelIdeal.Frame
import proofs.«162324_j37752762532360_1_alg».proof.Proof.SpecArr
import Idealize.ShloMosaic.Lib.Pipeline.Value
import Idealize.ShloMosaic.Lib.ValueIdx
import proofs.«162324_j37752762532360_1_alg».proof.Proof.LayerPay
set_option maxRecDepth 16384

noncomputable section

namespace Cert.KernelIdeal.Blocks1

open Cert.KernelIdeal Cert.KernelIdeal.Gen Idealize.ShloMosaic Idealize.ShloMosaic.TcCoe Idealize.SL.Sem
open Idealize.ShloMosaic.ValueIdx Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: the two row-blocked operands and the result sit at block row `t`,
    the weights and the bias row at block zero. -/
theorem idx_facts : ∀ t : Fin cfg1.N,
    win1_0.index t (0 : Fin 2) = t.val ∧ win1_0.index t (1 : Fin 2) = 0
  ∧ win1_1.index t (0 : Fin 2) = t.val ∧ win1_1.index t (1 : Fin 2) = 0
  ∧ win1_2.index t (0 : Fin 2) = 0 ∧ win1_2.index t (1 : Fin 2) = 0
  ∧ win1_3.index t (0 : Fin 2) = 0 ∧ win1_3.index t (1 : Fin 2) = 0
  ∧ win1_4.index t (0 : Fin 2) = 0 ∧ win1_4.index t (1 : Fin 2) = 0
  ∧ win1_5.index t (0 : Fin 2) = t.val ∧ win1_5.index t (1 : Fin 2) = 0 :=
  (by decide +kernel : ∀ t : Fin grid1.N, _)

/-- Row `r` of the aggregate's block at point `t` is row `4000 t + r` of the array. -/
theorem rd0 (c : Dev nD) (t : Fin cfg1.N) (agg : A2 40000 128) (h0 : V c main_v45 = agg) (r : Fin 4000) (k : Fin 128)
    (R : Fin 40000) (hR : R.val = t.val * 4000 + r.val) :
    iblk1 V c 0 t (ix2 r k) = agg (ix2 R k) := by
  subst h0
  show V c main_v45 (((cfg1.win 0).blk t).view.emb (ix2 r k)) = V c main_v45 (ix2 R k)
  refine congrArg _ (funext fun a => Fin.ext ?_)
  obtain ⟨e0, e1, -⟩ := idx_facts t
  match a with
  | ⟨0, _⟩ => show win1_0.index t (0 : Fin 2) * 4000 + 1 * r.val = R.val; omega
  | ⟨1, _⟩ => show win1_0.index t (1 : Fin 2) * 128 + 1 * k.val = k.val; omega

/-- Row `r` of the features' block at point `t` is row `4000 t + r` of the array. -/
theorem rd1 (c : Dev nD) (t : Fin cfg1.N) (h : A2 40000 128) (h1 : V c main_v32 = h) (r : Fin 4000) (k : Fin 128)
    (R : Fin 40000) (hR : R.val = t.val * 4000 + r.val) :
    iblk1 V c 1 t (ix2 r k) = h (ix2 R k) := by
  subst h1
  show V c main_v32 (((cfg1.win 1).blk t).view.emb (ix2 r k)) = V c main_v32 (ix2 R k)
  refine congrArg _ (funext fun a => Fin.ext ?_)
  obtain ⟨-, -, e0, e1, -⟩ := idx_facts t
  match a with
  | ⟨0, _⟩ => show win1_1.index t (0 : Fin 2) * 4000 + 1 * r.val = R.val; omega
  | ⟨1, _⟩ => show win1_1.index t (1 : Fin 2) * 128 + 1 * k.val = k.val; omega

/-- The neighbour weights' block is the whole matrix at every point. -/
theorem rd2 (c : Dev nD) (t : Fin cfg1.N) (wl : A2 128 128) (h2 : V c main_v48 = wl) (k q : Fin 128) :
    iblk1 V c 2 t (ix2 k q) = wl (ix2 k q) := by
  subst h2
  show V c main_v48 (((cfg1.win 2).blk t).view.emb (ix2 k q)) = V c main_v48 (ix2 k q)
  refine congrArg _ (funext fun a => Fin.ext ?_)
  obtain ⟨-, -, -, -, e0, e1, -⟩ := idx_facts t
  match a with
  | ⟨0, _⟩ => show win1_2.index t (0 : Fin 2) * 128 + 1 * k.val = k.val; omega
  | ⟨1, _⟩ => show win1_2.index t (1 : Fin 2) * 128 + 1 * q.val = q.val; omega

/-- The bias row's block is the whole row at every point. -/
theorem rd3 (c : Dev nD) (t : Fin cfg1.N) (b1 : A2 1 128) (h3 : V c main_v54 = b1) (q : Fin 128) :
    iblk1 V c 3 t (ix2 0 q) = b1 (ix2 0 q) := by
  subst h3
  show V c main_v54 (((cfg1.win 3).blk t).view.emb (ix2 0 q)) = V c main_v54 (ix2 0 q)
  refine congrArg _ (funext fun a => Fin.ext ?_)
  obtain ⟨-, -, -, -, -, -, e0, e1, -⟩ := idx_facts t
  match a with
  | ⟨0, _⟩ => show win1_3.index t (0 : Fin 2) * 1 + 1 * (0 : Fin 1).val = (0 : Fin 1).val; omega
  | ⟨1, _⟩ => show win1_3.index t (1 : Fin 2) * 128 + 1 * q.val = q.val; omega

/-- The root weights' block is the whole matrix at every point. -/
theorem rd4 (c : Dev nD) (t : Fin cfg1.N) (wr : A2 128 128) (h4 : V c main_v51 = wr) (k q : Fin 128) :
    iblk1 V c 4 t (ix2 k q) = wr (ix2 k q) := by
  subst h4
  show V c main_v51 (((cfg1.win 4).blk t).view.emb (ix2 k q)) = V c main_v51 (ix2 k q)
  refine congrArg _ (funext fun a => Fin.ext ?_)
  obtain ⟨-, -, -, -, -, -, -, -, e0, e1, -⟩ := idx_facts t
  match a with
  | ⟨0, _⟩ => show win1_4.index t (0 : Fin 2) * 128 + 1 * k.val = k.val; omega
  | ⟨1, _⟩ => show win1_4.index t (1 : Fin 2) * 128 + 1 * q.val = q.val; omega

/-- One entry of the body's result over blocks whose rows are rows `4000 T + ·` of the arrays is that entry of the
    layer of the whole arrays. -/
theorem point_eq (x0 x1 : Vec Ideal S4000x128 .f32) (x2 x4 : Vec Ideal S128x128 .f32) (x3 : Vec Ideal S1x128 .f32)
    (agg h : A2 40000 128) (wl wr : A2 128 128) (b1 : A2 1 128) (b : A1 128) (T : ℕ)
    (e0 : ∀ (r : Fin 4000) (k : Fin 128) (R : Fin 40000), R.val = T * 4000 + r.val → x0 (ix2 r k) = agg (ix2 R k))
    (e1 : ∀ (r : Fin 4000) (k : Fin 128) (R : Fin 40000), R.val = T * 4000 + r.val → x1 (ix2 r k) = h (ix2 R k))
    (e2 : ∀ k q : Fin 128, x2 (ix2 k q) = wl (ix2 k q))
    (e3 : ∀ q : Fin 128, x3 (ix2 0 q) = b1 (ix2 0 q))
    (e4 : ∀ k q : Fin 128, x4 (ix2 k q) = wr (ix2 k q))
    (hb : ∀ q : Fin 128, b1 (ix2 0 q) = b (ix1 q))
    (p : Fin 4000) (q : Fin 128) (R : Fin 40000) (hR : R.val = T * 4000 + p.val) :
    k1_pay1 (F := Ideal) x0 x1 x2 x4 x3 (ix2 p q) = layerArr agg h wl wr b (ix2 R q) := by
  rw [Cert.Sage.LayerPay.k1_pay1_at, layerArr_ix2]
  unfold layerAt
  simp only [e0 p _ R hR, e1 p _ R hR, e2, e3, e4, hb]

/-- What point `t` writes back is block `t` of the layer of the whole arrays as the region finds them. -/
theorem flushed_eq (c : Dev nD) (agg h : A2 40000 128) (wl wr : A2 128 128) (b1 : A2 1 128) (b : A1 128)
    (h0 : V c main_v45 = agg) (h1 : V c main_v32 = h) (h2 : V c main_v48 = wl) (h3 : V c main_v54 = b1)
    (h4 : V c main_v51 = wr) (hb : ∀ q : Fin 128, b1 (ix2 0 q) = b (ix1 q)) (t : Fin cfg1.N) :
    (dat1 V c).flushed 5 t = ((cfg1.win 5).blk t).view.read (Elt Ideal) (layerArr agg h wl wr b) := by
  show (cfg1.win 5).cut (grid1.coords t) ((dat1 V c).after 5 t) = _
  rw [after1_5]
  unfold out1_5
  rw [View.canon_unit_zero hz]
  simp only [View.ld_unit_zero (S := S4000x128) hz, View.ld_unit_zero (S := S128x128) hz, View.ld_unit_zero (S := S1x128) hz]
  funext j
  show k1_pay1 (F := Ideal) (iblk1 V c 0 t) (iblk1 V c 1 t) (iblk1 V c 2 t) (iblk1 V c 4 t) (iblk1 V c 3 t) j
    = layerArr agg h wl wr b (((cfg1.win 5).blk t).view.emb j)
  have ht : t.val < 10 := lt_of_lt_of_eq t.isLt N_1
  obtain ⟨-, -, -, -, -, -, -, -, -, -, e0, e1⟩ := idx_facts t
  have hj : j = ix2 (j 0) (j 1) := eq_ix2 j
  have hp : (j 0).val < 4000 := (j 0).isLt
  have hq : (j 1).val < 128 := (j 1).isLt
  have hemb : ((cfg1.win 5).blk t).view.emb j = ix2 (⟨t.val * 4000 + (j 0).val, by omega⟩ : Fin 40000) (⟨(j 1).val, hq⟩ : Fin 128) := by
    funext a; apply Fin.ext
    match a with
    | ⟨0, _⟩ => show win1_5.index t (0 : Fin 2) * 4000 + 1 * (j 0).val = t.val * 4000 + (j 0).val; omega
    | ⟨1, _⟩ => show win1_5.index t (1 : Fin 2) * 128 + 1 * (j 1).val = (j 1).val; omega
  rw [hemb]
  have hj' : j = ix2 (⟨(j 0).val, hp⟩ : Fin 4000) (⟨(j 1).val, hq⟩ : Fin 128) := hj
  refine (congrArg (k1_pay1 (F := Ideal) (iblk1 V c 0 t) (iblk1 V c 1 t) (iblk1 V c 2 t) (iblk1 V c 4 t) (iblk1 V c 3 t)) hj').trans ?_
  exact point_eq _ _ _ _ _ agg h wl wr b1 b t.val
    (fun r k R hR => rd0 V c t agg h0 r k R hR) (fun r k R hR => rd1 V c t h h1 r k R hR)
    (fun k q => rd2 V c t wl h2 k q) (fun q => rd3 V c t b1 h3 q) (fun k q => rd4 V c t wr h4 k q) hb
    ⟨(j 0).val, hp⟩ ⟨(j 1).val, hq⟩ _ rfl

/-- An index of the result array is in point `t`'s block iff its row lies in rows `4000 t … 4000 t + 3999`. -/
theorem mem_blk (t : Fin cfg1.N) (i : S40000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v55).slice (win1_5.rect t)).set ↔ _
  rw [View.set_slice_whole, Rect.mem_set_unit]
  exact Iff.rfl

/-- Every index of the result array lies in the block of the point `row / 4000`. -/
theorem cover (i : S40000x128.Idx) :
    ∃ t : Fin cfg1.N, (cfg1.win 5).flush t = true ∧ i ∈ ((cfg1.win 5).blk t).view.set := by
  have hi0 : (i 0).val < 40000 := (i 0).isLt
  have hi1 : (i 1).val < 128 := (i 1).isLt
  let t : Fin cfg1.N := ⟨(i 0).val / 4000, by rw [show cfg1.N = 10 from N_1]; omega⟩
  refine ⟨t, flush1_5 t, ?_⟩
  rw [mem_blk]
  obtain ⟨-, -, -, -, -, -, -, -, -, -, e0, e1⟩ := idx_facts t
  have htv : t.val = (i 0).val / 4000 := rfl
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 128 ≤ (i 1).val ∧ (i 1).val < win1_5.index t (1 : Fin 2) * 128 + 128; omega

/-- The result array after the region: the layer of the arrays the region was entered with. -/
theorem final (c : Dev nD) (agg h : A2 40000 128) (wl wr : A2 128 128) (b1 : A2 1 128) (b : A1 128)
    (h0 : V c main_v45 = agg) (h1 : V c main_v32 = h) (h2 : V c main_v48 = wl) (h3 : V c main_v54 = b1)
    (h4 : V c main_v51 = wr) (hb : ∀ q : Fin 128, b1 (ix2 0 q) = b (ix1 q)) :
    (dat1 V c).arrAt 5 cfg1.N = layerArr agg h wl wr b :=
  (dat1 V c).arrAt_eq_of_cover 5 (layerArr agg h wl wr b)
    (fun t _ => flushed_eq V c agg h wl wr b1 b h0 h1 h2 h3 h4 hb t) cover

end Cert.KernelIdeal.Blocks1

end
-- ==== Proof.HostB.lean ====
/-
  The kernel program's buffers up to the second layer's result, as the reference's stages.

  The first region writes only its result array, so the node lists, the in-degrees and the launch arrays pass it
  unchanged. The host operations before the second region then compute the second aggregate from the first layer's
  features, and the second layer's weight and bias slices, exactly as the reference does; the second region leaves the
  specification's layer of them, which is the reference's features after its second layer.
-/
import proofs.«162324_j37752762532360_1_alg».proof.Proof.Gen.KernelIdeal.Frame
import proofs.«162324_j37752762532360_1_alg».proof.Proof.Gen.ReferenceIdeal.Read
import proofs.«162324_j37752762532360_1_alg».proof.Proof.SpecArr
import Idealize.ShloMosaic.Lib.StableHlo.Run
import Idealize.ShloMosaic.Lib.Pipeline.Value
import Idealize.ShloMosaic.Lib.ValueIdx
import proofs.«162324_j37752762532360_1_alg».proof.Proof.HostA
import proofs.«162324_j37752762532360_1_alg».proof.Proof.Blocks1
set_option maxRecDepth 16384

noncomputable section

namespace Cert.KernelIdeal.HostValue

open Cert.KernelIdeal Cert.KernelIdeal.Gen Idealize.ShloMosaic Idealize.ShloMosaic.TcCoe Idealize.SL.Sem
open Idealize.ShloMosaic.StableHlo Idealize.ShloMosaic.ValueIdx Cert.Sage

variable (m : (ℓ : Loc nD τ sig) → Buf (Elt Ideal) ℓ) (ρ : Dev nD → PrngReg) (c : Dev nD)

/-! ## The buffers the first region leaves as they were -/

theorem B_v1 : W2 m ρ c (Proc.devRef .tc main_v1) = Cert.ReferenceIdeal.Read.val_main_v1 (F := Ideal) (X8 m c) :=
  (W2_of_ne m ρ c main_v1 (by decide)).trans (A_v1 m ρ c)

theorem B_v3 : W2 m ρ c (Proc.devRef .tc main_v3) = Cert.ReferenceIdeal.Read.val_main_v3 (F := Ideal) (X8 m c) :=
  (W2_of_ne m ρ c main_v3 (by decide)).trans (A_v3 m ρ c)

theorem B_v9 : W2 m ρ c (Proc.devRef .tc main_v9) = Cert.ReferenceIdeal.Read.val_main_v9 (F := Ideal) (X8 m c) :=
  (W2_of_ne m ρ c main_v9 (by decide)).trans (A_v9 m ρ c)

theorem B_arg1 : W2 m ρ c (Proc.devRef .tc main_arg1) = X1 m c :=
  (W2_of_ne m ρ c main_arg1 (by decide)).trans (A_arg1 m ρ c)

theorem B_arg2 : W2 m ρ c (Proc.devRef .tc main_arg2) = X2 m c :=
  (W2_of_ne m ρ c main_arg2 (by decide)).trans (A_arg2 m ρ c)

theorem B_arg3 : W2 m ρ c (Proc.devRef .tc main_arg3) = X3 m c :=
  (W2_of_ne m ρ c main_arg3 (by decide)).trans (A_arg3 m ρ c)

theorem B_arg4 : W2 m ρ c (Proc.devRef .tc main_arg4) = X4 m c :=
  (W2_of_ne m ρ c main_arg4 (by decide)).trans (A_arg4 m ρ c)

theorem B_arg5 : W2 m ρ c (Proc.devRef .tc main_arg5) = X5 m c :=
  (W2_of_ne m ρ c main_arg5 (by decide)).trans (A_arg5 m ρ c)

theorem B_arg6 : W2 m ρ c (Proc.devRef .tc main_arg6) = X6 m c :=
  (W2_of_ne m ρ c main_arg6 (by decide)).trans (A_arg6 m ρ c)

theorem B_arg7 : W2 m ρ c (Proc.devRef .tc main_arg7) = X7 m c :=
  (W2_of_ne m ρ c main_arg7 (by decide)).trans (A_arg7 m ρ c)

theorem B_arg9 : W2 m ρ c (Proc.devRef .tc main_arg9) = X9 m c :=
  (W2_of_ne m ρ c main_arg9 (by decide)).trans (A_arg9 m ρ c)

/-! ## The buffers when the second region is entered -/

set_option maxHeartbeats 4000000 in
theorem C_v1 : W3 m ρ c (Proc.devRef .tc main_v1) = Cert.ReferenceIdeal.Read.val_main_v1 (F := Ideal) (X8 m c) := by
  show StableHlo.after hostOps1 (W2 m ρ c) (Proc.devRef .tc main_v1) = _
  after_results_simp
  exact B_v1 m ρ c

set_option maxHeartbeats 4000000 in
theorem C_v3 : W3 m ρ c (Proc.devRef .tc main_v3) = Cert.ReferenceIdeal.Read.val_main_v3 (F := Ideal) (X8 m c) := by
  show StableHlo.after hostOps1 (W2 m ρ c) (Proc.devRef .tc main_v3) = _
  after_results_simp
  exact B_v3 m ρ c

set_option maxHeartbeats 4000000 in
theorem C_v9 : W3 m ρ c (Proc.devRef .tc main_v9) = Cert.ReferenceIdeal.Read.val_main_v9 (F := Ideal) (X8 m c) := by
  show StableHlo.after hostOps1 (W2 m ρ c) (Proc.devRef .tc main_v9) = _
  after_results_simp
  exact B_v9 m ρ c

set_option maxHeartbeats 4000000 in
theorem C_arg1 : W3 m ρ c (Proc.devRef .tc main_arg1) = X1 m c := by
  show StableHlo.after hostOps1 (W2 m ρ c) (Proc.devRef .tc main_arg1) = _
  after_results_simp
  exact B_arg1 m ρ c

set_option maxHeartbeats 4000000 in
theorem C_arg2 : W3 m ρ c (Proc.devRef .tc main_arg2) = X2 m c := by
  show StableHlo.after hostOps1 (W2 m ρ c) (Proc.devRef .tc main_arg2) = _
  after_results_simp
  exact B_arg2 m ρ c

set_option maxHeartbeats 4000000 in
theorem C_arg3 : W3 m ρ c (Proc.devRef .tc main_arg3) = X3 m c := by
  show StableHlo.after hostOps1 (W2 m ρ c) (Proc.devRef .tc main_arg3) = _
  after_results_simp
  exact B_arg3 m ρ c

set_option maxHeartbeats 4000000 in
theorem C_arg4 : W3 m ρ c (Proc.devRef .tc main_arg4) = X4 m c := by
  show StableHlo.after hostOps1 (W2 m ρ c) (Proc.devRef .tc main_arg4) = _
  after_results_simp
  exact B_arg4 m ρ c

set_option maxHeartbeats 4000000 in
theorem C_arg5 : W3 m ρ c (Proc.devRef .tc main_arg5) = X5 m c := by
  show StableHlo.after hostOps1 (W2 m ρ c) (Proc.devRef .tc main_arg5) = _
  after_results_simp
  exact B_arg5 m ρ c

set_option maxHeartbeats 4000000 in
theorem C_arg6 : W3 m ρ c (Proc.devRef .tc main_arg6) = X6 m c := by
  show StableHlo.after hostOps1 (W2 m ρ c) (Proc.devRef .tc main_arg6) = _
  after_results_simp
  exact B_arg6 m ρ c

set_option maxHeartbeats 4000000 in
theorem C_arg7 : W3 m ρ c (Proc.devRef .tc main_arg7) = X7 m c := by
  show StableHlo.after hostOps1 (W2 m ρ c) (Proc.devRef .tc main_arg7) = _
  after_results_simp
  exact B_arg7 m ρ c

set_option maxHeartbeats 4000000 in
theorem C_arg9 : W3 m ρ c (Proc.devRef .tc main_arg9) = X9 m c := by
  show StableHlo.after hostOps1 (W2 m ρ c) (Proc.devRef .tc main_arg9) = _
  after_results_simp
  exact B_arg9 m ρ c

set_option maxHeartbeats 4000000 in
theorem C_hprev : W3 m ρ c (Proc.devRef .tc main_v32) = Cert.ReferenceIdeal.Read.val_main_v37 (F := Ideal) (X0 m c) (X1 m c) (X2 m c) (X3 m c) (X8 m c) := by
  show StableHlo.after hostOps1 (W2 m ρ c) (Proc.devRef .tc main_v32) = _
  after_results_simp
  exact B_v32 m ρ c

set_option maxHeartbeats 4000000 in
theorem C_agg : W3 m ρ c (Proc.devRef .tc main_v45) = Cert.ReferenceIdeal.Read.val_main_v50 (F := Ideal) (X0 m c) (X1 m c) (X2 m c) (X3 m c) (X8 m c) := by
  show StableHlo.after hostOps1 (W2 m ρ c) (Proc.devRef .tc main_v45) = _
  after_results_simp
  rw [B_v32 m ρ c, B_v1 m ρ c, B_v3 m ρ c, B_v9 m ρ c]
  rfl

set_option maxHeartbeats 4000000 in
theorem C_wl : W3 m ρ c (Proc.devRef .tc main_v48) = Cert.ReferenceIdeal.Read.val_main_v53 (F := Ideal) (X1 m c) := by
  show StableHlo.after hostOps1 (W2 m ρ c) (Proc.devRef .tc main_v48) = _
  after_results_simp
  rw [B_arg1 m ρ c]
  rfl

set_option maxHeartbeats 4000000 in
theorem C_wr : W3 m ρ c (Proc.devRef .tc main_v51) = Cert.ReferenceIdeal.Read.val_main_v62 (F := Ideal) (X3 m c) := by
  show StableHlo.after hostOps1 (W2 m ρ c) (Proc.devRef .tc main_v51) = _
  after_results_simp
  rw [B_arg3 m ρ c]
  rfl

set_option maxHeartbeats 4000000 in
theorem C_brow (hsc : S128.ShapeCasts S1x128) : W3 m ρ c (Proc.devRef .tc main_v54) = shapeCast S1x128 (Cert.ReferenceIdeal.Read.val_main_v56 (F := Ideal) (X2 m c)) hsc := by
  show StableHlo.after hostOps1 (W2 m ρ c) (Proc.devRef .tc main_v54) = _
  after_results_simp
  rw [B_arg2 m ρ c]
  rfl

/-! ## The second region's result -/

/-- The second layer's result array is the reference's features after its second layer. -/
theorem D_out : W4 m ρ c (Proc.devRef .tc main_v55) = Cert.ReferenceIdeal.Read.val_main_v65 (F := Ideal) (X0 m c) (X1 m c) (X2 m c) (X3 m c) (X8 m c) := by
  have hsc : S128.ShapeCasts S1x128 := Cert.KernelIdeal.Facts₀.shapeCasts_S128_S1x128
  refine (W4_arr m ρ c 5).trans ?_
  refine (Blocks1.final (V3 m ρ) c (Cert.ReferenceIdeal.Read.val_main_v50 (F := Ideal) (X0 m c) (X1 m c) (X2 m c) (X3 m c) (X8 m c)) (Cert.ReferenceIdeal.Read.val_main_v37 (F := Ideal) (X0 m c) (X1 m c) (X2 m c) (X3 m c) (X8 m c)) (Cert.ReferenceIdeal.Read.val_main_v53 (F := Ideal) (X1 m c)) (Cert.ReferenceIdeal.Read.val_main_v62 (F := Ideal) (X3 m c))
    (shapeCast S1x128 (Cert.ReferenceIdeal.Read.val_main_v56 (F := Ideal) (X2 m c)) hsc) (Cert.ReferenceIdeal.Read.val_main_v56 (F := Ideal) (X2 m c))
    (C_agg m ρ c) (C_hprev m ρ c) (C_wl m ρ c) (C_brow m ρ c hsc) (C_wr m ρ c) (fun q => row_of_vec _ hsc q)).trans ?_
  exact (Cert.Sage.RefBridge.layer2 (X0 m c) (X1 m c) (X2 m c) (X3 m c) (X8 m c)).symm

end Cert.KernelIdeal.HostValue

end
-- ==== Proof.Blocks2.lean ====
/-
  The third SAGE layer's region, from blocks to the whole array.

  The region runs over ten grid points; point `t` stages rows `4000 t … 4000 t + 3999` of the aggregate and of the
  node features, the whole weight matrices and the bias row, and writes back rows `4000 t … 4000 t + 3999` of the
  result. Each written block is the block of ONE function of the arrays the region was entered with — the layer
  `layerArr`, entry by entry `max (agg · Wl + h · Wr + b) 0` — and the ten blocks cover the result, so the result
  array ends holding that function.
-/
import proofs.«162324_j37752762532360_1_alg».proof.Proof.Gen.KernelIdeal.Frame
import proofs.«162324_j37752762532360_1_alg».proof.Proof.SpecArr
import Idealize.ShloMosaic.Lib.Pipeline.Value
import Idealize.ShloMosaic.Lib.ValueIdx
import proofs.«162324_j37752762532360_1_alg».proof.Proof.LayerPay
set_option maxRecDepth 16384

noncomputable section

namespace Cert.KernelIdeal.Blocks2

open Cert.KernelIdeal Cert.KernelIdeal.Gen Idealize.ShloMosaic Idealize.ShloMosaic.TcCoe Idealize.SL.Sem
open Idealize.ShloMosaic.ValueIdx Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: the two row-blocked operands and the result sit at block row `t`,
    the weights and the bias row at block zero. -/
theorem idx_facts : ∀ t : Fin cfg2.N,
    win2_0.index t (0 : Fin 2) = t.val ∧ win2_0.index t (1 : Fin 2) = 0
  ∧ win2_1.index t (0 : Fin 2) = t.val ∧ win2_1.index t (1 : Fin 2) = 0
  ∧ win2_2.index t (0 : Fin 2) = 0 ∧ win2_2.index t (1 : Fin 2) = 0
  ∧ win2_3.index t (0 : Fin 2) = 0 ∧ win2_3.index t (1 : Fin 2) = 0
  ∧ win2_4.index t (0 : Fin 2) = 0 ∧ win2_4.index t (1 : Fin 2) = 0
  ∧ win2_5.index t (0 : Fin 2) = t.val ∧ win2_5.index t (1 : Fin 2) = 0 :=
  (by decide +kernel : ∀ t : Fin grid2.N, _)

/-- Row `r` of the aggregate's block at point `t` is row `4000 t + r` of the array. -/
theorem rd0 (c : Dev nD) (t : Fin cfg2.N) (agg : A2 40000 128) (h0 : V c main_v68 = agg) (r : Fin 4000) (k : Fin 128)
    (R : Fin 40000) (hR : R.val = t.val * 4000 + r.val) :
    iblk2 V c 0 t (ix2 r k) = agg (ix2 R k) := by
  subst h0
  show V c main_v68 (((cfg2.win 0).blk t).view.emb (ix2 r k)) = V c main_v68 (ix2 R k)
  refine congrArg _ (funext fun a => Fin.ext ?_)
  obtain ⟨e0, e1, -⟩ := idx_facts t
  match a with
  | ⟨0, _⟩ => show win2_0.index t (0 : Fin 2) * 4000 + 1 * r.val = R.val; omega
  | ⟨1, _⟩ => show win2_0.index t (1 : Fin 2) * 128 + 1 * k.val = k.val; omega

/-- Row `r` of the features' block at point `t` is row `4000 t + r` of the array. -/
theorem rd1 (c : Dev nD) (t : Fin cfg2.N) (h : A2 40000 128) (h1 : V c main_v55 = h) (r : Fin 4000) (k : Fin 128)
    (R : Fin 40000) (hR : R.val = t.val * 4000 + r.val) :
    iblk2 V c 1 t (ix2 r k) = h (ix2 R k) := by
  subst h1
  show V c main_v55 (((cfg2.win 1).blk t).view.emb (ix2 r k)) = V c main_v55 (ix2 R k)
  refine congrArg _ (funext fun a => Fin.ext ?_)
  obtain ⟨-, -, e0, e1, -⟩ := idx_facts t
  match a with
  | ⟨0, _⟩ => show win2_1.index t (0 : Fin 2) * 4000 + 1 * r.val = R.val; omega
  | ⟨1, _⟩ => show win2_1.index t (1 : Fin 2) * 128 + 1 * k.val = k.val; omega

/-- The neighbour weights' block is the whole matrix at every point. -/
theorem rd2 (c : Dev nD) (t : Fin cfg2.N) (wl : A2 128 128) (h2 : V c main_v71 = wl) (k q : Fin 128) :
    iblk2 V c 2 t (ix2 k q) = wl (ix2 k q) := by
  subst h2
  show V c main_v71 (((cfg2.win 2).blk t).view.emb (ix2 k q)) = V c main_v71 (ix2 k q)
  refine congrArg _ (funext fun a => Fin.ext ?_)
  obtain ⟨-, -, -, -, e0, e1, -⟩ := idx_facts t
  match a with
  | ⟨0, _⟩ => show win2_2.index t (0 : Fin 2) * 128 + 1 * k.val = k.val; omega
  | ⟨1, _⟩ => show win2_2.index t (1 : Fin 2) * 128 + 1 * q.val = q.val; omega

/-- The bias row's block is the whole row at every point. -/
theorem rd3 (c : Dev nD) (t : Fin cfg2.N) (b1 : A2 1 128) (h3 : V c main_v77 = b1) (q : Fin 128) :
    iblk2 V c 3 t (ix2 0 q) = b1 (ix2 0 q) := by
  subst h3
  show V c main_v77 (((cfg2.win 3).blk t).view.emb (ix2 0 q)) = V c main_v77 (ix2 0 q)
  refine congrArg _ (funext fun a => Fin.ext ?_)
  obtain ⟨-, -, -, -, -, -, e0, e1, -⟩ := idx_facts t
  match a with
  | ⟨0, _⟩ => show win2_3.index t (0 : Fin 2) * 1 + 1 * (0 : Fin 1).val = (0 : Fin 1).val; omega
  | ⟨1, _⟩ => show win2_3.index t (1 : Fin 2) * 128 + 1 * q.val = q.val; omega

/-- The root weights' block is the whole matrix at every point. -/
theorem rd4 (c : Dev nD) (t : Fin cfg2.N) (wr : A2 128 128) (h4 : V c main_v74 = wr) (k q : Fin 128) :
    iblk2 V c 4 t (ix2 k q) = wr (ix2 k q) := by
  subst h4
  show V c main_v74 (((cfg2.win 4).blk t).view.emb (ix2 k q)) = V c main_v74 (ix2 k q)
  refine congrArg _ (funext fun a => Fin.ext ?_)
  obtain ⟨-, -, -, -, -, -, -, -, e0, e1, -⟩ := idx_facts t
  match a with
  | ⟨0, _⟩ => show win2_4.index t (0 : Fin 2) * 128 + 1 * k.val = k.val; omega
  | ⟨1, _⟩ => show win2_4.index t (1 : Fin 2) * 128 + 1 * q.val = q.val; omega

/-- One entry of the body's result over blocks whose rows are rows `4000 T + ·` of the arrays is that entry of the
    layer of the whole arrays. -/
theorem point_eq (x0 x1 : Vec Ideal S4000x128 .f32) (x2 x4 : Vec Ideal S128x128 .f32) (x3 : Vec Ideal S1x128 .f32)
    (agg h : A2 40000 128) (wl wr : A2 128 128) (b1 : A2 1 128) (b : A1 128) (T : ℕ)
    (e0 : ∀ (r : Fin 4000) (k : Fin 128) (R : Fin 40000), R.val = T * 4000 + r.val → x0 (ix2 r k) = agg (ix2 R k))
    (e1 : ∀ (r : Fin 4000) (k : Fin 128) (R : Fin 40000), R.val = T * 4000 + r.val → x1 (ix2 r k) = h (ix2 R k))
    (e2 : ∀ k q : Fin 128, x2 (ix2 k q) = wl (ix2 k q))
    (e3 : ∀ q : Fin 128, x3 (ix2 0 q) = b1 (ix2 0 q))
    (e4 : ∀ k q : Fin 128, x4 (ix2 k q) = wr (ix2 k q))
    (hb : ∀ q : Fin 128, b1 (ix2 0 q) = b (ix1 q))
    (p : Fin 4000) (q : Fin 128) (R : Fin 40000) (hR : R.val = T * 4000 + p.val) :
    k2_pay1 (F := Ideal) x0 x1 x2 x4 x3 (ix2 p q) = layerArr agg h wl wr b (ix2 R q) := by
  rw [Cert.Sage.LayerPay.k2_pay1_at, layerArr_ix2]
  unfold layerAt
  simp only [e0 p _ R hR, e1 p _ R hR, e2, e3, e4, hb]

/-- What point `t` writes back is block `t` of the layer of the whole arrays as the region finds them. -/
theorem flushed_eq (c : Dev nD) (agg h : A2 40000 128) (wl wr : A2 128 128) (b1 : A2 1 128) (b : A1 128)
    (h0 : V c main_v68 = agg) (h1 : V c main_v55 = h) (h2 : V c main_v71 = wl) (h3 : V c main_v77 = b1)
    (h4 : V c main_v74 = wr) (hb : ∀ q : Fin 128, b1 (ix2 0 q) = b (ix1 q)) (t : Fin cfg2.N) :
    (dat2 V c).flushed 5 t = ((cfg2.win 5).blk t).view.read (Elt Ideal) (layerArr agg h wl wr b) := by
  show (cfg2.win 5).cut (grid2.coords t) ((dat2 V c).after 5 t) = _
  rw [after2_5]
  unfold out2_5
  rw [View.canon_unit_zero hz]
  simp only [View.ld_unit_zero (S := S4000x128) hz, View.ld_unit_zero (S := S128x128) hz, View.ld_unit_zero (S := S1x128) hz]
  funext j
  show k2_pay1 (F := Ideal) (iblk2 V c 0 t) (iblk2 V c 1 t) (iblk2 V c 2 t) (iblk2 V c 4 t) (iblk2 V c 3 t) j
    = layerArr agg h wl wr b (((cfg2.win 5).blk t).view.emb j)
  have ht : t.val < 10 := lt_of_lt_of_eq t.isLt N_2
  obtain ⟨-, -, -, -, -, -, -, -, -, -, e0, e1⟩ := idx_facts t
  have hj : j = ix2 (j 0) (j 1) := eq_ix2 j
  have hp : (j 0).val < 4000 := (j 0).isLt
  have hq : (j 1).val < 128 := (j 1).isLt
  have hemb : ((cfg2.win 5).blk t).view.emb j = ix2 (⟨t.val * 4000 + (j 0).val, by omega⟩ : Fin 40000) (⟨(j 1).val, hq⟩ : Fin 128) := by
    funext a; apply Fin.ext
    match a with
    | ⟨0, _⟩ => show win2_5.index t (0 : Fin 2) * 4000 + 1 * (j 0).val = t.val * 4000 + (j 0).val; omega
    | ⟨1, _⟩ => show win2_5.index t (1 : Fin 2) * 128 + 1 * (j 1).val = (j 1).val; omega
  rw [hemb]
  have hj' : j = ix2 (⟨(j 0).val, hp⟩ : Fin 4000) (⟨(j 1).val, hq⟩ : Fin 128) := hj
  refine (congrArg (k2_pay1 (F := Ideal) (iblk2 V c 0 t) (iblk2 V c 1 t) (iblk2 V c 2 t) (iblk2 V c 4 t) (iblk2 V c 3 t)) hj').trans ?_
  exact point_eq _ _ _ _ _ agg h wl wr b1 b t.val
    (fun r k R hR => rd0 V c t agg h0 r k R hR) (fun r k R hR => rd1 V c t h h1 r k R hR)
    (fun k q => rd2 V c t wl h2 k q) (fun q => rd3 V c t b1 h3 q) (fun k q => rd4 V c t wr h4 k q) hb
    ⟨(j 0).val, hp⟩ ⟨(j 1).val, hq⟩ _ rfl

/-- An index of the result array is in point `t`'s block iff its row lies in rows `4000 t … 4000 t + 3999`. -/
theorem mem_blk (t : Fin cfg2.N) (i : S40000x128.Idx) :
    i ∈ ((cfg2.win 5).blk t).view.set ↔ ∀ a : Fin 2, win2_5.index t a * S4000x128.size a ≤ (i a).val ∧ (i a).val < win2_5.index t a * S4000x128.size a + S4000x128.size a := by
  show i ∈ ((View.whole main_v78).slice (win2_5.rect t)).set ↔ _
  rw [View.set_slice_whole, Rect.mem_set_unit]
  exact Iff.rfl

/-- Every index of the result array lies in the block of the point `row / 4000`. -/
theorem cover (i : S40000x128.Idx) :
    ∃ t : Fin cfg2.N, (cfg2.win 5).flush t = true ∧ i ∈ ((cfg2.win 5).blk t).view.set := by
  have hi0 : (i 0).val < 40000 := (i 0).isLt
  have hi1 : (i 1).val < 128 := (i 1).isLt
  let t : Fin cfg2.N := ⟨(i 0).val / 4000, by rw [show cfg2.N = 10 from N_2]; omega⟩
  refine ⟨t, flush2_5 t, ?_⟩
  rw [mem_blk]
  obtain ⟨-, -, -, -, -, -, -, -, -, -, e0, e1⟩ := idx_facts t
  have htv : t.val = (i 0).val / 4000 := rfl
  intro a
  match a with
  | ⟨0, _⟩ => show win2_5.index t (0 : Fin 2) * 4000 ≤ (i 0).val ∧ (i 0).val < win2_5.index t (0 : Fin 2) * 4000 + 4000; omega
  | ⟨1, _⟩ => show win2_5.index t (1 : Fin 2) * 128 ≤ (i 1).val ∧ (i 1).val < win2_5.index t (1 : Fin 2) * 128 + 128; omega

/-- The result array after the region: the layer of the arrays the region was entered with. -/
theorem final (c : Dev nD) (agg h : A2 40000 128) (wl wr : A2 128 128) (b1 : A2 1 128) (b : A1 128)
    (h0 : V c main_v68 = agg) (h1 : V c main_v55 = h) (h2 : V c main_v71 = wl) (h3 : V c main_v77 = b1)
    (h4 : V c main_v74 = wr) (hb : ∀ q : Fin 128, b1 (ix2 0 q) = b (ix1 q)) :
    (dat2 V c).arrAt 5 cfg2.N = layerArr agg h wl wr b :=
  (dat2 V c).arrAt_eq_of_cover 5 (layerArr agg h wl wr b)
    (fun t _ => flushed_eq V c agg h wl wr b1 b h0 h1 h2 h3 h4 hb t) cover

end Cert.KernelIdeal.Blocks2

end
-- ==== Proof.HostC.lean ====
/-
  The kernel program's buffers up to the third layer's result, as the reference's stages.

  The second region writes only its result array. The host operations before the third region compute the third
  aggregate from the second layer's features, and the third layer's weight and bias slices, as the reference does; the
  third region leaves the specification's layer of them, which is the reference's features after its third layer.
-/
import proofs.«162324_j37752762532360_1_alg».proof.Proof.Gen.KernelIdeal.Frame
import proofs.«162324_j37752762532360_1_alg».proof.Proof.Gen.ReferenceIdeal.Read
import proofs.«162324_j37752762532360_1_alg».proof.Proof.SpecArr
import Idealize.ShloMosaic.Lib.StableHlo.Run
import Idealize.ShloMosaic.Lib.Pipeline.Value
import Idealize.ShloMosaic.Lib.ValueIdx
import proofs.«162324_j37752762532360_1_alg».proof.Proof.HostB
import proofs.«162324_j37752762532360_1_alg».proof.Proof.Blocks2
set_option maxRecDepth 16384

noncomputable section

namespace Cert.KernelIdeal.HostValue

open Cert.KernelIdeal Cert.KernelIdeal.Gen Idealize.ShloMosaic Idealize.ShloMosaic.TcCoe Idealize.SL.Sem
open Idealize.ShloMosaic.StableHlo Idealize.ShloMosaic.ValueIdx Cert.Sage

variable (m : (ℓ : Loc nD τ sig) → Buf (Elt Ideal) ℓ) (ρ : Dev nD → PrngReg) (c : Dev nD)

/-! ## The buffers the second region leaves as they were -/

theorem D_v1 : W4 m ρ c (Proc.devRef .tc main_v1) = Cert.ReferenceIdeal.Read.val_main_v1 (F := Ideal) (X8 m c) :=
  (W4_of_ne m ρ c main_v1 (by decide)).trans (C_v1 m ρ c)

theorem D_v3 : W4 m ρ c (Proc.devRef .tc main_v3) = Cert.ReferenceIdeal.Read.val_main_v3 (F := Ideal) (X8 m c) :=
  (W4_of_ne m ρ c main_v3 (by decide)).trans (C_v3 m ρ c)

theorem D_v9 : W4 m ρ c (Proc.devRef .tc main_v9) = Cert.ReferenceIdeal.Read.val_main_v9 (F := Ideal) (X8 m c) :=
  (W4_of_ne m ρ c main_v9 (by decide)).trans (C_v9 m ρ c)

theorem D_arg1 : W4 m ρ c (Proc.devRef .tc main_arg1) = X1 m c :=
  (W4_of_ne m ρ c main_arg1 (by decide)).trans (C_arg1 m ρ c)

theorem D_arg2 : W4 m ρ c (Proc.devRef .tc main_arg2) = X2 m c :=
  (W4_of_ne m ρ c main_arg2 (by decide)).trans (C_arg2 m ρ c)

theorem D_arg3 : W4 m ρ c (Proc.devRef .tc main_arg3) = X3 m c :=
  (W4_of_ne m ρ c main_arg3 (by decide)).trans (C_arg3 m ρ c)

theorem D_arg4 : W4 m ρ c (Proc.devRef .tc main_arg4) = X4 m c :=
  (W4_of_ne m ρ c main_arg4 (by decide)).trans (C_arg4 m ρ c)

theorem D_arg5 : W4 m ρ c (Proc.devRef .tc main_arg5) = X5 m c :=
  (W4_of_ne m ρ c main_arg5 (by decide)).trans (C_arg5 m ρ c)

theorem D_arg6 : W4 m ρ c (Proc.devRef .tc main_arg6) = X6 m c :=
  (W4_of_ne m ρ c main_arg6 (by decide)).trans (C_arg6 m ρ c)

theorem D_arg7 : W4 m ρ c (Proc.devRef .tc main_arg7) = X7 m c :=
  (W4_of_ne m ρ c main_arg7 (by decide)).trans (C_arg7 m ρ c)

theorem D_arg9 : W4 m ρ c (Proc.devRef .tc main_arg9) = X9 m c :=
  (W4_of_ne m ρ c main_arg9 (by decide)).trans (C_arg9 m ρ c)

/-! ## The buffers when the third region is entered -/

set_option maxHeartbeats 4000000 in
theorem E_v1 : W5 m ρ c (Proc.devRef .tc main_v1) = Cert.ReferenceIdeal.Read.val_main_v1 (F := Ideal) (X8 m c) := by
  show StableHlo.after hostOps2 (W4 m ρ c) (Proc.devRef .tc main_v1) = _
  after_results_simp
  exact D_v1 m ρ c

set_option maxHeartbeats 4000000 in
theorem E_v3 : W5 m ρ c (Proc.devRef .tc main_v3) = Cert.ReferenceIdeal.Read.val_main_v3 (F := Ideal) (X8 m c) := by
  show StableHlo.after hostOps2 (W4 m ρ c) (Proc.devRef .tc main_v3) = _
  after_results_simp
  exact D_v3 m ρ c

set_option maxHeartbeats 4000000 in
theorem E_v9 : W5 m ρ c (Proc.devRef .tc main_v9) = Cert.ReferenceIdeal.Read.val_main_v9 (F := Ideal) (X8 m c) := by
  show StableHlo.after hostOps2 (W4 m ρ c) (Proc.devRef .tc main_v9) = _
  after_results_simp
  exact D_v9 m ρ c

set_option maxHeartbeats 4000000 in
theorem E_arg1 : W5 m ρ c (Proc.devRef .tc main_arg1) = X1 m c := by
  show StableHlo.after hostOps2 (W4 m ρ c) (Proc.devRef .tc main_arg1) = _
  after_results_simp
  exact D_arg1 m ρ c

set_option maxHeartbeats 4000000 in
theorem E_arg2 : W5 m ρ c (Proc.devRef .tc main_arg2) = X2 m c := by
  show StableHlo.after hostOps2 (W4 m ρ c) (Proc.devRef .tc main_arg2) = _
  after_results_simp
  exact D_arg2 m ρ c

set_option maxHeartbeats 4000000 in
theorem E_arg3 : W5 m ρ c (Proc.devRef .tc main_arg3) = X3 m c := by
  show StableHlo.after hostOps2 (W4 m ρ c) (Proc.devRef .tc main_arg3) = _
  after_results_simp
  exact D_arg3 m ρ c

set_option maxHeartbeats 4000000 in
theorem E_arg4 : W5 m ρ c (Proc.devRef .tc main_arg4) = X4 m c := by
  show StableHlo.after hostOps2 (W4 m ρ c) (Proc.devRef .tc main_arg4) = _
  after_results_simp
  exact D_arg4 m ρ c

set_option maxHeartbeats 4000000 in
theorem E_arg5 : W5 m ρ c (Proc.devRef .tc main_arg5) = X5 m c := by
  show StableHlo.after hostOps2 (W4 m ρ c) (Proc.devRef .tc main_arg5) = _
  after_results_simp
  exact D_arg5 m ρ c

set_option maxHeartbeats 4000000 in
theorem E_arg6 : W5 m ρ c (Proc.devRef .tc main_arg6) = X6 m c := by
  show StableHlo.after hostOps2 (W4 m ρ c) (Proc.devRef .tc main_arg6) = _
  after_results_simp
  exact D_arg6 m ρ c

set_option maxHeartbeats 4000000 in
theorem E_arg7 : W5 m ρ c (Proc.devRef .tc main_arg7) = X7 m c := by
  show StableHlo.after hostOps2 (W4 m ρ c) (Proc.devRef .tc main_arg7) = _
  after_results_simp
  exact D_arg7 m ρ c

set_option maxHeartbeats 4000000 in
theorem E_arg9 : W5 m ρ c (Proc.devRef .tc main_arg9) = X9 m c := by
  show StableHlo.after hostOps2 (W4 m ρ c) (Proc.devRef .tc main_arg9) = _
  after_results_simp
  exact D_arg9 m ρ c

set_option maxHeartbeats 4000000 in
theorem E_hprev : W5 m ρ c (Proc.devRef .tc main_v55) = Cert.ReferenceIdeal.Read.val_main_v65 (F := Ideal) (X0 m c) (X1 m c) (X2 m c) (X3 m c) (X8 m c) := by
  show StableHlo.after hostOps2 (W4 m ρ c) (Proc.devRef .tc main_v55) = _
  after_results_simp
  exact D_out m ρ c

set_option maxHeartbeats 4000000 in
theorem E_agg : W5 m ρ c (Proc.devRef .tc main_v68) = Cert.ReferenceIdeal.Read.val_main_v78 (F := Ideal) (X0 m c) (X1 m c) (X2 m c) (X3 m c) (X8 m c) := by
  show StableHlo.after hostOps2 (W4 m ρ c) (Proc.devRef .tc main_v68) = _
  after_results_simp
  rw [D_out m ρ c, D_v1 m ρ c, D_v3 m ρ c, D_v9 m ρ c]
  rfl

set_option maxHeartbeats 4000000 in
theorem E_wl : W5 m ρ c (Proc.devRef .tc main_v71) = Cert.ReferenceIdeal.Read.val_main_v81 (F := Ideal) (X1 m c) := by
  show StableHlo.after hostOps2 (W4 m ρ c) (Proc.devRef .tc main_v71) = _
  after_results_simp
  rw [D_arg1 m ρ c]
  rfl

set_option maxHeartbeats 4000000 in
theorem E_wr : W5 m ρ c (Proc.devRef .tc main_v74) = Cert.ReferenceIdeal.Read.val_main_v90 (F := Ideal) (X3 m c) := by
  show StableHlo.after hostOps2 (W4 m ρ c) (Proc.devRef .tc main_v74) = _
  after_results_simp
  rw [D_arg3 m ρ c]
  rfl

set_option maxHeartbeats 4000000 in
theorem E_brow (hsc : S128.ShapeCasts S1x128) : W5 m ρ c (Proc.devRef .tc main_v77) = shapeCast S1x128 (Cert.ReferenceIdeal.Read.val_main_v84 (F := Ideal) (X2 m c)) hsc := by
  show StableHlo.after hostOps2 (W4 m ρ c) (Proc.devRef .tc main_v77) = _
  after_results_simp
  rw [D_arg2 m ρ c]
  rfl

/-! ## The third region's result -/

/-- The third layer's result array is the reference's features after its third layer. -/
theorem F_out : W6 m ρ c (Proc.devRef .tc main_v78) = Cert.ReferenceIdeal.Read.val_main_v93 (F := Ideal) (X0 m c) (X1 m c) (X2 m c) (X3 m c) (X8 m c) := by
  have hsc : S128.ShapeCasts S1x128 := Cert.KernelIdeal.Facts₀.shapeCasts_S128_S1x128
  refine (W6_arr m ρ c 5).trans ?_
  refine (Blocks2.final (V5 m ρ) c (Cert.ReferenceIdeal.Read.val_main_v78 (F := Ideal) (X0 m c) (X1 m c) (X2 m c) (X3 m c) (X8 m c)) (Cert.ReferenceIdeal.Read.val_main_v65 (F := Ideal) (X0 m c) (X1 m c) (X2 m c) (X3 m c) (X8 m c)) (Cert.ReferenceIdeal.Read.val_main_v81 (F := Ideal) (X1 m c)) (Cert.ReferenceIdeal.Read.val_main_v90 (F := Ideal) (X3 m c))
    (shapeCast S1x128 (Cert.ReferenceIdeal.Read.val_main_v84 (F := Ideal) (X2 m c)) hsc) (Cert.ReferenceIdeal.Read.val_main_v84 (F := Ideal) (X2 m c))
    (E_agg m ρ c) (E_hprev m ρ c) (E_wl m ρ c) (E_brow m ρ c hsc) (E_wr m ρ c) (fun q => row_of_vec _ hsc q)).trans ?_
  exact (Cert.Sage.RefBridge.layer3 (X0 m c) (X1 m c) (X2 m c) (X3 m c) (X8 m c)).symm

end Cert.KernelIdeal.HostValue

end
-- ==== Proof.HeadPay.lean ====
/-
  The head kernel's arithmetic, read entry by entry over the extended reals.

  The kernel computes, on the 64 pooled rows, a hidden layer (the maximum with zero of g · W1 plus the bias row), the ten
  logits (hidden · W2 plus the bias row), the row maximum of the logits started from −∞, the logits less that maximum,
  the row sum of their exponentials, and the shifted logits less the logarithm of that sum. Each step is read at an
  index: a contraction as a sum over the 128 contracted coordinates, a row reduction as a fold or a sum over the ten
  columns, a column kept as a [64, 1] array and spread over ten columns as the same value in every column. Entry (r, c)
  is therefore the log-softmax of row r's logits at class c (headAt).
-/
import proofs.«162324_j37752762532360_1_alg».proof.Proof.Gen.KernelIdeal.Skeleton
import proofs.«162324_j37752762532360_1_alg».proof.Proof.Spec
import Idealize.ShloMosaic.Lib.ValueLayout
import Idealize.ShloMosaic.PureOps.Ideal.Laws

noncomputable section

namespace Cert.Sage.HeadPay

open Idealize.ShloMosaic Idealize.ShloMosaic.ValueIdx Cert.KernelIdeal Cert.KernelIdeal.Gen

/-! ## Two column layouts read at an index -/

section Layout
variable {α : Type}

/-- An [a] array cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's one column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two words -/

/-- The word 0xFF800000 is −∞. -/
theorem ofBits_negInf_f32 : Ideal.ofBits .f32 0xFF800000#32 = ⊥ := by simp [Ideal.ofBits, Ideal.ieee]

/-! ## The two contractions read as sums over the 128 contracted coordinates -/

section Dots

private theorem lhs1_0 (i : S64x128.Idx) (q : dot_S64x128_S128x128_S64x128_1_0_0_1_n_n.contr.Idx) :
    (dot_S64x128_S128x128_S64x128_1_0_0_1_n_n.lhsIdx i q 0).val = (i 0).val := by
  unfold DotDims.lhsIdx
  rw [dif_neg (show ¬(0 : Fin S64x128.rank) ∈ dot_S64x128_S128x128_S64x128_1_0_0_1_n_n.lhsBatch by decide), dif_pos (show (0 : Fin S64x128.rank) ∈ dot_S64x128_S128x128_S64x128_1_0_0_1_n_n.lhsNonContracting by decide)]
  rfl
private theorem lhs1_1 (i : S64x128.Idx) (q : dot_S64x128_S128x128_S64x128_1_0_0_1_n_n.contr.Idx) :
    (dot_S64x128_S128x128_S64x128_1_0_0_1_n_n.lhsIdx i q 1).val = (q ⟨0, by decide⟩).val :=
  dot_S64x128_S128x128_S64x128_1_0_0_1_n_n.lhsIdx_val_of_single rfl i q
private theorem rhs1_0 (i : S64x128.Idx) (q : dot_S64x128_S128x128_S64x128_1_0_0_1_n_n.contr.Idx) :
    (dot_S64x128_S128x128_S64x128_1_0_0_1_n_n.rhsIdx i q 0).val = (q ⟨0, by decide⟩).val :=
  dot_S64x128_S128x128_S64x128_1_0_0_1_n_n.rhsIdx_val_of_single rfl i q
private theorem rhs1_1 (i : S64x128.Idx) (q : dot_S64x128_S128x128_S64x128_1_0_0_1_n_n.contr.Idx) :
    (dot_S64x128_S128x128_S64x128_1_0_0_1_n_n.rhsIdx i q 1).val = (i 1).val := by
  unfold DotDims.rhsIdx
  rw [dif_neg (show ¬(1 : Fin S128x128.rank) ∈ dot_S64x128_S128x128_S64x128_1_0_0_1_n_n.rhsBatch by decide), dif_pos (show (1 : Fin S128x128.rank) ∈ dot_S64x128_S128x128_S64x128_1_0_0_1_n_n.rhsNonContracting by decide)]
  rfl

/-- The first matmul into the zero accumulator: entry (r, k) is the sum over j of x (r, j) · y (j, k). -/
theorem matmul1_apply {φ₁ φ₂ : FTy} (x : FVec Ideal S64x128 φ₁) (y : FVec Ideal S128x128 φ₂) (r : Fin 64) (k : Fin 128) :
    matmul dot_S64x128_S128x128_S64x128_1_0_0_1_n_n none x y (constant (F := Ideal) S64x128 .f32 0x00000000#32) (ix2 r k)
      = ∑ j : Fin 128, x (ix2 r j) * y (ix2 j k) := by
  simp only [matmul]
  rw [Ideal.matmul_constant_zero_apply, ← Equiv.sum_comp (contrEquiv1 dot_S64x128_S128x128_S64x128_1_0_0_1_n_n 128 rfl rfl).symm]
  refine Finset.sum_congr rfl fun j _ => ?_
  have hk := contrEquiv1_symm_val dot_S64x128_S128x128_S64x128_1_0_0_1_n_n 128 rfl rfl j
  have el : dot_S64x128_S128x128_S64x128_1_0_0_1_n_n.lhsIdx (ix2 r k) ((contrEquiv1 dot_S64x128_S128x128_S64x128_1_0_0_1_n_n 128 rfl rfl).symm j) = ix2 r j := funext fun a => Fin.ext (by
    match a with
    | ⟨0, _⟩ => exact lhs1_0 _ _
    | ⟨1, _⟩ => exact (lhs1_1 _ _).trans hk)
  have er : dot_S64x128_S128x128_S64x128_1_0_0_1_n_n.rhsIdx (ix2 r k) ((contrEquiv1 dot_S64x128_S128x128_S64x128_1_0_0_1_n_n 128 rfl rfl).symm j) = ix2 j k := funext fun a => Fin.ext (by
    match a with
    | ⟨0, _⟩ => exact (rhs1_0 _ _).trans hk
    | ⟨1, _⟩ => exact rhs1_1 _ _)
  rw [el, er]

private theorem lhs2_0 (i : S64x10.Idx) (q : dot_S64x128_S128x10_S64x10_1_0_0_1_n_n.contr.Idx) :
    (dot_S64x128_S128x10_S64x10_1_0_0_1_n_n.lhsIdx i q 0).val = (i 0).val := by
  unfold DotDims.lhsIdx
  rw [dif_neg (show ¬(0 : Fin S64x128.rank) ∈ dot_S64x128_S128x10_S64x10_1_0_0_1_n_n.lhsBatch by decide), dif_pos (show (0 : Fin S64x128.rank) ∈ dot_S64x128_S128x10_S64x10_1_0_0_1_n_n.lhsNonContracting by decide)]
  rfl
private theorem lhs2_1 (i : S64x10.Idx) (q : dot_S64x128_S128x10_S64x10_1_0_0_1_n_n.contr.Idx) :
    (dot_S64x128_S128x10_S64x10_1_0_0_1_n_n.lhsIdx i q 1).val = (q ⟨0, by decide⟩).val :=
  dot_S64x128_S128x10_S64x10_1_0_0_1_n_n.lhsIdx_val_of_single rfl i q
private theorem rhs2_0 (i : S64x10.Idx) (q : dot_S64x128_S128x10_S64x10_1_0_0_1_n_n.contr.Idx) :
    (dot_S64x128_S128x10_S64x10_1_0_0_1_n_n.rhsIdx i q 0).val = (q ⟨0, by decide⟩).val :=
  dot_S64x128_S128x10_S64x10_1_0_0_1_n_n.rhsIdx_val_of_single rfl i q
private theorem rhs2_1 (i : S64x10.Idx) (q : dot_S64x128_S128x10_S64x10_1_0_0_1_n_n.contr.Idx) :
    (dot_S64x128_S128x10_S64x10_1_0_0_1_n_n.rhsIdx i q 1).val = (i 1).val := by
  unfold DotDims.rhsIdx
  rw [dif_neg (show ¬(1 : Fin S128x10.rank) ∈ dot_S64x128_S128x10_S64x10_1_0_0_1_n_n.rhsBatch by decide), dif_pos (show (1 : Fin S128x10.rank) ∈ dot_S64x128_S128x10_S64x10_1_0_0_1_n_n.rhsNonContracting by decide)]
  rfl

/-- The second matmul into the zero accumulator: entry (r, c) is the sum over k of x (r, k) · y (k, c). -/
theorem matmul2_apply {φ₁ φ₂ : FTy} (x : FVec Ideal S64x128 φ₁) (y : FVec Ideal S128x10 φ₂) (r : Fin 64) (c : Fin 10) :
    matmul dot_S64x128_S128x10_S64x10_1_0_0_1_n_n none x y (constant (F := Ideal) S64x10 .f32 0x00000000#32) (ix2 r c)
      = ∑ k : Fin 128, x (ix2 r k) * y (ix2 k c) := by
  simp only [matmul]
  rw [Ideal.matmul_constant_zero_apply, ← Equiv.sum_comp (contrEquiv1 dot_S64x128_S128x10_S64x10_1_0_0_1_n_n 128 rfl rfl).symm]
  refine Finset.sum_congr rfl fun k _ => ?_
  have hk := contrEquiv1_symm_val dot_S64x128_S128x10_S64x10_1_0_0_1_n_n 128 rfl rfl k
  have el : dot_S64x128_S128x10_S64x10_1_0_0_1_n_n.lhsIdx (ix2 r c) ((contrEquiv1 dot_S64x128_S128x10_S64x10_1_0_0_1_n_n 128 rfl rfl).symm k) = ix2 r k := funext fun a => Fin.ext (by
    match a with
    | ⟨0, _⟩ => exact lhs2_0 _ _
    | ⟨1, _⟩ => exact (lhs2_1 _ _).trans hk)
  have er : dot_S64x128_S128x10_S64x10_1_0_0_1_n_n.rhsIdx (ix2 r c) ((contrEquiv1 dot_S64x128_S128x10_S64x10_1_0_0_1_n_n 128 rfl rfl).symm k) = ix2 k c := funext fun a => Fin.ext (by
    match a with
    | ⟨0, _⟩ => exact (rhs2_0 _ _).trans hk
    | ⟨1, _⟩ => exact rhs2_1 _ _)
  rw [el, er]

end Dots

/-! ## The payload's stages -/

/-- The hidden layer as the kernel computes it: the first matmul plus the bias row, the maximum with zero. -/
def hidV (v0 : Vec Ideal S64x128 .f32) (v3 : Vec Ideal S128x128 .f32) (v7 : Vec Ideal S1x128 .f32) : FVec Ideal S64x128 .f32 :=
  maximumf
    (addf
      (matmul dot_S64x128_S128x128_S64x128_1_0_0_1_n_n none
        (truncf .bf16 (shapeCast S64x128 v0 shapeCasts_S64x128_S64x128) bitsLt_bf16_f32 : FVec Ideal S64x128 .bf16)
        (truncf .bf16 (shapeCast S128x128 v3 shapeCasts_S128x128_S128x128) bitsLt_bf16_f32 : FVec Ideal S128x128 .bf16)
        (constant S64x128 .f32 0x00000000#32))
      (broadcastTo S64x128 (shapeCast S1x128 v7 shapeCasts_S1x128_S1x128) broadcasts_S1x128_S64x128))
    (broadcast S64x128 (Scalar.ofBits .f32 0x00000000#32))

/-- The logits as the kernel computes them: the second matmul plus the bias row. -/
def logitV (v0 : Vec Ideal S64x128 .f32) (v3 : Vec Ideal S128x128 .f32) (v7 : Vec Ideal S1x128 .f32)
    (v14 : Vec Ideal S128x10 .f32) (v18 : Vec Ideal S1x10 .f32) : FVec Ideal S64x10 .f32 :=
  addf
    (matmul dot_S64x128_S128x10_S64x10_1_0_0_1_n_n none
      (truncf .bf16 (hidV v0 v3 v7) bitsLt_bf16_f32 : FVec Ideal S64x128 .bf16)
      (truncf .bf16 (shapeCast S128x10 v14 shapeCasts_S128x10_S128x10) bitsLt_bf16_f32 : FVec Ideal S128x10 .bf16)
      (constant S64x10 .f32 0x00000000#32))
    (broadcastTo S64x10 (shapeCast S1x10 v18 shapeCasts_S1x10_S1x10) broadcasts_S1x10_S64x10)

/-- The logits less their row maximum, as the kernel computes them. -/
def shiftV (z : FVec Ideal S64x10 .f32) : FVec Ideal S64x10 .f32 :=
  subf z (broadcastTo S64x10
    (shapeCast S64x1 (multiReduction .maximumf [1] S64 z 0xFF800000#32 reduces_S64x10_S64 (.inl rfl) rfl) shapeCasts_S64_S64x1)
    broadcasts_S64x1_S64x10)

/-- The log-softmax as the kernel computes it from the logits. -/
def lsmV (z : FVec Ideal S64x10 .f32) : FVec Ideal S64x10 .f32 :=
  subf (shiftV z) (broadcastTo S64x10
    (log (shapeCast S64x1 (multiReduction .add [1] S64 (exp (shiftV z)) 0x00000000#32 reduces_S64x10_S64 (.inl rfl) rfl) shapeCasts_S64_S64x1))
    broadcasts_S64x1_S64x10)

/-- The payload is the log-softmax of the logits: the same operations, named. -/
theorem k3_pay1_eq (v0 : Vec Ideal S64x128 .f32) (v3 : Vec Ideal S128x128 .f32) (v7 : Vec Ideal S1x128 .f32)
    (v14 : Vec Ideal S128x10 .f32) (v18 : Vec Ideal S1x10 .f32) :
    k3_pay1 (F := Ideal) v0 v3 v7 v14 v18 = lsmV (logitV v0 v3 v7 v14 v18) := rfl

/-! ## Each stage at an index -/

/-- The kernel's hidden layer at (r, k). -/
theorem hidV_at (v0 : Vec Ideal S64x128 .f32) (v3 : Vec Ideal S128x128 .f32) (v7 : Vec Ideal S1x128 .f32)
    (r : Fin 64) (k : Fin 128) :
    hidV v0 v3 v7 (ix2 r k)
      = hiddenAt (fun r j => v0 (ix2 r j)) (fun j k => v3 (ix2 j k)) (fun k => v7 (ix2 0 k)) r k := by
  unfold hidV hiddenAt
  rw [maximumf_apply, addf_apply, matmul1_apply, broadcastTo_1b_ab_apply, broadcast_apply, shapeCast_self, shapeCast_self,
    shapeCast_self]
  show max ((∑ j : Fin 128, v0 (ix2 r j) * v3 (ix2 j k)) + v7 (ix2 0 k)) (Ideal.ofBits .f32 0x00000000#32) = _
  rw [Ideal.ofBits_zero_f32]

/-- The kernel's logits at (r, c). -/
theorem logitV_at (v0 : Vec Ideal S64x128 .f32) (v3 : Vec Ideal S128x128 .f32) (v7 : Vec Ideal S1x128 .f32)
    (v14 : Vec Ideal S128x10 .f32) (v18 : Vec Ideal S1x10 .f32) (r : Fin 64) (c : Fin 10) :
    logitV v0 v3 v7 v14 v18 (ix2 r c)
      = logitAt (fun r j => v0 (ix2 r j)) (fun j k => v3 (ix2 j k)) (fun k => v7 (ix2 0 k)) (fun k c => v14 (ix2 k c))
          (fun c => v18 (ix2 0 c)) r c := by
  unfold logitV logitAt
  rw [addf_apply, matmul2_apply, broadcastTo_1b_ab_apply, shapeCast_self, shapeCast_self]
  refine congrArg (· + v18 (ix2 0 c)) (Finset.sum_congr rfl fun k _ => ?_)
  show hidV v0 v3 v7 (ix2 r k) * v14 (ix2 k c) = _
  rw [hidV_at]

/-- A row of the [64, 10] array with one column coordinate put back is that entry. -/
theorem lift_ix1 (r : Fin 64) (k : Fin 10) : reduces_S64x10_S64.lift (ix1 r) k = ix2 r k := by
  funext a
  match a with
  | ⟨0, _⟩ => exact Fin.ext rfl
  | ⟨1, _⟩ => exact Fin.ext rfl

/-- The row maximum the kernel takes: the fold of max from −∞ over the row's ten entries. -/
theorem rowMax_at (z : FVec Ideal S64x10 .f32) (r : Fin 64) :
    multiReduction (F := Ideal) .maximumf [1] S64 z 0xFF800000#32 reduces_S64x10_S64 (.inl rfl) rfl (ix1 r)
      = (Finset.univ : Finset (Fin 10)).fold max (⊥ : EReal) (fun k => z (ix2 r k)) := by
  refine (Ideal.multiReduction_maximumf_single z 0xFF800000#32 reduces_S64x10_S64 (.inl rfl) rfl (ix1 r)).trans ?_
  show (Finset.univ : Finset (Fin 10)).fold max (Ideal.ofBits .f32 0xFF800000#32) (z ∘ reduces_S64x10_S64.lift (ix1 r)) = _
  rw [ofBits_negInf_f32]
  exact congrArg (fun f => (Finset.univ : Finset (Fin 10)).fold max (⊥ : EReal) f) (funext fun k => congrArg z (lift_ix1 r k))

/-- The row sum the kernel takes: the sum over the row's ten entries. -/
theorem rowSum_at (y : FVec Ideal S64x10 .f32) (r : Fin 64) :
    multiReduction (F := Ideal) .add [1] S64 y 0x00000000#32 reduces_S64x10_S64 (.inl rfl) rfl (ix1 r)
      = ∑ k : Fin 10, y (ix2 r k) := by
  refine (Ideal.multiReduction_add_single y 0x00000000#32 reduces_S64x10_S64 (.inl rfl) rfl (ix1 r)).trans ?_
  show ∑ k : Fin 10, y (reduces_S64x10_S64.lift (ix1 r) k) = _
  exact Finset.sum_congr rfl fun k _ => congrArg y (lift_ix1 r k)

/-- The shifted logits at (r, c): the logit less the row's maximum. -/
theorem shiftV_at (z : FVec Ideal S64x10 .f32) (r : Fin 64) (c : Fin 10) :
    shiftV z (ix2 r c) = z (ix2 r c) - (Finset.univ : Finset (Fin 10)).fold max (⊥ : EReal) (fun k => z (ix2 r k)) := by
  unfold shiftV
  rw [subf_apply, broadcastTo_a1_ab_apply, shapeCast_a_a1_apply, rowMax_at]

/-- The kernel's log-softmax at (r, c). -/
theorem lsmV_at (z : FVec Ideal S64x10 .f32) (r : Fin 64) (c : Fin 10) :
    lsmV z (ix2 r c) = logSoftmaxAt (fun c => z (ix2 r c)) c := by
  unfold lsmV logSoftmaxAt
  rw [subf_apply, broadcastTo_a1_ab_apply, shiftV_at]
  show _ - Ideal.log (shapeCast S64x1 (multiReduction (F := Ideal) .add [1] S64 (exp (shiftV z)) 0x00000000#32 reduces_S64x10_S64 (.inl rfl) rfl) shapeCasts_S64_S64x1 (ix2 r (0 : Fin 1))) = _
  rw [shapeCast_a_a1_apply, rowSum_at]
  refine congrArg (fun s => _ - Ideal.log s) (Finset.sum_congr rfl fun k _ => ?_)
  show Ideal.exp (shiftV z (ix2 r k)) = _
  rw [shiftV_at]

/-! ## The payload at an index -/

/-- Entry (r, c) of what the head kernel stores is the log-softmax of row r's logits at class c. -/
theorem k3_pay1_at (v0 : Vec Ideal S64x128 .f32) (v3 : Vec Ideal S128x128 .f32) (v7 : Vec Ideal S1x128 .f32)
    (v14 : Vec Ideal S128x10 .f32) (v18 : Vec Ideal S1x10 .f32) (r : Fin 64) (c : Fin 10) :
    k3_pay1 (F := Ideal) v0 v3 v7 v14 v18 (ix2 r c)
      = Cert.Sage.headAt (fun r j => v0 (ix2 r j)) (fun j k => v3 (ix2 j k)) (fun k => v7 (ix2 0 k))
          (fun k c => v14 (ix2 k c)) (fun c => v18 (ix2 0 c)) r c := by
  rw [k3_pay1_eq, lsmV_at]
  unfold headAt
  exact congrArg (fun f => logSoftmaxAt f c) (funext fun c' => logitV_at v0 v3 v7 v14 v18 r c')

end Cert.Sage.HeadPay

end
-- ==== Proof.Blocks3.lean ====
/-
  The head's region, from its one block to the whole array.

  The region has a single grid point, which stages the 64 pooled rows, both weight matrices and both bias rows whole
  and writes back the whole `[64, 10]` result. What it writes is the head `headArr` of the arrays the region was entered
  with — entry by entry the log-softmax of the row's logits — so the result array ends holding that function.
-/
import proofs.«162324_j37752762532360_1_alg».proof.Proof.Gen.KernelIdeal.Frame
import proofs.«162324_j37752762532360_1_alg».proof.Proof.SpecArr
import Idealize.ShloMosaic.Lib.Pipeline.Value
import Idealize.ShloMosaic.Lib.ValueIdx
import proofs.«162324_j37752762532360_1_alg».proof.Proof.HeadPay
set_option maxRecDepth 16384

noncomputable section

namespace Cert.KernelIdeal.Blocks3

open Cert.KernelIdeal Cert.KernelIdeal.Gen Idealize.ShloMosaic Idealize.ShloMosaic.TcCoe Idealize.SL.Sem
open Idealize.ShloMosaic.ValueIdx Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Every window's block index is zero at the one grid point. -/
theorem idx_facts : ∀ t : Fin cfg3.N,
    (win3_0.index t (0 : Fin 2) = 0 ∧ win3_0.index t (1 : Fin 2) = 0)
  ∧ (win3_1.index t (0 : Fin 2) = 0 ∧ win3_1.index t (1 : Fin 2) = 0)
  ∧ (win3_2.index t (0 : Fin 2) = 0 ∧ win3_2.index t (1 : Fin 2) = 0)
  ∧ (win3_3.index t (0 : Fin 2) = 0 ∧ win3_3.index t (1 : Fin 2) = 0)
  ∧ (win3_4.index t (0 : Fin 2) = 0 ∧ win3_4.index t (1 : Fin 2) = 0)
  ∧ (win3_5.index t (0 : Fin 2) = 0 ∧ win3_5.index t (1 : Fin 2) = 0) :=
  (by decide +kernel : ∀ t : Fin grid3.N, _)

/-- The pooled rows' block is the whole array. -/
theorem rd0 (c : Dev nD) (t : Fin cfg3.N) (g : A2 64 128) (h0 : V c main_v90 = g) (r : Fin 64) (j : Fin 128) :
    iblk3 V c 0 t (ix2 r j) = g (ix2 r j) := by
  subst h0
  show V c main_v90 (((cfg3.win 0).blk t).view.emb (ix2 r j)) = V c main_v90 (ix2 r j)
  refine congrArg _ (funext fun a => Fin.ext ?_)
  obtain ⟨⟨e0, e1⟩, -, -, -, -, -⟩ := idx_facts t
  match a with
  | ⟨0, _⟩ => show win3_0.index t (0 : Fin 2) * 64 + 1 * r.val = r.val; omega
  | ⟨1, _⟩ => show win3_0.index t (1 : Fin 2) * 128 + 1 * j.val = j.val; omega

/-- The hidden weights' block is the whole matrix. -/
theorem rd1 (c : Dev nD) (t : Fin cfg3.N) (w1 : A2 128 128) (h1 : V c main_v91 = w1) (j : Fin 128) (k : Fin 128) :
    iblk3 V c 1 t (ix2 j k) = w1 (ix2 j k) := by
  subst h1
  show V c main_v91 (((cfg3.win 1).blk t).view.emb (ix2 j k)) = V c main_v91 (ix2 j k)
  refine congrArg _ (funext fun a => Fin.ext ?_)
  obtain ⟨-, ⟨e0, e1⟩, -, -, -, -⟩ := idx_facts t
  match a with
  | ⟨0, _⟩ => show win3_1.index t (0 : Fin 2) * 128 + 1 * j.val = j.val; omega
  | ⟨1, _⟩ => show win3_1.index t (1 : Fin 2) * 128 + 1 * k.val = k.val; omega

/-- The hidden bias row's block is the whole row. -/
theorem rd2 (c : Dev nD) (t : Fin cfg3.N) (b1r : A2 1 128) (h2 : V c main_v93 = b1r) (z : Fin 1) (k : Fin 128) :
    iblk3 V c 2 t (ix2 z k) = b1r (ix2 z k) := by
  subst h2
  show V c main_v93 (((cfg3.win 2).blk t).view.emb (ix2 z k)) = V c main_v93 (ix2 z k)
  refine congrArg _ (funext fun a => Fin.ext ?_)
  obtain ⟨-, -, ⟨e0, e1⟩, -, -, -⟩ := idx_facts t
  match a with
  | ⟨0, _⟩ => show win3_2.index t (0 : Fin 2) * 1 + 1 * z.val = z.val; omega
  | ⟨1, _⟩ => show win3_2.index t (1 : Fin 2) * 128 + 1 * k.val = k.val; omega

/-- The class weights' block is the whole matrix. -/
theorem rd3 (c : Dev nD) (t : Fin cfg3.N) (w2 : A2 128 10) (h3 : V c main_v92 = w2) (k : Fin 128) (q : Fin 10) :
    iblk3 V c 3 t (ix2 k q) = w2 (ix2 k q) := by
  subst h3
  show V c main_v92 (((cfg3.win 3).blk t).view.emb (ix2 k q)) = V c main_v92 (ix2 k q)
  refine congrArg _ (funext fun a => Fin.ext ?_)
  obtain ⟨-, -, -, ⟨e0, e1⟩, -, -⟩ := idx_facts t
  match a with
  | ⟨0, _⟩ => show win3_3.index t (0 : Fin 2) * 128 + 1 * k.val = k.val; omega
  | ⟨1, _⟩ => show win3_3.index t (1 : Fin 2) * 10 + 1 * q.val = q.val; omega

/-- The class bias row's block is the whole row. -/
theorem rd4 (c : Dev nD) (t : Fin cfg3.N) (b2r : A2 1 10) (h4 : V c main_v94 = b2r) (z : Fin 1) (q : Fin 10) :
    iblk3 V c 4 t (ix2 z q) = b2r (ix2 z q) := by
  subst h4
  show V c main_v94 (((cfg3.win 4).blk t).view.emb (ix2 z q)) = V c main_v94 (ix2 z q)
  refine congrArg _ (funext fun a => Fin.ext ?_)
  obtain ⟨-, -, -, -, ⟨e0, e1⟩, -⟩ := idx_facts t
  match a with
  | ⟨0, _⟩ => show win3_4.index t (0 : Fin 2) * 1 + 1 * z.val = z.val; omega
  | ⟨1, _⟩ => show win3_4.index t (1 : Fin 2) * 10 + 1 * q.val = q.val; omega

/-- One entry of the body's result over blocks that are the whole arrays is that entry of the head of the arrays. -/
theorem point_eq (x0 : Vec Ideal S64x128 .f32) (x1 : Vec Ideal S128x128 .f32) (x2 : Vec Ideal S1x128 .f32)
    (x3 : Vec Ideal S128x10 .f32) (x4 : Vec Ideal S1x10 .f32)
    (g : A2 64 128) (w1 : A2 128 128) (b1r : A2 1 128) (b1 : A1 128) (w2 : A2 128 10) (b2r : A2 1 10) (b2 : A1 10)
    (e0 : ∀ (r : Fin 64) (j : Fin 128), x0 (ix2 r j) = g (ix2 r j))
    (e1 : ∀ j k : Fin 128, x1 (ix2 j k) = w1 (ix2 j k))
    (e2 : ∀ k : Fin 128, x2 (ix2 0 k) = b1r (ix2 0 k))
    (e3 : ∀ (k : Fin 128) (q : Fin 10), x3 (ix2 k q) = w2 (ix2 k q))
    (e4 : ∀ q : Fin 10, x4 (ix2 0 q) = b2r (ix2 0 q))
    (hb1 : ∀ k : Fin 128, b1r (ix2 0 k) = b1 (ix1 k)) (hb2 : ∀ q : Fin 10, b2r (ix2 0 q) = b2 (ix1 q))
    (r : Fin 64) (q : Fin 10) :
    k3_pay1 (F := Ideal) x0 x1 x2 x3 x4 (ix2 r q) = headArr g w1 b1 w2 b2 (ix2 r q) := by
  rw [Cert.Sage.HeadPay.k3_pay1_at, headArr_ix2]
  unfold headAt logitAt hiddenAt
  simp only [e0, e1, e2, e3, e4, hb1, hb2]

/-- What the one point writes back is the (whole) block of the head of the arrays as the region finds them. -/
theorem flushed_eq (c : Dev nD) (g : A2 64 128) (w1 : A2 128 128) (b1r : A2 1 128) (b1 : A1 128) (w2 : A2 128 10)
    (b2r : A2 1 10) (b2 : A1 10)
    (h0 : V c main_v90 = g) (h1 : V c main_v91 = w1) (h2 : V c main_v93 = b1r) (h3 : V c main_v92 = w2)
    (h4 : V c main_v94 = b2r)
    (hb1 : ∀ k : Fin 128, b1r (ix2 0 k) = b1 (ix1 k)) (hb2 : ∀ q : Fin 10, b2r (ix2 0 q) = b2 (ix1 q))
    (t : Fin cfg3.N) :
    (dat3 V c).flushed 5 t = ((cfg3.win 5).blk t).view.read (Elt Ideal) (headArr g w1 b1 w2 b2) := by
  show (cfg3.win 5).cut (grid3.coords t) ((dat3 V c).after 5 t) = _
  rw [after3_5]
  unfold out3_5
  rw [View.canon_unit_zero hz]
  simp only [View.ld_unit_zero (S := S64x128) hz, View.ld_unit_zero (S := S128x128) hz, View.ld_unit_zero (S := S1x128) hz,
    View.ld_unit_zero (S := S128x10) hz, View.ld_unit_zero (S := S1x10) hz]
  funext j
  show k3_pay1 (F := Ideal) (iblk3 V c 0 t) (iblk3 V c 1 t) (iblk3 V c 2 t) (iblk3 V c 3 t) (iblk3 V c 4 t) j
    = headArr g w1 b1 w2 b2 (((cfg3.win 5).blk t).view.emb j)
  obtain ⟨-, -, -, -, -, ⟨e0, e1⟩⟩ := idx_facts t
  have hp : (j 0).val < 64 := (j 0).isLt
  have hq : (j 1).val < 10 := (j 1).isLt
  have hemb : ((cfg3.win 5).blk t).view.emb j = ix2 (⟨(j 0).val, hp⟩ : Fin 64) (⟨(j 1).val, hq⟩ : Fin 10) := by
    funext a; apply Fin.ext
    match a with
    | ⟨0, _⟩ => show win3_5.index t (0 : Fin 2) * 64 + 1 * (j 0).val = (j 0).val; omega
    | ⟨1, _⟩ => show win3_5.index t (1 : Fin 2) * 10 + 1 * (j 1).val = (j 1).val; omega
  rw [hemb]
  have hj' : j = ix2 (⟨(j 0).val, hp⟩ : Fin 64) (⟨(j 1).val, hq⟩ : Fin 10) := eq_ix2 j
  refine (congrArg (k3_pay1 (F := Ideal) (iblk3 V c 0 t) (iblk3 V c 1 t) (iblk3 V c 2 t) (iblk3 V c 3 t) (iblk3 V c 4 t)) hj').trans ?_
  exact point_eq _ _ _ _ _ g w1 b1r b1 w2 b2r b2
    (fun r j => rd0 V c t g h0 r j) (fun j k => rd1 V c t w1 h1 j k) (fun k => rd2 V c t b1r h2 0 k)
    (fun k q => rd3 V c t w2 h3 k q) (fun q => rd4 V c t b2r h4 0 q) hb1 hb2 ⟨(j 0).val, hp⟩ ⟨(j 1).val, hq⟩

/-- An index of the result array is in the one point's block iff each coordinate is in the block's range. -/
theorem mem_blk (t : Fin cfg3.N) (i : S64x10.Idx) :
    i ∈ ((cfg3.win 5).blk t).view.set ↔ ∀ a : Fin 2, win3_5.index t a * S64x10.size a ≤ (i a).val ∧ (i a).val < win3_5.index t a * S64x10.size a + S64x10.size a := by
  show i ∈ ((View.whole main_v95).slice (win3_5.rect t)).set ↔ _
  rw [View.set_slice_whole, Rect.mem_set_unit]
  exact Iff.rfl

/-- The one block is the whole result array. -/
theorem cover (i : S64x10.Idx) :
    ∃ t : Fin cfg3.N, (cfg3.win 5).flush t = true ∧ i ∈ ((cfg3.win 5).blk t).view.set := by
  have hi0 : (i 0).val < 64 := (i 0).isLt
  have hi1 : (i 1).val < 10 := (i 1).isLt
  refine ⟨t3_0, flush3_5 t3_0, ?_⟩
  rw [mem_blk]
  obtain ⟨-, -, -, -, -, ⟨e0, e1⟩⟩ := idx_facts t3_0
  intro a
  match a with
  | ⟨0, _⟩ => show win3_5.index t3_0 (0 : Fin 2) * 64 ≤ (i 0).val ∧ (i 0).val < win3_5.index t3_0 (0 : Fin 2) * 64 + 64; omega
  | ⟨1, _⟩ => show win3_5.index t3_0 (1 : Fin 2) * 10 ≤ (i 1).val ∧ (i 1).val < win3_5.index t3_0 (1 : Fin 2) * 10 + 10; omega

/-- The result array after the region: the head of the arrays the region was entered with. -/
theorem final (c : Dev nD) (g : A2 64 128) (w1 : A2 128 128) (b1r : A2 1 128) (b1 : A1 128) (w2 : A2 128 10)
    (b2r : A2 1 10) (b2 : A1 10)
    (h0 : V c main_v90 = g) (h1 : V c main_v91 = w1) (h2 : V c main_v93 = b1r) (h3 : V c main_v92 = w2)
    (h4 : V c main_v94 = b2r)
    (hb1 : ∀ k : Fin 128, b1r (ix2 0 k) = b1 (ix1 k)) (hb2 : ∀ q : Fin 10, b2r (ix2 0 q) = b2 (ix1 q)) :
    (dat3 V c).arrAt 5 cfg3.N = headArr g w1 b1 w2 b2 :=
  (dat3 V c).arrAt_eq_of_cover 5 (headArr g w1 b1 w2 b2)
    (fun t _ => flushed_eq V c g w1 b1r b1 w2 b2r b2 h0 h1 h2 h3 h4 hb1 hb2 t) cover

end Cert.KernelIdeal.Blocks3

end
-- ==== Proof.HostD.lean ====
/-
  The kernel program's result, as the reference's result.

  After the third region the host operations pool the third layer's features per graph (the per-graph sums divided by the
  per-graph counts), transpose the head's weight matrices and re-lay its bias vectors as rows, as the reference does;
  the head's region leaves the specification's head of them in the result buffer — the reference's result of the same
  launch arrays.
-/
import proofs.«162324_j37752762532360_1_alg».proof.Proof.Gen.KernelIdeal.Frame
import proofs.«162324_j37752762532360_1_alg».proof.Proof.Gen.ReferenceIdeal.Read
import proofs.«162324_j37752762532360_1_alg».proof.Proof.SpecArr
import Idealize.ShloMosaic.Lib.StableHlo.Run
import Idealize.ShloMosaic.Lib.Pipeline.Value
import Idealize.ShloMosaic.Lib.ValueIdx
import proofs.«162324_j37752762532360_1_alg».proof.Proof.HostC
import proofs.«162324_j37752762532360_1_alg».proof.Proof.Blocks3
set_option maxRecDepth 16384

noncomputable section

namespace Cert.KernelIdeal.HostValue

open Cert.KernelIdeal Cert.KernelIdeal.Gen Idealize.ShloMosaic Idealize.ShloMosaic.TcCoe Idealize.SL.Sem
open Idealize.ShloMosaic.StableHlo Idealize.ShloMosaic.ValueIdx Cert.Sage

variable (m : (ℓ : Loc nD τ sig) → Buf (Elt Ideal) ℓ) (ρ : Dev nD → PrngReg) (c : Dev nD)

/-! ## The buffers the third region leaves as they were -/

theorem F_arg4 : W6 m ρ c (Proc.devRef .tc main_arg4) = X4 m c :=
  (W6_of_ne m ρ c main_arg4 (by decide)).trans (E_arg4 m ρ c)

theorem F_arg5 : W6 m ρ c (Proc.devRef .tc main_arg5) = X5 m c :=
  (W6_of_ne m ρ c main_arg5 (by decide)).trans (E_arg5 m ρ c)

theorem F_arg6 : W6 m ρ c (Proc.devRef .tc main_arg6) = X6 m c :=
  (W6_of_ne m ρ c main_arg6 (by decide)).trans (E_arg6 m ρ c)

theorem F_arg7 : W6 m ρ c (Proc.devRef .tc main_arg7) = X7 m c :=
  (W6_of_ne m ρ c main_arg7 (by decide)).trans (E_arg7 m ρ c)

theorem F_arg9 : W6 m ρ c (Proc.devRef .tc main_arg9) = X9 m c :=
  (W6_of_ne m ρ c main_arg9 (by decide)).trans (E_arg9 m ρ c)

/-! ## The buffers when the head's region is entered -/

set_option maxHeartbeats 4000000 in
theorem G_pool : W7 m ρ c (Proc.devRef .tc main_v90) = Cert.ReferenceIdeal.Read.val_main_v105 (F := Ideal) (X0 m c) (X1 m c) (X2 m c) (X3 m c) (X8 m c) (X9 m c) := by
  show StableHlo.after hostOps3 (W6 m ρ c) (Proc.devRef .tc main_v90) = _
  after_results_simp
  rw [F_out m ρ c, F_arg9 m ρ c]
  rfl

set_option maxHeartbeats 4000000 in
theorem G_w1 : W7 m ρ c (Proc.devRef .tc main_v91) = Cert.ReferenceIdeal.Read.val_main_v106 (F := Ideal) (X4 m c) := by
  show StableHlo.after hostOps3 (W6 m ρ c) (Proc.devRef .tc main_v91) = _
  after_results_simp
  rw [F_arg4 m ρ c]
  rfl

set_option maxHeartbeats 4000000 in
theorem G_w2 : W7 m ρ c (Proc.devRef .tc main_v92) = Cert.ReferenceIdeal.Read.val_main_v112 (F := Ideal) (X6 m c) := by
  show StableHlo.after hostOps3 (W6 m ρ c) (Proc.devRef .tc main_v92) = _
  after_results_simp
  rw [F_arg6 m ρ c]
  rfl

set_option maxHeartbeats 4000000 in
theorem G_b1row (hsc : S128.ShapeCasts S1x128) : W7 m ρ c (Proc.devRef .tc main_v93) = shapeCast S1x128 (X5 m c) hsc := by
  show StableHlo.after hostOps3 (W6 m ρ c) (Proc.devRef .tc main_v93) = _
  after_results_simp
  rw [F_arg5 m ρ c]
  rfl

set_option maxHeartbeats 4000000 in
theorem G_b2row (hsc : S10.ShapeCasts S1x10) : W7 m ρ c (Proc.devRef .tc main_v94) = shapeCast S1x10 (X7 m c) hsc := by
  show StableHlo.after hostOps3 (W6 m ρ c) (Proc.devRef .tc main_v94) = _
  after_results_simp
  rw [F_arg7 m ρ c]
  rfl

/-! ## The program's result -/

/-- The kernel program's result buffer after its last region is the reference's result of the same launch arrays. -/
theorem result_eq : W8 m ρ c (Proc.devRef .tc main_v95) = Cert.ReferenceIdeal.Read.val_main_v117 (F := Ideal) (X0 m c) (X1 m c) (X2 m c) (X3 m c) (X4 m c) (X5 m c) (X6 m c) (X7 m c) (X8 m c) (X9 m c) := by
  have hsc1 : S128.ShapeCasts S1x128 := Cert.KernelIdeal.Facts₀.shapeCasts_S128_S1x128
  have hsc2 : S10.ShapeCasts S1x10 := Cert.KernelIdeal.Facts₀.shapeCasts_S10_S1x10
  refine (W8_arr m ρ c 5).trans ?_
  refine (Blocks3.final (V7 m ρ) c (Cert.ReferenceIdeal.Read.val_main_v105 (F := Ideal) (X0 m c) (X1 m c) (X2 m c) (X3 m c) (X8 m c) (X9 m c)) (Cert.ReferenceIdeal.Read.val_main_v106 (F := Ideal) (X4 m c)) (shapeCast S1x128 (X5 m c) hsc1) (X5 m c)
    (Cert.ReferenceIdeal.Read.val_main_v112 (F := Ideal) (X6 m c)) (shapeCast S1x10 (X7 m c) hsc2) (X7 m c)
    (G_pool m ρ c) (G_w1 m ρ c) (G_b1row m ρ c hsc1) (G_w2 m ρ c) (G_b2row m ρ c hsc2)
    (fun k => row_of_vec _ hsc1 k) (fun q => row_of_vec _ hsc2 q)).trans ?_
  exact (Cert.Sage.RefBridge.head (X0 m c) (X1 m c) (X2 m c) (X3 m c) (X4 m c) (X5 m c) (X6 m c) (X7 m c) (X8 m c) (X9 m c)).symm

end Cert.KernelIdeal.HostValue

end
-- ==== Proof.lean ====
/-
  A three-layer GraphSAGE network with a mean-pooled classification head: the Pallas kernels' program against the jnp
  reference, over the extended reals.

  Both programs compute, on the host, the in-degrees, and per layer the mean aggregate of the neighbours' features
  (a gather along the source nodes, a scatter-add onto the target nodes, a division by the degree); per layer
  `h ← relu (agg · Wlᵀ + h · Wrᵀ + b)`; then the per-graph mean of the last features and
  `log_softmax (relu (g · W1ᵀ + b1) · W2ᵀ + b2)`. The kernel program runs each layer as a region over ten blocks of 4000
  rows and the head as a one-block region; the reference runs them as host operations.

  At the ideal instance a change of float format is the identity and a matrix product into a zero accumulator is the
  plain contraction, so each region's result array is ONE function of the arrays the region was entered with
  (`layerArr`, `headArr`: Spec, SpecArr, Blocks0–3 over the payload lemmas LayerPay, HeadPay), and the reference's
  corresponding stages are the same functions of its stages (LayerRef, HeadRef, RefBridge): the layer sums differ only
  in where the bias is added, which commutativity and associativity of addition on the extended reals settle, and the
  reference's extra maximum with −∞ in its log-softmax is the identity. The host operations between the regions are the
  same operations in both programs (HostA–HostD walk the kernel program's buffers from the launch memory to the result).
  No finiteness of the inputs is used.

  The three frames are the generated ones (the reference's is its generated run with the result dropped); the
  idealization rewrote no operation, so `preserves` is `True`.
-/
import proofs.«162324_j37752762532360_1_alg».proof.Defs
import proofs.«162324_j37752762532360_1_alg».proof.Proof.Gen.Kernel
import proofs.«162324_j37752762532360_1_alg».proof.Proof.Gen.Kernel.Skeleton
import proofs.«162324_j37752762532360_1_alg».proof.Proof.Gen.Kernel.Launch
import proofs.«162324_j37752762532360_1_alg».proof.Proof.Gen.Kernel.Points
import proofs.«162324_j37752762532360_1_alg».proof.Proof.Gen.Kernel.Frame
import proofs.«162324_j37752762532360_1_alg».proof.Proof.Gen.KernelIdeal
import proofs.«162324_j37752762532360_1_alg».proof.Proof.Gen.KernelIdeal.Skeleton
import proofs.«162324_j37752762532360_1_alg».proof.Proof.Gen.KernelIdeal.Launch
import proofs.«162324_j37752762532360_1_alg».proof.Proof.Gen.KernelIdeal.Points
import proofs.«162324_j37752762532360_1_alg».proof.Proof.Gen.KernelIdeal.Frame
import proofs.«162324_j37752762532360_1_alg».proof.Proof.Gen.ReferenceIdeal
import proofs.«162324_j37752762532360_1_alg».proof.Proof.Gen.Pre_finite_inputs
import proofs.«162324_j37752762532360_1_alg».proof.Proof.Gen.ReferenceIdeal.Run
import proofs.«162324_j37752762532360_1_alg».proof.Proof.Gen.ReferenceIdeal.Read
import proofs.«162324_j37752762532360_1_alg».proof.Proof.KernelRun
import proofs.«162324_j37752762532360_1_alg».proof.Proof.HostD
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result: the kernel program's result buffer
    holds the reference's result term of its own launch arrays, which are the reference's. -/
theorem algebraic : Cert.algebraic_KernelIdeal_ReferenceIdeal := by
  intro m ρ m' ρ' _ hagree
  refine ⟨fun c => Cert.KernelIdeal.Gen.W8 m ρ c (Proc.devRef .tc Cert.KernelIdeal.main_v95),
    Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v117_eq, a0, a1, a2, a3, a4, a5, a6, a7, a8, a9]
  exact (Cert.KernelIdeal.HostValue.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
